-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v89)) (v2 : (c : Dev Cert.KernelIdeal.nD) → Buf (Elt Ideal) ((c.tc : Thread Cert.KernelIdeal.nD Cert.KernelIdeal.τ).loc Cert.KernelIdeal.main_v91)) (v3 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_v91) = v2 c
          ∧ r.2.mem ((c.tc : Thread Cert.KernelIdeal.nD Cert.KernelIdeal.τ).loc Cert.KernelIdeal.main_v93) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_v170) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x128 .f32) (main_arg8 : FVec F S128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : FVec F S50000x128 .f32) (main_arg2 : FVec F S50000x128 .f32) (main_arg3 : FVec F S50000x128 .f32) (main_arg4 : IVec S2x800000 32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x128 .f32 := Host.absf main_arg3
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 125
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S50000x128, .f32⟩
  | .hbm, ⟨3, _⟩ => ⟨S50000x128, .f32⟩
  | .hbm, ⟨4, _⟩ => ⟨S2x800000, .i32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S50000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S1x800000, .i32⟩
  | .hbm, ⟨14, _⟩ => ⟨S800000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x1, .f32⟩
  | .hbm, ⟨79, _⟩ => ⟨S850000x128, .f32⟩
  | .hbm, ⟨80, _⟩ => ⟨S850000x128, .f32⟩
  | .hbm, ⟨81, _⟩ => ⟨S_, .f32⟩
  | .hbm, ⟨82, _⟩ => ⟨S50000x128, .f32⟩
  | .hbm, ⟨83, _⟩ => ⟨S850000x1, .i32⟩
  | .hbm, ⟨84, _⟩ => ⟨S50000x128, .f32⟩
  | .hbm, ⟨85, _⟩ => ⟨S_, .i32⟩
  | .hbm, ⟨86, _⟩ => ⟨S850000, .i32⟩
  | .hbm, ⟨87, _⟩ => ⟨S850000, .i1⟩
  | .hbm, ⟨88, _⟩ => ⟨S_, .i32⟩
  | .hbm, ⟨89, _⟩ => ⟨S850000, .i32⟩
  | .hbm, ⟨90, _⟩ => ⟨S850000, .i32⟩
  | .hbm, ⟨91, _⟩ => ⟨S850000, .i32⟩
  | .hbm, ⟨92, _⟩ => ⟨S850000x1, .i32⟩
  | .hbm, ⟨93, _⟩ => ⟨S850000x128, .f32⟩
  | .hbm, ⟨94, _⟩ => ⟨S850000x1, .f32⟩
  | .hbm, ⟨95, _⟩ => ⟨S850000x128, .f32⟩
  | .hbm, ⟨96, _⟩ => ⟨S850000x128, .f32⟩
  | .hbm, ⟨97, _⟩ => ⟨S_, .f32⟩
  | .hbm, ⟨98, _⟩ => ⟨S50000x128, .f32⟩
  | .hbm, ⟨99, _⟩ => ⟨S850000x1, .i32⟩
  | .hbm, ⟨100, _⟩ => ⟨S50000x128, .f32⟩
  | .hbm, ⟨101, _⟩ => ⟨S_, .i32⟩
  | .hbm, ⟨102, _⟩ => ⟨S850000, .i32⟩
  | .hbm, ⟨103, _⟩ => ⟨S850000, .i1⟩
  | .hbm, ⟨104, _⟩ => ⟨S_, .i32⟩
  | .hbm, ⟨105, _⟩ => ⟨S850000, .i32⟩
  | .hbm, ⟨106, _⟩ => ⟨S850000, .i32⟩
  | .hbm, ⟨107, _⟩ => ⟨S850000, .i32⟩
  | .hbm, ⟨108, _⟩ => ⟨S850000x1, .i32⟩
  | .hbm, ⟨109, _⟩ => ⟨S850000x128, .f32⟩
  | .hbm, ⟨110, _⟩ => ⟨S850000x1, .f32⟩
  | .hbm, ⟨111, _⟩ => ⟨S850000x128, .f32⟩
  | .hbm, ⟨112, _⟩ => ⟨S850000x128, .f32⟩
  | .hbm, ⟨113, _⟩ => ⟨S_, .f32⟩
  | .hbm, ⟨114, _⟩ => ⟨S50000x128, .f32⟩
  | .hbm, ⟨115, _⟩ => ⟨S850000x1, .i32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S1x128, .f32⟩
  | .hbm, ⟨120, _⟩ => ⟨S50000x128, .f32⟩
  | .hbm, ⟨121, _⟩ => ⟨S1x128, .f32⟩
  | .hbm, ⟨122, _⟩ => ⟨S50000x128, .f32⟩
  | .hbm, ⟨123, _⟩ => ⟨S1x128, .f32⟩
  | .hbm, ⟨124, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_c_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg2) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg3) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v33) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v46) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v59) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v88) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v72) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v90) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v91) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v85) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 232
  | .vmem => 0
  | .smem => 0
  | _ => 0

abbrev hbmTy0_0 (i : Nat) : BufTy := match i % 128 with
  | 0 => ⟨S50000x128, .f32⟩
  | 1 => ⟨S50000x128, .f32⟩
  | 2 => ⟨S50000x128, .f32⟩
  | 3 => ⟨S50000x128, .f32⟩
  | 4 => ⟨S2x800000, .i32⟩
  | 5 => ⟨S128x128, .f32⟩
  | 6 => ⟨S128, .f32⟩
  | 7 => ⟨S128x128, .f32⟩
  | 8 => ⟨S128, .f32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S128x128, .f32⟩
  | 17 => ⟨S50000x128, .f32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S128x128, .f32⟩
  | 71 => ⟨S50000x128, .f32⟩
  | 72 => ⟨S_, .f32⟩
  | 73 => ⟨S850000, .f32⟩
  | 74 => ⟨S_, .f32⟩
  | 75 => ⟨S50000, .f32⟩
  | 76 => ⟨S850000x1, .i32⟩
  | 77 => ⟨S50000, .f32⟩
  | 78 => ⟨S_, .f32⟩
  | 79 => ⟨S50000, .f32⟩
  | 80 => ⟨S50000, .i1⟩
  | 81 => ⟨S50000, .f32⟩
  | 82 => ⟨S_, .f32⟩
  | 83 => ⟨S_, .f32⟩
  | 84 => ⟨S50000, .f32⟩
  | 85 => ⟨S50000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000, .f32⟩
  | 104 => ⟨S850000, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x1, .f32⟩
  | 115 => ⟨S850000x128, .f32⟩
  | 116 => ⟨S850000x128, .f32⟩
  | 117 => ⟨S_, .f32⟩
  | 118 => ⟨S50000x128, .f32⟩
  | 119 => ⟨S850000x1, .i32⟩
  | 120 => ⟨S50000x128, .f32⟩
  | 121 => ⟨S1x128, .f32⟩
  | 122 => ⟨S50000x128, .f32⟩
  | 123 => ⟨S50000x128, .f32⟩
  | 124 => ⟨S128x128, .f32⟩
  | 125 => ⟨S50000x128, .f32⟩
  | 126 => ⟨S_, .f32⟩
  | 127 => ⟨S850000, .f32⟩
  | _ => ⟨S50000x128, .f32⟩

abbrev hbmTy0_1 (i : Nat) : BufTy := match i % 128 with
  | 0 => ⟨S_, .f32⟩
  | 1 => ⟨S50000, .f32⟩
  | 2 => ⟨S850000x1, .i32⟩
  | 3 => ⟨S50000, .f32⟩
  | 4 => ⟨S_, .f32⟩
  | 5 => ⟨S50000, .f32⟩
  | 6 => ⟨S50000, .i1⟩
  | 7 => ⟨S50000, .f32⟩
  | 8 => ⟨S_, .f32⟩
  | 9 => ⟨S_, .f32⟩
  | 10 => ⟨S50000, .f32⟩
  | 11 => ⟨S50000, .f32⟩
  | 12 => ⟨S_, .i32⟩
  | 13 => ⟨S850000, .i32⟩
  | 14 => ⟨S850000, .i1⟩
  | 15 => ⟨S_, .i32⟩
  | 16 => ⟨S850000, .i32⟩
  | 17 => ⟨S850000, .i32⟩
  | 18 => ⟨S850000, .i32⟩
  | 19 => ⟨S850000x1, .i32⟩
  | 20 => ⟨S850000, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000, .f32⟩
  | 30 => ⟨S850000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000x128, .f32⟩
  | 40 => ⟨S850000x1, .f32⟩
  | 41 => ⟨S850000x128, .f32⟩
  | 42 => ⟨S850000x128, .f32⟩
  | 43 => ⟨S_, .f32⟩
  | 44 => ⟨S50000x128, .f32⟩
  | 45 => ⟨S850000x1, .i32⟩
  | 46 => ⟨S50000x128, .f32⟩
  | 47 => ⟨S1x128, .f32⟩
  | 48 => ⟨S50000x128, .f32⟩
  | 49 => ⟨S50000x128, .f32⟩
  | 50 => ⟨S128x128, .f32⟩
  | 51 => ⟨S50000x128, .f32⟩
  | 52 => ⟨S_, .f32⟩
  | 53 => ⟨S850000, .f32⟩
  | 54 => ⟨S_, .f32⟩
  | 55 => ⟨S50000, .f32⟩
  | 56 => ⟨S850000x1, .i32⟩
  | 57 => ⟨S50000, .f32⟩
  | 58 => ⟨S_, .f32⟩
  | 59 => ⟨S50000, .f32⟩
  | 60 => ⟨S50000, .i1⟩
  | 61 => ⟨S50000, .f32⟩
  | 62 => ⟨S_, .f32⟩
  | 63 => ⟨S_, .f32⟩
  | 64 => ⟨S50000, .f32⟩
  | 65 => ⟨S50000, .f32⟩
  | 66 => ⟨S_, .i32⟩
  | 67 => ⟨S850000, .i32⟩
  | 68 => ⟨S850000, .i1⟩
  | 69 => ⟨S_, .i32⟩
  | 70 => ⟨S850000, .i32⟩
  | 71 => ⟨S850000, .i32⟩
  | 72 => ⟨S850000, .i32⟩
  | 73 => ⟨S850000x1, .i32⟩
  | 74 => ⟨S850000, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000, .f32⟩
  | 84 => ⟨S850000, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000x128, .f32⟩
  | 94 => ⟨S850000x1, .f32⟩
  | 95 => ⟨S850000x128, .f32⟩
  | 96 => ⟨S850000x128, .f32⟩
  | 97 => ⟨S_, .f32⟩
  | 98 => ⟨S50000x128, .f32⟩
  | 99 => ⟨S850000x1, .i32⟩
  | 100 => ⟨S50000x128, .f32⟩
  | 101 => ⟨S1x128, .f32⟩
  | 102 => ⟨S50000x128, .f32⟩
  | 103 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_v57 : Ref sig .tc := ⟨.hbm, 85, rfl⟩
abbrev main_c_13 : Ref sig .tc := ⟨.hbm, 86, rfl⟩
abbrev main_v58 : Ref sig .tc := ⟨.hbm, 87, rfl⟩
abbrev main_v59 : Ref sig .tc := ⟨.hbm, 88, rfl⟩
abbrev main_c_14 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_15 : Ref sig .tc := ⟨.hbm, 95, rfl⟩
abbrev main_v65 : Ref sig .tc := ⟨.hbm, 96, rfl⟩
abbrev main_v66 : Ref sig .tc := ⟨.hbm, 97, rfl⟩
abbrev main_c_16 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_17 : Ref sig .tc := ⟨.hbm, 105, rfl⟩
abbrev main_v73 : Ref sig .tc := ⟨.hbm, 106, rfl⟩
abbrev main_v74 : Ref sig .tc := ⟨.hbm, 107, rfl⟩
abbrev main_c_18 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_19 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_cst_21 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_22 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_23 : Ref sig .tc := ⟨.hbm, 136, rfl⟩
abbrev main_call2_v0 : Ref sig .tc := ⟨.hbm, 137, rfl⟩
abbrev main_call2_v1 : Ref sig .tc := ⟨.hbm, 138, rfl⟩
abbrev main_v98 : Ref sig .tc := ⟨.hbm, 139, rfl⟩
abbrev main_c_24 : Ref sig .tc := ⟨.hbm, 140, rfl⟩
abbrev main_v99 : Ref sig .tc := ⟨.hbm, 141, rfl⟩
abbrev main_v100 : Ref sig .tc := ⟨.hbm, 142, rfl⟩
abbrev main_c_25 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_26 : Ref sig .tc := ⟨.hbm, 149, rfl⟩
abbrev main_v106 : Ref sig .tc := ⟨.hbm, 150, rfl⟩
abbrev main_v107 : Ref sig .tc := ⟨.hbm, 151, rfl⟩
abbrev main_c_27 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_c_28 : Ref sig .tc := ⟨.hbm, 159, rfl⟩
abbrev main_v114 : Ref sig .tc := ⟨.hbm, 160, rfl⟩
abbrev main_v115 : Ref sig .tc := ⟨.hbm, 161, rfl⟩
abbrev main_c_29 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_30 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_31 : Ref sig .tc := ⟨.hbm, 180, rfl⟩
abbrev main_v132 : Ref sig .tc := ⟨.hbm, 181, rfl⟩
abbrev main_cst_32 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_33 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_cst_34 : Ref sig .tc := ⟨.hbm, 190, rfl⟩
abbrev main_call3_v0 : Ref sig .tc := ⟨.hbm, 191, rfl⟩
abbrev main_call3_v1 : Ref sig .tc := ⟨.hbm, 192, rfl⟩
abbrev main_v139 : Ref sig .tc := ⟨.hbm, 193, rfl⟩
abbrev main_c_35 : Ref sig .tc := ⟨.hbm, 194, rfl⟩
abbrev main_v140 : Ref sig .tc := ⟨.hbm, 195, rfl⟩
abbrev main_v141 : Ref sig .tc := ⟨.hbm, 196, rfl⟩
abbrev main_c_36 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_c_37 : Ref sig .tc := ⟨.hbm, 203, rfl⟩
abbrev main_v147 : Ref sig .tc := ⟨.hbm, 204, rfl⟩
abbrev main_v148 : Ref sig .tc := ⟨.hbm, 205, rfl⟩
abbrev main_c_38 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_c_39 : Ref sig .tc := ⟨.hbm, 213, rfl⟩
abbrev main_v155 : Ref sig .tc := ⟨.hbm, 214, rfl⟩
abbrev main_v156 : Ref sig .tc := ⟨.hbm, 215, rfl⟩
abbrev main_c_40 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_41 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  transposes_S128x128_S128x128_1_0 : S128x128.Transposes [1, 0] S128x128
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The kernel program's run with its results named.

  The program is fifteen segments: stretches of host operations and eight pallas calls. The contents of every buffer at
  each boundary between segments are a fold from the launch memory: a host stretch applies its operations, a call leaves
  its arrays at what its points wrote back and every other buffer as it was. Every weakly fair execution runs the
  segments in order and ends with every buffer that outlives a call at the last boundary's contents; read at the four
  result buffers and at the nine arguments, that is the statement below. What the last boundary holds at a result
  buffer is computed in the modules that import this one.
-/
import proofs.«159419_j31293131719204_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with each result buffer at the
    last boundary's contents and each argument as launched. -/
theorem run : θ_run defs (onTc (τ := τ) (main (F := F))) ⟨m, fun _ => 0, ρ⟩ (fun r => ∀ c : Dev nD,
      r.2.mem ((c.tc : Thread nD τ).loc main_v87) = W15 m ρ c (Proc.devRef .tc main_v87)
      ∧ r.2.mem ((c.tc : Thread nD τ).loc main_v89) = W15 m ρ c (Proc.devRef .tc main_v89)
      ∧ r.2.mem ((c.tc : Thread nD τ).loc main_v91) = W15 m ρ c (Proc.devRef .tc main_v91)
      ∧ r.2.mem ((c.tc : Thread nD τ).loc main_v93) = W15 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v87 (by decide)),
       h c _ (mem_uc main_v89 (by decide)),
       h c _ (mem_uc main_v91 (by decide)),
       h c _ (mem_uc main_v93 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c)⟩)

end Cert.KernelIdeal.WholeRun

end
-- ==== Proof.LayerSpec.lean ====
/-
  The two dense steps of the graph-convolution layer as whole-array functions on the extended reals.

  `linear x w` is the feature transform h = x * w^T of all 50000 nodes: entry (n, j) is the sum over the 128 input
  features k of x[n, k] * w[j, k]. `plusBiasRow a b` adds a bias, held as one row of 128 lanes, to every node's
  aggregated row: entry (n, j) is a[n, j] + b[0, j]. Neither mentions a block or a grid: a tiling of the nodes into
  blocks of rows computes the same entries, because each entry depends on one row only.
-/
import Idealize.ShloMosaic.PureOps.Ideal
import Idealize.ShloMosaic.Lib.ValueIdx

noncomputable section

namespace Cert.LayerSpec

open Idealize.ShloMosaic

abbrev NodeRows : Shape := ⟨2, ![50000, 128]⟩
abbrev Weights : Shape := ⟨2, ![128, 128]⟩
abbrev BiasRow : Shape := ⟨2, ![1, 128]⟩

/-- Node `i 0`'s input feature `k`. -/
abbrev featOf (i : NodeRows.Idx) (k : Fin 128) : NodeRows.Idx := fun a => match a with
  | ⟨0, _⟩ => ⟨(i 0).val, (i 0).isLt⟩
  | ⟨1, _⟩ => ⟨k.val, k.isLt⟩
/-- The weight from input feature `k` to output feature `i 1`. -/
abbrev weightOf (i : NodeRows.Idx) (k : Fin 128) : Weights.Idx := fun a => match a with
  | ⟨0, _⟩ => ⟨(i 1).val, (i 1).isLt⟩
  | ⟨1, _⟩ => ⟨k.val, k.isLt⟩
/-- Lane `i 1` of the bias row. -/
abbrev laneOf (i : NodeRows.Idx) : BiasRow.Idx := fun a => match a with
  | ⟨0, _⟩ => ⟨0, Nat.zero_lt_one⟩
  | ⟨1, _⟩ => ⟨(i 1).val, (i 1).isLt⟩

/-- The feature transform of every node: h[n, j] = sum over k of x[n, k] * w[j, k]. -/
def linear (x : NodeRows.Idx → EReal) (w : Weights.Idx → EReal) : NodeRows.Idx → EReal :=
  fun i => ∑ k : Fin 128, x (featOf i k) * w (weightOf i k)

/-- The bias row added to every node's row: out[n, j] = a[n, j] + b[0, j]. -/
def plusBiasRow (a : NodeRows.Idx → EReal) (b : BiasRow.Idx → EReal) : NodeRows.Idx → EReal :=
  fun i => a i + b (laneOf i)

end Cert.LayerSpec

end
-- ==== Proof.Stages.lean ====
/-
  The operations both programs share, named once, and the two dense steps of the reference read entry by entry.

  Both programs build, from the edge list `e`, the edge sources and destinations with a self-loop per node appended;
  turn a negative index into the node it wraps around to; count every node's in-degree by adding a one per edge into
  its destination; take rsqrt of the degree where it is positive and zero elsewhere; and give every edge the product of
  its two end points' factors. The message passing `aggregate h e` gathers the rows of the transformed features `h` by
  source, scales each by its edge's normalisation, and adds it into its destination's row. These are stated with the
  same operations and constants the programs print, and are never opened: the certificate only ever compares their
  arguments.

  What the certificate does read entry by entry are the two dense steps, in the form the reference writes them: the
  product of the features with the transposed weight matrix is `LayerSpec.linear`, and adding the bias broadcast first
  to a row and then down all nodes is `LayerSpec.plusBiasRow` of the bias laid out as one row.
-/
import proofs.«159419_j31293131719204_1_alg».proof.Proof.Gen.ReferenceIdeal
import proofs.«159419_j31293131719204_1_alg».proof.Proof.LayerSpec
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Facts₀
open Idealize.ShloMosaic Idealize.ShloMosaic.TcCoe Cert.LayerSpec

abbrev EdgeList := IVec S2x800000 32
abbrev EdgeIdx := IVec S850000 32
abbrev EdgeVal := FVec Ideal S850000 .f32
abbrev NodeVal := FVec Ideal S50000 .f32
abbrev NodeFeat := FVec Ideal S50000x128 .f32
abbrev WeightMat := FVec Ideal S128x128 .f32
abbrev BiasVec := FVec Ideal S128 .f32

/-- Row 0 of the edge list with the nodes 0 … 49999 appended: every edge's source, then a self-loop per node. -/
def src (e : EdgeList) : EdgeIdx :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0
/-- Row 1 of the edge list with the nodes appended: every edge's destination. -/
def dst (e : EdgeList) : EdgeIdx :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0
/-- A negative index counts from the end: 50000 is added to it. -/
def wrap (s : EdgeIdx) : EdgeIdx :=
  select (cmpi .slt s (broadcastInDim S850000 ![] bcast_S_S850000 (constantI S_ 32 0#32))) (addi s (broadcastInDim S850000 ![] bcast_S_S850000 (constantI S_ 32 50000#32))) s
/-- Every node's in-degree, self-loop included: a one added per edge into its destination. -/
def degree (e : EdgeList) : NodeVal :=
  Host.scatterAdd (F := Ideal) scatter_S50000_S850000x1_S850000_n_0_0_1 (broadcastInDim S50000 ![] bcast_S_S50000 (constant S_ .f32 0x00000000#32)) (broadcastInDim S850000x1 ![0] bcast_S850000_S850000x1_0 (dst e)) (broadcastInDim S850000 ![] bcast_S_S850000 (constant S_ .f32 0x3F800000#32))
/-- Which nodes have a positive degree. -/
def positive (e : EdgeList) : IVec S50000 1 :=
  cmpf .ogt (degree e) (broadcastInDim S50000 ![] bcast_S_S50000 (constant (F := Ideal) S_ .f32 0x00000000#32))
/-- rsqrt of every node's degree. -/
def invSqrt (e : EdgeList) : NodeVal :=
  Host.rsqrt (F := Ideal) (degree e)
/-- The zero the factor falls back to. -/
def zeroScalar : FVec Ideal S_ .f32 :=
  constant (F := Ideal) S_ .f32 0x00000000#32
/-- rsqrt of the degree where it is positive, zero elsewhere. -/
def factor (e : EdgeList) : NodeVal :=
  select (positive e) (invSqrt e) (broadcastInDim S50000 ![] bcast_S_S50000 (id zeroScalar))
/-- Every edge's normalisation: the factor of its source times the factor of its destination. -/
def norm (e : EdgeList) : EdgeVal :=
  mulf (F := Ideal) (Host.gather gather_S50000_S850000x1_S850000_n_0_n_n_0_1_1 (factor e) (broadcastInDim S850000x1 ![0] bcast_S850000_S850000x1_0 (wrap (src e)))) (Host.gather gather_S50000_S850000x1_S850000_n_0_n_n_0_1_1 (factor e) (broadcastInDim S850000x1 ![0] bcast_S850000_S850000x1_0 (wrap (dst e))))
/-- The message passing: rows of `h` gathered by source, scaled by the edge's normalisation, added into the destination. -/
def aggregate (h : NodeFeat) (e : EdgeList) : NodeFeat :=
  Host.scatterAdd (F := Ideal) scatter_S50000x128_S850000x1_S850000x128_1_0_0_1 (broadcastInDim S50000x128 ![] bcast_S_S50000x128 (constant S_ .f32 0x00000000#32)) (broadcastInDim S850000x1 ![0] bcast_S850000_S850000x1_0 (dst e)) (mulf (Host.gather gather_S50000x128_S850000x1_S850000x128_1_0_n_n_0_1_1128 h (broadcastInDim S850000x1 ![0] bcast_S850000_S850000x1_0 (wrap (src e)))) (broadcastInDim S850000x128 ![0, 1] bcast_S850000x1_S850000x128_0_1 (broadcastInDim S850000x1 ![0] bcast_S850000_S850000x1_0 (norm e))))

/-! ## The feature transform as the reference writes it -/

local notation "D" => dot_S50000x128_S128x128_S50000x128_1_0_0_1_n_n

theorem lhs0 (j : S50000x128.Idx) (q : (D).contr.Idx) : ((D).lhsIdx j q 0).val = (j 0).val := by
  unfold DotDims.lhsIdx
  rw [dif_neg (show ¬(0 : Fin S50000x128.rank) ∈ (D).lhsBatch by decide), dif_pos (show (0 : Fin S50000x128.rank) ∈ (D).lhsNonContracting by decide)]
  rfl
theorem lhs1 (j : S50000x128.Idx) (q : (D).contr.Idx) : ((D).lhsIdx j q 1).val = (q ⟨0, by decide⟩).val :=
  (D).lhsIdx_val_of_single rfl j q
theorem rhs0 (j : S50000x128.Idx) (q : (D).contr.Idx) : ((D).rhsIdx j q 0).val = (q ⟨0, by decide⟩).val :=
  (D).rhsIdx_val_of_single rfl j q
theorem rhs1 (j : S50000x128.Idx) (q : (D).contr.Idx) : ((D).rhsIdx j q 1).val = (j 1).val := by
  unfold DotDims.rhsIdx
  rw [dif_neg (show ¬(1 : Fin S128x128.rank) ∈ (D).rhsBatch by decide), dif_pos (show (1 : Fin S128x128.rank) ∈ (D).rhsNonContracting by decide)]
  rfl

/-- Where the transposed weight matrix is read: input feature `k`, output feature `j 1`. -/
abbrev weightOfT (j : S50000x128.Idx) (k : Fin 128) : S128x128.Idx := fun a => match a with
  | ⟨0, _⟩ => ⟨k.val, k.isLt⟩
  | ⟨1, _⟩ => ⟨(j 1).val, (j 1).isLt⟩

/-- The features times the transposed weights: entry (n, j) is the sum over k of x[n, k] * w[j, k]. -/
theorem transform (x : NodeFeat) (w : WeightMat) :
    Host.dotGeneral (F := Ideal) D none x (transpose S128x128 [1, 0] w transposes_S128x128_S128x128_1_0) = linear x w := by
  funext j
  simp only [Host.dotGeneral]
  rw [Ideal.dotGeneral_apply, ← Equiv.sum_comp (ValueIdx.contrEquiv1 D 128 rfl rfl).symm]
  unfold linear
  refine Finset.sum_congr rfl fun k _ => ?_
  have hk := ValueIdx.contrEquiv1_symm_val D 128 rfl rfl k
  have el : (D).lhsIdx j ((ValueIdx.contrEquiv1 D 128 rfl rfl).symm k) = featOf j k := funext fun a => Fin.ext (by
    match a with
    | ⟨0, _⟩ => exact lhs0 _ _
    | ⟨1, _⟩ => exact (lhs1 _ _).trans hk)
  have er : (D).rhsIdx j ((ValueIdx.contrEquiv1 D 128 rfl rfl).symm k) = weightOfT j k := funext fun a => Fin.ext (by
    match a with
    | ⟨0, _⟩ => exact (rhs0 _ _).trans hk
    | ⟨1, _⟩ => exact rhs1 _ _)
  have et : transpose S128x128 [1, 0] w transposes_S128x128_S128x128_1_0 (weightOfT j k) = w (weightOf j k) :=
    transpose_apply [1, 0] w transposes_S128x128_S128x128_1_0 (weightOfT j k) (weightOf j k) (fun b => match b with
      | ⟨0, _⟩ => rfl
      | ⟨1, _⟩ => rfl)
  rw [el, er, et]

/-! ## The bias as the reference adds it -/

/-- Lane `j 1` of the bias vector. -/
abbrev biasAt (j : S50000x128.Idx) : S128.Idx := fun a => match a with
  | ⟨0, _⟩ => ⟨(j 1).val, (j 1).isLt⟩

/-- The bias broadcast to a row, then down all nodes, and added: entry (n, j) is a[n, j] + b[j], which is the bias
    laid out as one row and added to every row. -/
theorem addBias (a : NodeFeat) (b : BiasVec) (h : S128.ShapeCasts S1x128) :
    addf (F := Ideal) a (broadcastInDim S50000x128 ![0, 1] bcast_S1x128_S50000x128_0_1 (broadcastInDim S1x128 ![1] bcast_S128_S1x128_1 b))
      = plusBiasRow a (shapeCast S1x128 b h) := by
  funext j
  unfold plusBiasRow
  rw [ValueIdx.addf_apply]
  refine congrArg (a j + ·) ?_
  have e1 : broadcastInDim S50000x128 ![0, 1] bcast_S1x128_S50000x128_0_1 (broadcastInDim S1x128 ![1] bcast_S128_S1x128_1 b) j
      = broadcastInDim S1x128 ![1] bcast_S128_S1x128_1 b (laneOf j) :=
    broadcastInDim_apply _ bcast_S1x128_S50000x128_0_1 _ j (laneOf j) (fun c => match c with
      | ⟨0, _⟩ => by show (0 : Nat) = if (1 : Nat) = 1 then 0 else (j 0).val; rw [if_pos rfl]
      | ⟨1, _⟩ => by show (j 1).val = if (128 : Nat) = 1 then 0 else (j 1).val; rw [if_neg (by decide)])
  have e2 : broadcastInDim S1x128 ![1] bcast_S128_S1x128_1 b (laneOf j) = b (biasAt j) :=
    broadcastInDim_apply _ bcast_S128_S1x128_1 b (laneOf j) (biasAt j) (fun c => match c with
      | ⟨0, _⟩ => by show (j 1).val = if (128 : Nat) = 1 then 0 else (j 1).val; rw [if_neg (by decide)])
  have e3 : shapeCast S1x128 b h (laneOf j) = b (biasAt j) :=
    (shapeCast_addUnit_apply ![128] b h (laneOf j)).trans (congrArg b (funext fun c => by
      match c with
      | ⟨0, _⟩ => rfl))
  rw [e1, e2, e3]

end Cert.ReferenceIdeal.Stages

end
-- ==== Proof.Prelude.lean ====
/-
  What the kernel program has computed when its first pallas call is entered.

  Before the first call the program runs three stretches of host operations on the edge list: it appends a self-loop
  for every node to the sources and to the destinations, counts each node's in-degree by a scatter-add of ones, takes
  rsqrt of the degree where it is positive and 0 elsewhere (the select is a function the program calls, its three
  operations standing in the call's place), and multiplies the two end points' factors into one normalisation per edge.
  These are the operations, with the same constants, that `Stages` names, so the three buffers holding sources,
  destinations and normalisation are `src`, `dst` and `norm` of the edge list. No host operation writes an argument,
  so the nine arguments are still as launched.
-/
import proofs.«159419_j31293131719204_1_alg».proof.Proof.Gen.KernelIdeal.Frame
import proofs.«159419_j31293131719204_1_alg».proof.Proof.Stages
import Idealize.ShloMosaic.Lib.StableHlo.Run

set_option maxRecDepth 16384

noncomputable section

namespace Cert.KernelIdeal.Prelude

open Idealize.ShloMosaic Idealize.ShloMosaic.TcCoe Idealize.SL.Sem Idealize.ShloMosaic.StableHlo
open Cert.KernelIdeal Cert.KernelIdeal.Gen Cert.KernelIdeal.Facts₀ Cert.LayerSpec

/-- A buffer that no operation of a host stretch writes holds after the stretch what it held before. -/
macro "unwritten" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg)

/-! ## The select the program calls, as plain operations

The three operations of the called select are written over typed references, which move every value to and from its
buffer's own type. Each is the plain operation over the same buffers: the move is along an equation between a type and
itself, so it is the identity on any value. With these the stretch is read like any other. -/

/-- The select's fallback value is copied: the typed copy is the plain one. -/
theorem where_copy : (StableHlo.TRef.unary (.of main_cst_2 : StableHlo.TRef sig ⟨S_, .f32⟩) (.of main_call0_v0 : StableHlo.TRef sig ⟨S_, .f32⟩) id : HloOp τ sig (Elt Ideal))
    = StableHlo.unary main_cst_2 main_call0_v0 (id : (⟨S_, .f32⟩ : BufTy).Contents (Elt Ideal) → (⟨S_, .f32⟩ : BufTy).Contents (Elt Ideal)) := by
  have hg : (fun (u : (⟨S_, .f32⟩ : BufTy).Contents (Elt Ideal)) => (.of main_call0_v0 : StableHlo.TRef sig ⟨S_, .f32⟩).toBuf (id ((.of main_cst_2 : StableHlo.TRef sig ⟨S_, .f32⟩).ofBuf u))) = id :=
    funext fun u => (cast_eq _ _).trans (congrArg id (cast_eq _ u))
  exact congrArg (fun g => StableHlo.unary main_cst_2 main_call0_v0 g) hg
/-- The fallback value is broadcast to every node: the typed broadcast is the plain one. -/
theorem where_spread : (StableHlo.TRef.unary (.of main_call0_v0 : StableHlo.TRef sig ⟨S_, .f32⟩) (.of main_call0_v1 : StableHlo.TRef sig ⟨S50000, .f32⟩) (broadcastInDim S50000 ![] Cert.KernelIdeal.Facts₀.bcast_S_S50000) : HloOp τ sig (Elt Ideal))
    = StableHlo.unary main_call0_v0 main_call0_v1 (broadcastInDim S50000 ![] Cert.KernelIdeal.Facts₀.bcast_S_S50000 : (⟨S_, .f32⟩ : BufTy).Contents (Elt Ideal) → (⟨S50000, .f32⟩ : BufTy).Contents (Elt Ideal)) := by
  have hg : (fun (u : (⟨S_, .f32⟩ : BufTy).Contents (Elt Ideal)) => (.of main_call0_v1 : StableHlo.TRef sig ⟨S50000, .f32⟩).toBuf (broadcastInDim S50000 ![] Cert.KernelIdeal.Facts₀.bcast_S_S50000 ((.of main_call0_v0 : StableHlo.TRef sig ⟨S_, .f32⟩).ofBuf u)))
      = (broadcastInDim S50000 ![] Cert.KernelIdeal.Facts₀.bcast_S_S50000 : (⟨S_, .f32⟩ : BufTy).Contents (Elt Ideal) → (⟨S50000, .f32⟩ : BufTy).Contents (Elt Ideal)) :=
    funext fun u => (cast_eq _ _).trans (congrArg (broadcastInDim S50000 ![] Cert.KernelIdeal.Facts₀.bcast_S_S50000) (cast_eq _ u))
  exact congrArg (fun g => StableHlo.unary main_call0_v0 main_call0_v1 g) hg
/-- The select itself: the typed select is the plain one. -/
theorem where_choose : (StableHlo.TRef.ternary (.of main_v12 : StableHlo.TRef sig ⟨S50000, .i1⟩) (.of main_v13 : StableHlo.TRef sig ⟨S50000, .f32⟩) (.of main_call0_v1 : StableHlo.TRef sig ⟨S50000, .f32⟩) (.of main_v14 : StableHlo.TRef sig ⟨S50000, .f32⟩) select : HloOp τ sig (Elt Ideal))
    = StableHlo.ternary main_v12 main_v13 main_call0_v1 main_v14 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) := by
  have hg : (fun (w : (⟨S50000, .i1⟩ : BufTy).Contents (Elt Ideal)) (u : (⟨S50000, .f32⟩ : BufTy).Contents (Elt Ideal)) (v : (⟨S50000, .f32⟩ : BufTy).Contents (Elt Ideal)) =>
        (.of main_v14 : StableHlo.TRef sig ⟨S50000, .f32⟩).toBuf (select ((.of main_v12 : StableHlo.TRef sig ⟨S50000, .i1⟩).ofBuf w) ((.of main_v13 : StableHlo.TRef sig ⟨S50000, .f32⟩).ofBuf u) ((.of main_call0_v1 : StableHlo.TRef sig ⟨S50000, .f32⟩).ofBuf v)))
      = (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) :=
    funext fun w => funext fun u => funext fun v =>
      (cast_eq _ _).trans (congr (congrArg₂ select (cast_eq _ w) (cast_eq _ u)) (cast_eq _ v))
  exact congrArg (fun g => StableHlo.ternary main_v12 main_v13 main_call0_v1 main_v14 g) hg

/-! ## The arguments when the first call is entered -/

theorem arg0_at3 (c : Dev nD) : W3 m ρ c (Proc.devRef .tc main_arg0) = m ((c : Thread nD τ).loc main_arg0) :=
  calc W3 m ρ c (Proc.devRef .tc main_arg0)
    _ = W2 m ρ c (Proc.devRef .tc main_arg0) := by
      show StableHlo.after hostOps0_2 (W2 m ρ c) (Proc.devRef .tc main_arg0) = _
      unwritten hostOps0_2
    _ = W1 m ρ c (Proc.devRef .tc main_arg0) := by
      show StableHlo.after hostOps0_1 (W1 m ρ c) (Proc.devRef .tc main_arg0) = _
      unwritten hostOps0_1
    _ = W0 m ρ c (Proc.devRef .tc main_arg0) := by
      show StableHlo.after hostOps0 (W0 m ρ c) (Proc.devRef .tc main_arg0) = _
      unwritten hostOps0
    _ = m ((c : Thread nD τ).loc main_arg0) := rfl
theorem arg1_at3 (c : Dev nD) : W3 m ρ c (Proc.devRef .tc main_arg1) = m ((c : Thread nD τ).loc main_arg1) :=
  calc W3 m ρ c (Proc.devRef .tc main_arg1)
    _ = W2 m ρ c (Proc.devRef .tc main_arg1) := by
      show StableHlo.after hostOps0_2 (W2 m ρ c) (Proc.devRef .tc main_arg1) = _
      unwritten hostOps0_2
    _ = W1 m ρ c (Proc.devRef .tc main_arg1) := by
      show StableHlo.after hostOps0_1 (W1 m ρ c) (Proc.devRef .tc main_arg1) = _
      unwritten hostOps0_1
    _ = W0 m ρ c (Proc.devRef .tc main_arg1) := by
      show StableHlo.after hostOps0 (W0 m ρ c) (Proc.devRef .tc main_arg1) = _
      unwritten hostOps0
    _ = m ((c : Thread nD τ).loc main_arg1) := rfl
theorem arg2_at3 (c : Dev nD) : W3 m ρ c (Proc.devRef .tc main_arg2) = m ((c : Thread nD τ).loc main_arg2) :=
  calc W3 m ρ c (Proc.devRef .tc main_arg2)
    _ = W2 m ρ c (Proc.devRef .tc main_arg2) := by
      show StableHlo.after hostOps0_2 (W2 m ρ c) (Proc.devRef .tc main_arg2) = _
      unwritten hostOps0_2
    _ = W1 m ρ c (Proc.devRef .tc main_arg2) := by
      show StableHlo.after hostOps0_1 (W1 m ρ c) (Proc.devRef .tc main_arg2) = _
      unwritten hostOps0_1
    _ = W0 m ρ c (Proc.devRef .tc main_arg2) := by
      show StableHlo.after hostOps0 (W0 m ρ c) (Proc.devRef .tc main_arg2) = _
      unwritten hostOps0
    _ = m ((c : Thread nD τ).loc main_arg2) := rfl
theorem arg3_at3 (c : Dev nD) : W3 m ρ c (Proc.devRef .tc main_arg3) = m ((c : Thread nD τ).loc main_arg3) :=
  calc W3 m ρ c (Proc.devRef .tc main_arg3)
    _ = W2 m ρ c (Proc.devRef .tc main_arg3) := by
      show StableHlo.after hostOps0_2 (W2 m ρ c) (Proc.devRef .tc main_arg3) = _
      unwritten hostOps0_2
    _ = W1 m ρ c (Proc.devRef .tc main_arg3) := by
      show StableHlo.after hostOps0_1 (W1 m ρ c) (Proc.devRef .tc main_arg3) = _
      unwritten hostOps0_1
    _ = W0 m ρ c (Proc.devRef .tc main_arg3) := by
      show StableHlo.after hostOps0 (W0 m ρ c) (Proc.devRef .tc main_arg3) = _
      unwritten hostOps0
    _ = m ((c : Thread nD τ).loc main_arg3) := rfl
theorem arg4_at3 (c : Dev nD) : W3 m ρ c (Proc.devRef .tc main_arg4) = m ((c : Thread nD τ).loc main_arg4) :=
  calc W3 m ρ c (Proc.devRef .tc main_arg4)
    _ = W2 m ρ c (Proc.devRef .tc main_arg4) := by
      show StableHlo.after hostOps0_2 (W2 m ρ c) (Proc.devRef .tc main_arg4) = _
      unwritten hostOps0_2
    _ = W1 m ρ c (Proc.devRef .tc main_arg4) := by
      show StableHlo.after hostOps0_1 (W1 m ρ c) (Proc.devRef .tc main_arg4) = _
      unwritten hostOps0_1
    _ = W0 m ρ c (Proc.devRef .tc main_arg4) := by
      show StableHlo.after hostOps0 (W0 m ρ c) (Proc.devRef .tc main_arg4) = _
      unwritten hostOps0
    _ = m ((c : Thread nD τ).loc main_arg4) := rfl
theorem arg5_at3 (c : Dev nD) : W3 m ρ c (Proc.devRef .tc main_arg5) = m ((c : Thread nD τ).loc main_arg5) :=
  calc W3 m ρ c (Proc.devRef .tc main_arg5)
    _ = W2 m ρ c (Proc.devRef .tc main_arg5) := by
      show StableHlo.after hostOps0_2 (W2 m ρ c) (Proc.devRef .tc main_arg5) = _
      unwritten hostOps0_2
    _ = W1 m ρ c (Proc.devRef .tc main_arg5) := by
      show StableHlo.after hostOps0_1 (W1 m ρ c) (Proc.devRef .tc main_arg5) = _
      unwritten hostOps0_1
    _ = W0 m ρ c (Proc.devRef .tc main_arg5) := by
      show StableHlo.after hostOps0 (W0 m ρ c) (Proc.devRef .tc main_arg5) = _
      unwritten hostOps0
    _ = m ((c : Thread nD τ).loc main_arg5) := rfl
theorem arg6_at3 (c : Dev nD) : W3 m ρ c (Proc.devRef .tc main_arg6) = m ((c : Thread nD τ).loc main_arg6) :=
  calc W3 m ρ c (Proc.devRef .tc main_arg6)
    _ = W2 m ρ c (Proc.devRef .tc main_arg6) := by
      show StableHlo.after hostOps0_2 (W2 m ρ c) (Proc.devRef .tc main_arg6) = _
      unwritten hostOps0_2
    _ = W1 m ρ c (Proc.devRef .tc main_arg6) := by
      show StableHlo.after hostOps0_1 (W1 m ρ c) (Proc.devRef .tc main_arg6) = _
      unwritten hostOps0_1
    _ = W0 m ρ c (Proc.devRef .tc main_arg6) := by
      show StableHlo.after hostOps0 (W0 m ρ c) (Proc.devRef .tc main_arg6) = _
      unwritten hostOps0
    _ = m ((c : Thread nD τ).loc main_arg6) := rfl
theorem arg7_at3 (c : Dev nD) : W3 m ρ c (Proc.devRef .tc main_arg7) = m ((c : Thread nD τ).loc main_arg7) :=
  calc W3 m ρ c (Proc.devRef .tc main_arg7)
    _ = W2 m ρ c (Proc.devRef .tc main_arg7) := by
      show StableHlo.after hostOps0_2 (W2 m ρ c) (Proc.devRef .tc main_arg7) = _
      unwritten hostOps0_2
    _ = W1 m ρ c (Proc.devRef .tc main_arg7) := by
      show StableHlo.after hostOps0_1 (W1 m ρ c) (Proc.devRef .tc main_arg7) = _
      unwritten hostOps0_1
    _ = W0 m ρ c (Proc.devRef .tc main_arg7) := by
      show StableHlo.after hostOps0 (W0 m ρ c) (Proc.devRef .tc main_arg7) = _
      unwritten hostOps0
    _ = m ((c : Thread nD τ).loc main_arg7) := rfl
theorem arg8_at3 (c : Dev nD) : W3 m ρ c (Proc.devRef .tc main_arg8) = m ((c : Thread nD τ).loc main_arg8) :=
  calc W3 m ρ c (Proc.devRef .tc main_arg8)
    _ = W2 m ρ c (Proc.devRef .tc main_arg8) := by
      show StableHlo.after hostOps0_2 (W2 m ρ c) (Proc.devRef .tc main_arg8) = _
      unwritten hostOps0_2
    _ = W1 m ρ c (Proc.devRef .tc main_arg8) := by
      show StableHlo.after hostOps0_1 (W1 m ρ c) (Proc.devRef .tc main_arg8) = _
      unwritten hostOps0_1
    _ = W0 m ρ c (Proc.devRef .tc main_arg8) := by
      show StableHlo.after hostOps0 (W0 m ρ c) (Proc.devRef .tc main_arg8) = _
      unwritten hostOps0
    _ = m ((c : Thread nD τ).loc main_arg8) := rfl

/-! ## Sources, destinations and normalisation -/

/-- After the first stretch: the sources with the self-loops appended. -/
theorem src_at1 (c : Dev nD) : W1 m ρ c (Proc.devRef .tc main_v3) = Cert.ReferenceIdeal.Stages.src (m ((c : Thread nD τ).loc main_arg4)) := by
  show StableHlo.after hostOps0 (W0 m ρ c) (Proc.devRef .tc main_v3) = _
  after_results
  rfl
/-- After the first stretch: the destinations with the self-loops appended. -/
theorem dst_at1 (c : Dev nD) : W1 m ρ c (Proc.devRef .tc main_v6) = Cert.ReferenceIdeal.Stages.dst (m ((c : Thread nD τ).loc main_arg4)) := by
  show StableHlo.after hostOps0 (W0 m ρ c) (Proc.devRef .tc main_v6) = _
  after_results
  rfl
/-- After the first stretch: which nodes have positive in-degree. -/
theorem positive_at1 (c : Dev nD) : W1 m ρ c (Proc.devRef .tc main_v12) = Cert.ReferenceIdeal.Stages.positive (m ((c : Thread nD τ).loc main_arg4)) := by
  show StableHlo.after hostOps0 (W0 m ρ c) (Proc.devRef .tc main_v12) = _
  after_results
  rfl
/-- After the first stretch: rsqrt of the in-degree. -/
theorem invSqrt_at1 (c : Dev nD) : W1 m ρ c (Proc.devRef .tc main_v13) = Cert.ReferenceIdeal.Stages.invSqrt (m ((c : Thread nD τ).loc main_arg4)) := by
  show StableHlo.after hostOps0 (W0 m ρ c) (Proc.devRef .tc main_v13) = _
  after_results
  rfl
/-- After the first stretch: the zero the select falls back to. -/
theorem zero_at1 (c : Dev nD) : W1 m ρ c (Proc.devRef .tc main_cst_2) = Cert.ReferenceIdeal.Stages.zeroScalar := by
  show StableHlo.after hostOps0 (W0 m ρ c) (Proc.devRef .tc main_cst_2) = _
  after_results
  rfl

/-- After the second stretch (the select): rsqrt of the degree where positive, else 0. -/
theorem factor_at2 (c : Dev nD) : W2 m ρ c (Proc.devRef .tc main_v14) = Cert.ReferenceIdeal.Stages.factor (m ((c : Thread nD τ).loc main_arg4)) := by
  have hp := positive_at1 m ρ c
  have hr := invSqrt_at1 m ρ c
  have hz := zero_at1 m ρ c
  show StableHlo.after hostOps0_1 (W1 m ρ c) (Proc.devRef .tc main_v14) = _
  generalize W1 m ρ c = V at hp hr hz ⊢
  simp only [hostOps0_1, where_copy, where_spread, where_choose]
  after_results
  rw [hp, hr, hz]
  rfl
theorem src_at2 (c : Dev nD) : W2 m ρ c (Proc.devRef .tc main_v3) = Cert.ReferenceIdeal.Stages.src (m ((c : Thread nD τ).loc main_arg4)) :=
  calc W2 m ρ c (Proc.devRef .tc main_v3)
    _ = W1 m ρ c (Proc.devRef .tc main_v3) := by
      show StableHlo.after hostOps0_1 (W1 m ρ c) (Proc.devRef .tc main_v3) = _
      unwritten hostOps0_1
    _ = _ := src_at1 m ρ c
theorem dst_at2 (c : Dev nD) : W2 m ρ c (Proc.devRef .tc main_v6) = Cert.ReferenceIdeal.Stages.dst (m ((c : Thread nD τ).loc main_arg4)) :=
  calc W2 m ρ c (Proc.devRef .tc main_v6)
    _ = W1 m ρ c (Proc.devRef .tc main_v6) := by
      show StableHlo.after hostOps0_1 (W1 m ρ c) (Proc.devRef .tc main_v6) = _
      unwritten hostOps0_1
    _ = _ := dst_at1 m ρ c

/-- When the first call is entered: the normalisation of every edge. -/
theorem norm_at3 (c : Dev nD) : W3 m ρ c (Proc.devRef .tc main_v29) = Cert.ReferenceIdeal.Stages.norm (m ((c : Thread nD τ).loc main_arg4)) := by
  have hf := factor_at2 m ρ c
  have h3 := src_at2 m ρ c
  have h6 := dst_at2 m ρ c
  show StableHlo.after hostOps0_2 (W2 m ρ c) (Proc.devRef .tc main_v29) = _
  generalize W2 m ρ c = V at hf h3 h6 ⊢
  after_results_simp
  rw [hf, h3, h6]
  unfold Cert.ReferenceIdeal.Stages.norm Cert.ReferenceIdeal.Stages.wrap
  generalize Cert.ReferenceIdeal.Stages.factor (m ((c : Thread nD τ).loc main_arg4)) = f
  generalize Cert.ReferenceIdeal.Stages.src (m ((c : Thread nD τ).loc main_arg4)) = s
  generalize Cert.ReferenceIdeal.Stages.dst (m ((c : Thread nD τ).loc main_arg4)) = d
  rfl
theorem src_at3 (c : Dev nD) : W3 m ρ c (Proc.devRef .tc main_v3) = Cert.ReferenceIdeal.Stages.src (m ((c : Thread nD τ).loc main_arg4)) :=
  calc W3 m ρ c (Proc.devRef .tc main_v3)
    _ = W2 m ρ c (Proc.devRef .tc main_v3) := by
      show StableHlo.after hostOps0_2 (W2 m ρ c) (Proc.devRef .tc main_v3) = _
      unwritten hostOps0_2
    _ = _ := src_at2 m ρ c
theorem dst_at3 (c : Dev nD) : W3 m ρ c (Proc.devRef .tc main_v6) = Cert.ReferenceIdeal.Stages.dst (m ((c : Thread nD τ).loc main_arg4)) :=
  calc W3 m ρ c (Proc.devRef .tc main_v6)
    _ = W2 m ρ c (Proc.devRef .tc main_v6) := by
      show StableHlo.after hostOps0_2 (W2 m ρ c) (Proc.devRef .tc main_v6) = _
      unwritten hostOps0_2
    _ = _ := dst_at2 m ρ c

end Cert.KernelIdeal.Prelude

end
-- ==== Proof.PointValue.lean ====
/-
  What the body of one grid point computes, read entry by entry on the extended reals.

  A point of a matmul call holds a block `x` of 5000 rows of the features and the whole weight matrix `w`; it
  transposes `w` and multiplies into a zero accumulator, so entry (r, j) of its result is the sum over the 128 input
  features k of x[r, k] * w[j, k]. A point of a bias call holds a block `a` of 5000 aggregated rows and the bias as one
  row `b` of 128 lanes; it repeats the row down the block and adds, so entry (r, j) of its result is a[r, j] + b[0, j].
-/
import proofs.«159419_j31293131719204_1_alg».proof.Proof.Gen.KernelIdeal
import Idealize.ShloMosaic.PureOps.Ideal.Laws
import Idealize.ShloMosaic.Lib.ValueIdx
import Idealize.ShloMosaic.Lib.Pipeline.Value

noncomputable section

namespace Cert.KernelIdeal.PointValue

open Idealize.ShloMosaic Idealize.ShloMosaic.TcCoe Cert.KernelIdeal Cert.KernelIdeal.Facts₀

/-- Row `j 0` of a block of rows, at feature `k`. -/
abbrev featAt (j : S5000x128.Idx) (k : Fin 128) : S5000x128.Idx := fun a => match a with
  | ⟨0, _⟩ => ⟨(j 0).val, (j 0).isLt⟩
  | ⟨1, _⟩ => ⟨k.val, k.isLt⟩
/-- Row `j 1` of the weight matrix (the output feature), at input feature `k`. -/
abbrev weightAt (j : S5000x128.Idx) (k : Fin 128) : S128x128.Idx := fun a => match a with
  | ⟨0, _⟩ => ⟨(j 1).val, (j 1).isLt⟩
  | ⟨1, _⟩ => ⟨k.val, k.isLt⟩
/-- The transposed weight matrix is read at (k, j 1). -/
abbrev weightAtT (j : S5000x128.Idx) (k : Fin 128) : S128x128.Idx := fun a => match a with
  | ⟨0, _⟩ => ⟨k.val, k.isLt⟩
  | ⟨1, _⟩ => ⟨(j 1).val, (j 1).isLt⟩
/-- The one row of the bias, at lane `j 1`. -/
abbrev laneAt (j : S5000x128.Idx) : S1x128.Idx := fun a => match a with
  | ⟨0, _⟩ => ⟨0, Nat.zero_lt_one⟩
  | ⟨1, _⟩ => ⟨(j 1).val, (j 1).isLt⟩

local notation "D" => dot_S5000x128_S128x128_S5000x128_1_0_0_1_n_n

theorem lhs0 (j : S5000x128.Idx) (q : (D).contr.Idx) : ((D).lhsIdx j q 0).val = (j 0).val := by
  unfold DotDims.lhsIdx
  rw [dif_neg (show ¬(0 : Fin S5000x128.rank) ∈ (D).lhsBatch by decide), dif_pos (show (0 : Fin S5000x128.rank) ∈ (D).lhsNonContracting by decide)]
  rfl
theorem lhs1 (j : S5000x128.Idx) (q : (D).contr.Idx) : ((D).lhsIdx j q 1).val = (q ⟨0, by decide⟩).val :=
  (D).lhsIdx_val_of_single rfl j q
theorem rhs0 (j : S5000x128.Idx) (q : (D).contr.Idx) : ((D).rhsIdx j q 0).val = (q ⟨0, by decide⟩).val :=
  (D).rhsIdx_val_of_single rfl j q
theorem rhs1 (j : S5000x128.Idx) (q : (D).contr.Idx) : ((D).rhsIdx j q 1).val = (j 1).val := by
  unfold DotDims.rhsIdx
  rw [dif_neg (show ¬(1 : Fin S128x128.rank) ∈ (D).rhsBatch by decide), dif_pos (show (1 : Fin S128x128.rank) ∈ (D).rhsNonContracting by decide)]
  rfl

/-- The transposed weights at (k, j 1) are the weights at (j 1, k). -/
theorem transposed_apply (w : FVec Ideal S128x128 .f32) (j : S5000x128.Idx) (k : Fin 128) :
    transpose S128x128 [1, 0] w transposes_S128x128_p1_0_S128x128 (weightAtT j k) = w (weightAt j k) :=
  transpose_apply [1, 0] w transposes_S128x128_p1_0_S128x128 (weightAtT j k) (weightAt j k) (fun b => match b with
    | ⟨0, _⟩ => rfl
    | ⟨1, _⟩ => rfl)

/-- A block of rows times the transposed weights, into zero: entry (r, j) is the sum over the input features k of
    x[r, k] * w[j, k]. -/
theorem rows_times_weights (x : FVec Ideal S5000x128 .f32) (w : FVec Ideal S128x128 .f32) (j : S5000x128.Idx) :
    matmul (F := Ideal) D (some .fp32) x (transpose S128x128 [1, 0] w transposes_S128x128_p1_0_S128x128)
        (constant S5000x128 .f32 0x00000000#32) j
      = ∑ k : Fin 128, x (featAt j k) * w (weightAt j k) := by
  simp only [matmul]
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : (D).lhsIdx j ((ValueIdx.contrEquiv1 D 128 rfl rfl).symm k) = featAt j k := funext fun a => Fin.ext (by
    match a with
    | ⟨0, _⟩ => exact lhs0 _ _
    | ⟨1, _⟩ => exact (lhs1 _ _).trans hk)
  have er : (D).rhsIdx j ((ValueIdx.contrEquiv1 D 128 rfl rfl).symm k) = weightAtT j k := funext fun a => Fin.ext (by
    match a with
    | ⟨0, _⟩ => exact (rhs0 _ _).trans hk
    | ⟨1, _⟩ => exact rhs1 _ _)
  rw [el, er, transposed_apply]

/-- A block of aggregated rows plus the bias row repeated down the block: entry (r, j) is a[r, j] + b[0, j]. -/
theorem rows_plus_bias (a : FVec Ideal S5000x128 .f32) (b : FVec Ideal S1x128 .f32) (j : S5000x128.Idx) :
    addf (F := Ideal) (shapeCast S5000x128 a shapeCasts_S5000x128_S5000x128)
        (broadcastTo S5000x128 (shapeCast S1x128 b shapeCasts_S1x128_S1x128) broadcasts_S1x128_S5000x128) j
      = a j + b (laneAt j) := by
  rw [ValueIdx.addf_apply, shapeCast_self, shapeCast_self]
  refine congrArg (a j + ·) ?_
  exact broadcastTo_apply b broadcasts_S1x128_S5000x128 j (laneAt j) (fun c => match c with
    | ⟨0, _⟩ => rfl
    | ⟨1, _⟩ => rfl)

end Cert.KernelIdeal.PointValue

end
-- ==== Proof.Linear0.lean ====
/-
  The array the matmul call number 0 leaves: the feature transform of all 50000 nodes.

  The call walks the nodes in 10 blocks of 5000 rows; the point for block q reads rows 5000 q .. 5000 q + 4999 of the
  features and the whole weight matrix, and writes the same rows of the result. Entry (r, j) of what it writes is the sum
  over the input features k of x[5000 q + r, k] * w[j, k], which is entry (5000 q + r, j) of `linear x w`: a row of
  the product depends on that row of the features only. The 10 blocks tile the 50000 rows, so the array ends as
  `linear x w` everywhere.
-/
import proofs.«159419_j31293131719204_1_alg».proof.Proof.Gen.KernelIdeal.Frame
import proofs.«159419_j31293131719204_1_alg».proof.Proof.PointValue
import proofs.«159419_j31293131719204_1_alg».proof.Proof.LayerSpec
import Idealize.ShloMosaic.Lib.Pipeline.Value

set_option maxRecDepth 16384

noncomputable section

namespace Cert.KernelIdeal.Linear0

open Idealize.ShloMosaic Idealize.ShloMosaic.TcCoe Idealize.SL.Sem
open Cert.KernelIdeal Cert.KernelIdeal.Gen Cert.LayerSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps, decided over the 10 points: the features' block moves with the result's block along the rows, the
    weight matrix is always its one whole block, and the result's row-block number is at most 9. -/
theorem blockIndex : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the 10 row blocks is some point's. -/
theorem blockOfRows : ∀ q : Fin 10, ∃ t : Fin cfg0.N, win0_2.index t = ![q.val, 0] :=
  (by decide +kernel : ∀ q : Fin 10, ∃ t : Fin grid0.N, win0_2.index t = ![q.val, 0])

/-- What point `t` writes back is block `t` of `linear x w` of the arrays as the call finds them. -/
theorem written (c : Dev nD) (t : Fin cfg0.N) :
    (dat0 (F := Ideal) V c).flushed 2 t
      = ((cfg0.win 2).blk t).view.read (Elt Ideal) (linear (V c main_arg0) (V c main_arg5)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨e0, e1, e2, e3, e4, e5⟩ := blockIndex t
  funext j
  show k0_pay1 (iblk0 V c 0 t) (iblk0 V c 1 t) j = linear (V c main_arg0) (V c main_arg5) (((cfg0.win 2).blk t).view.emb j)
  refine (PointValue.rows_times_weights (iblk0 V c 0 t) (iblk0 V c 1 t) j).trans ?_
  unfold linear
  refine Finset.sum_congr rfl fun k _ => ?_
  have hx : iblk0 V c 0 t (PointValue.featAt j k) = V c main_arg0 (featOf (((cfg0.win 2).blk t).view.emb j) k) := by
    show V c main_arg0 (((cfg0.win 0).blk t).view.emb (PointValue.featAt j k)) = _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  have hw : iblk0 V c 1 t (PointValue.weightAt j k) = V c main_arg5 (weightOf (((cfg0.win 2).blk t).view.emb j) k) := by
    show V c main_arg5 (((cfg0.win 1).blk t).view.emb (PointValue.weightAt j k)) = _
    refine congrArg (V c main_arg5) (funext fun a => Fin.ext ?_)
    match a with
    | ⟨0, _⟩ =>
      show win0_1.index t (0 : Fin 2) * 128 + 1 * (j 1).val = win0_2.index t (1 : Fin 2) * 128 + 1 * (j 1).val
      omega
    | ⟨1, _⟩ =>
      show win0_1.index t (1 : Fin 2) * 128 + 1 * k.val = k.val
      omega
  rw [hx, hw]

/-- A node row is in point `t`'s block iff each of its coordinates is in the block's range on that axis. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- The 10 blocks tile the nodes: row n is in block n / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := blockOfRows ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- After the call its result array is `linear x w` of the features and weights it was entered with. -/
theorem result (c : Dev nD) :
    (dat0 (F := Ideal) V c).arrAt 2 cfg0.N = linear (V c main_arg0) (V c main_arg5) :=
  (dat0 (F := Ideal) V c).arrAt_eq_of_cover 2 (linear (V c main_arg0) (V c main_arg5))
    (fun t _ => written V c t) covered

end Cert.KernelIdeal.Linear0

end
-- ==== Proof.Linear1.lean ====
/-
  The array the matmul call number 1 leaves: the feature transform of all 50000 nodes.

  The call walks the nodes in 10 blocks of 5000 rows; the point for block q reads rows 5000 q .. 5000 q + 4999 of the
  features and the whole weight matrix, and writes the same rows of the result. Entry (r, j) of what it writes is the sum
  over the input features k of x[5000 q + r, k] * w[j, k], which is entry (5000 q + r, j) of `linear x w`: a row of
  the product depends on that row of the features only. The 10 blocks tile the 50000 rows, so the array ends as
  `linear x w` everywhere.
-/
import proofs.«159419_j31293131719204_1_alg».proof.Proof.Gen.KernelIdeal.Frame
import proofs.«159419_j31293131719204_1_alg».proof.Proof.PointValue
import proofs.«159419_j31293131719204_1_alg».proof.Proof.LayerSpec
import Idealize.ShloMosaic.Lib.Pipeline.Value

set_option maxRecDepth 16384

noncomputable section

namespace Cert.KernelIdeal.Linear1

open Idealize.ShloMosaic Idealize.ShloMosaic.TcCoe Idealize.SL.Sem
open Cert.KernelIdeal Cert.KernelIdeal.Gen Cert.LayerSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps, decided over the 10 points: the features' block moves with the result's block along the rows, the
    weight matrix is always its one whole block, and the result's row-block number is at most 9. -/
theorem blockIndex : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the 10 row blocks is some point's. -/
theorem blockOfRows : ∀ q : Fin 10, ∃ t : Fin cfg1.N, win1_2.index t = ![q.val, 0] :=
  (by decide +kernel : ∀ q : Fin 10, ∃ t : Fin grid1.N, win1_2.index t = ![q.val, 0])

/-- What point `t` writes back is block `t` of `linear x w` of the arrays as the call finds them. -/
theorem written (c : Dev nD) (t : Fin cfg1.N) :
    (dat1 (F := Ideal) V c).flushed 2 t
      = ((cfg1.win 2).blk t).view.read (Elt Ideal) (linear (V c main_arg1) (V c main_arg7)) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x128) origin]
  obtain ⟨e0, e1, e2, e3, e4, e5⟩ := blockIndex t
  funext j
  show k1_pay1 (iblk1 V c 0 t) (iblk1 V c 1 t) j = linear (V c main_arg1) (V c main_arg7) (((cfg1.win 2).blk t).view.emb j)
  refine (PointValue.rows_times_weights (iblk1 V c 0 t) (iblk1 V c 1 t) j).trans ?_
  unfold linear
  refine Finset.sum_congr rfl fun k _ => ?_
  have hx : iblk1 V c 0 t (PointValue.featAt j k) = V c main_arg1 (featOf (((cfg1.win 2).blk t).view.emb j) k) := by
    show V c main_arg1 (((cfg1.win 0).blk t).view.emb (PointValue.featAt j k)) = _
    refine congrArg (V c main_arg1) (funext fun a => Fin.ext ?_)
    match a with
    | ⟨0, _⟩ =>
      show win1_0.index t (0 : Fin 2) * 5000 + 1 * (j 0).val = win1_2.index t (0 : Fin 2) * 5000 + 1 * (j 0).val
      omega
    | ⟨1, _⟩ =>
      show win1_0.index t (1 : Fin 2) * 128 + 1 * k.val = k.val
      omega
  have hw : iblk1 V c 1 t (PointValue.weightAt j k) = V c main_arg7 (weightOf (((cfg1.win 2).blk t).view.emb j) k) := by
    show V c main_arg7 (((cfg1.win 1).blk t).view.emb (PointValue.weightAt j k)) = _
    refine congrArg (V c main_arg7) (funext fun a => Fin.ext ?_)
    match a with
    | ⟨0, _⟩ =>
      show win1_1.index t (0 : Fin 2) * 128 + 1 * (j 1).val = win1_2.index t (1 : Fin 2) * 128 + 1 * (j 1).val
      omega
    | ⟨1, _⟩ =>
      show win1_1.index t (1 : Fin 2) * 128 + 1 * k.val = k.val
      omega
  rw [hx, hw]

/-- A node row is in point `t`'s block iff each of its coordinates is in the block's range on that axis. -/
theorem mem_block (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v31).slice (win1_2.rect t)).set ↔ _
  rw [View.set_slice_whole, Rect.mem_set_unit]
  exact Iff.rfl

/-- The 10 blocks tile the nodes: row n is in block n / 5000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := blockOfRows ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- After the call its result array is `linear x w` of the features and weights it was entered with. -/
theorem result (c : Dev nD) :
    (dat1 (F := Ideal) V c).arrAt 2 cfg1.N = linear (V c main_arg1) (V c main_arg7) :=
  (dat1 (F := Ideal) V c).arrAt_eq_of_cover 2 (linear (V c main_arg1) (V c main_arg7))
    (fun t _ => written V c t) covered

end Cert.KernelIdeal.Linear1

end
-- ==== Proof.Linear2.lean ====
/-
  The array the matmul call number 2 leaves: the feature transform of all 50000 nodes.

  The call walks the nodes in 10 blocks of 5000 rows; the point for block q reads rows 5000 q .. 5000 q + 4999 of the
  features and the whole weight matrix, and writes the same rows of the result. Entry (r, j) of what it writes is the sum
  over the input features k of x[5000 q + r, k] * w[j, k], which is entry (5000 q + r, j) of `linear x w`: a row of
  the product depends on that row of the features only. The 10 blocks tile the 50000 rows, so the array ends as
  `linear x w` everywhere.
-/
import proofs.«159419_j31293131719204_1_alg».proof.Proof.Gen.KernelIdeal.Frame
import proofs.«159419_j31293131719204_1_alg».proof.Proof.PointValue
import proofs.«159419_j31293131719204_1_alg».proof.Proof.LayerSpec
import Idealize.ShloMosaic.Lib.Pipeline.Value

set_option maxRecDepth 16384

noncomputable section

namespace Cert.KernelIdeal.Linear2

open Idealize.ShloMosaic Idealize.ShloMosaic.TcCoe Idealize.SL.Sem
open Cert.KernelIdeal Cert.KernelIdeal.Gen Cert.LayerSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps, decided over the 10 points: the features' block moves with the result's block along the rows, the
    weight matrix is always its one whole block, and the result's row-block number is at most 9. -/
theorem blockIndex : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the 10 row blocks is some point's. -/
theorem blockOfRows : ∀ q : Fin 10, ∃ t : Fin cfg2.N, win2_2.index t = ![q.val, 0] :=
  (by decide +kernel : ∀ q : Fin 10, ∃ t : Fin grid2.N, win2_2.index t = ![q.val, 0])

/-- What point `t` writes back is block `t` of `linear x w` of the arrays as the call finds them. -/
theorem written (c : Dev nD) (t : Fin cfg2.N) :
    (dat2 (F := Ideal) V c).flushed 2 t
      = ((cfg2.win 2).blk t).view.read (Elt Ideal) (linear (V c main_arg2) (V c main_arg5)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x128) origin]
  obtain ⟨e0, e1, e2, e3, e4, e5⟩ := blockIndex t
  funext j
  show k2_pay1 (iblk2 V c 0 t) (iblk2 V c 1 t) j = linear (V c main_arg2) (V c main_arg5) (((cfg2.win 2).blk t).view.emb j)
  refine (PointValue.rows_times_weights (iblk2 V c 0 t) (iblk2 V c 1 t) j).trans ?_
  unfold linear
  refine Finset.sum_congr rfl fun k _ => ?_
  have hx : iblk2 V c 0 t (PointValue.featAt j k) = V c main_arg2 (featOf (((cfg2.win 2).blk t).view.emb j) k) := by
    show V c main_arg2 (((cfg2.win 0).blk t).view.emb (PointValue.featAt j k)) = _
    refine congrArg (V c main_arg2) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  have hw : iblk2 V c 1 t (PointValue.weightAt j k) = V c main_arg5 (weightOf (((cfg2.win 2).blk t).view.emb j) k) := by
    show V c main_arg5 (((cfg2.win 1).blk t).view.emb (PointValue.weightAt j k)) = _
    refine congrArg (V c main_arg5) (funext fun a => Fin.ext ?_)
    match a with
    | ⟨0, _⟩ =>
      show win2_1.index t (0 : Fin 2) * 128 + 1 * (j 1).val = win2_2.index t (1 : Fin 2) * 128 + 1 * (j 1).val
      omega
    | ⟨1, _⟩ =>
      show win2_1.index t (1 : Fin 2) * 128 + 1 * k.val = k.val
      omega
  rw [hx, hw]

/-- A node row is in point `t`'s block iff each of its coordinates is in the block's range on that axis. -/
theorem mem_block (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v32).slice (win2_2.rect t)).set ↔ _
  rw [View.set_slice_whole, Rect.mem_set_unit]
  exact Iff.rfl

/-- The 10 blocks tile the nodes: row n is in block n / 5000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := blockOfRows ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- After the call its result array is `linear x w` of the features and weights it was entered with. -/
theorem result (c : Dev nD) :
    (dat2 (F := Ideal) V c).arrAt 2 cfg2.N = linear (V c main_arg2) (V c main_arg5) :=
  (dat2 (F := Ideal) V c).arrAt_eq_of_cover 2 (linear (V c main_arg2) (V c main_arg5))
    (fun t _ => written V c t) covered

end Cert.KernelIdeal.Linear2

end
-- ==== Proof.Linear3.lean ====
/-
  The array the matmul call number 3 leaves: the feature transform of all 50000 nodes.

  The call walks the nodes in 10 blocks of 5000 rows; the point for block q reads rows 5000 q .. 5000 q + 4999 of the
  features and the whole weight matrix, and writes the same rows of the result. Entry (r, j) of what it writes is the sum
  over the input features k of x[5000 q + r, k] * w[j, k], which is entry (5000 q + r, j) of `linear x w`: a row of
  the product depends on that row of the features only. The 10 blocks tile the 50000 rows, so the array ends as
  `linear x w` everywhere.
-/
import proofs.«159419_j31293131719204_1_alg».proof.Proof.Gen.KernelIdeal.Frame
import proofs.«159419_j31293131719204_1_alg».proof.Proof.PointValue
import proofs.«159419_j31293131719204_1_alg».proof.Proof.LayerSpec
import Idealize.ShloMosaic.Lib.Pipeline.Value

set_option maxRecDepth 16384

noncomputable section

namespace Cert.KernelIdeal.Linear3

open Idealize.ShloMosaic Idealize.ShloMosaic.TcCoe Idealize.SL.Sem
open Cert.KernelIdeal Cert.KernelIdeal.Gen Cert.LayerSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps, decided over the 10 points: the features' block moves with the result's block along the rows, the
    weight matrix is always its one whole block, and the result's row-block number is at most 9. -/
theorem blockIndex : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the 10 row blocks is some point's. -/
theorem blockOfRows : ∀ q : Fin 10, ∃ t : Fin cfg3.N, win3_2.index t = ![q.val, 0] :=
  (by decide +kernel : ∀ q : Fin 10, ∃ t : Fin grid3.N, win3_2.index t = ![q.val, 0])

/-- What point `t` writes back is block `t` of `linear x w` of the arrays as the call finds them. -/
theorem written (c : Dev nD) (t : Fin cfg3.N) :
    (dat3 (F := Ideal) V c).flushed 2 t
      = ((cfg3.win 2).blk t).view.read (Elt Ideal) (linear (V c main_arg3) (V c main_arg7)) := by
  show (cfg3.win 2).cut (grid3.coords t) ((dat3 V c).after 2 t) = _
  rw [after3_2]
  unfold out3_2
  rw [View.canon_unit_zero origin]
  simp only [View.ld_unit_zero (S := S5000x128) origin, View.ld_unit_zero (S := S128x128) origin]
  obtain ⟨e0, e1, e2, e3, e4, e5⟩ := blockIndex t
  funext j
  show k3_pay1 (iblk3 V c 0 t) (iblk3 V c 1 t) j = linear (V c main_arg3) (V c main_arg7) (((cfg3.win 2).blk t).view.emb j)
  refine (PointValue.rows_times_weights (iblk3 V c 0 t) (iblk3 V c 1 t) j).trans ?_
  unfold linear
  refine Finset.sum_congr rfl fun k _ => ?_
  have hx : iblk3 V c 0 t (PointValue.featAt j k) = V c main_arg3 (featOf (((cfg3.win 2).blk t).view.emb j) k) := by
    show V c main_arg3 (((cfg3.win 0).blk t).view.emb (PointValue.featAt j k)) = _
    refine congrArg (V c main_arg3) (funext fun a => Fin.ext ?_)
    match a with
    | ⟨0, _⟩ =>
      show win3_0.index t (0 : Fin 2) * 5000 + 1 * (j 0).val = win3_2.index t (0 : Fin 2) * 5000 + 1 * (j 0).val
      omega
    | ⟨1, _⟩ =>
      show win3_0.index t (1 : Fin 2) * 128 + 1 * k.val = k.val
      omega
  have hw : iblk3 V c 1 t (PointValue.weightAt j k) = V c main_arg7 (weightOf (((cfg3.win 2).blk t).view.emb j) k) := by
    show V c main_arg7 (((cfg3.win 1).blk t).view.emb (PointValue.weightAt j k)) = _
    refine congrArg (V c main_arg7) (funext fun a => Fin.ext ?_)
    match a with
    | ⟨0, _⟩ =>
      show win3_1.index t (0 : Fin 2) * 128 + 1 * (j 1).val = win3_2.index t (1 : Fin 2) * 128 + 1 * (j 1).val
      omega
    | ⟨1, _⟩ =>
      show win3_1.index t (1 : Fin 2) * 128 + 1 * k.val = k.val
      omega
  rw [hx, hw]

/-- A node row is in point `t`'s block iff each of its coordinates is in the block's range on that axis. -/
theorem mem_block (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v33).slice (win3_2.rect t)).set ↔ _
  rw [View.set_slice_whole, Rect.mem_set_unit]
  exact Iff.rfl

/-- The 10 blocks tile the nodes: row n is in block n / 5000. -/
theorem covered (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := blockOfRows ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- After the call its result array is `linear x w` of the features and weights it was entered with. -/
theorem result (c : Dev nD) :
    (dat3 (F := Ideal) V c).arrAt 2 cfg3.N = linear (V c main_arg3) (V c main_arg7) :=
  (dat3 (F := Ideal) V c).arrAt_eq_of_cover 2 (linear (V c main_arg3) (V c main_arg7))
    (fun t _ => written V c t) covered

end Cert.KernelIdeal.Linear3

end
-- ==== Proof.AfterLinear.lean ====
/-
  What the kernel program holds after its four matmul calls.

  Each matmul call leaves in its result buffer `linear x w` of the feature array and weight matrix it was entered with
  (the call's own module), and those are the arguments as launched: the calls before it write only their own result
  buffers, and an argument a call reads through a window comes back unchanged. No call writes the sources, the
  destinations, the normalisation or a bias, so these are still what the host operations before the first call left.
-/
import proofs.«159419_j31293131719204_1_alg».proof.Proof.Prelude
import proofs.«159419_j31293131719204_1_alg».proof.Proof.Linear0
import proofs.«159419_j31293131719204_1_alg».proof.Proof.Linear1
import proofs.«159419_j31293131719204_1_alg».proof.Proof.Linear2
import proofs.«159419_j31293131719204_1_alg».proof.Proof.Linear3

set_option maxRecDepth 16384

noncomputable section

namespace Cert.KernelIdeal.AfterLinear

open Idealize.ShloMosaic Idealize.ShloMosaic.TcCoe Idealize.SL.Sem Idealize.ShloMosaic.StableHlo
open Cert.KernelIdeal Cert.KernelIdeal.Gen Cert.KernelIdeal.Facts₀ Cert.LayerSpec

/-- A buffer that no operation of a host stretch writes holds after the stretch what it held before. -/
macro "unwritten" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg)

open Cert.KernelIdeal.Prelude

/-! ## The arguments each call is entered with -/

theorem arg1_at4 (c : Dev nD) : W4 m ρ c (Proc.devRef .tc main_arg1) = (m ((c : Thread nD τ).loc main_arg1)) :=
  calc W4 m ρ c (Proc.devRef .tc main_arg1)
    _ = W3 m ρ c (Proc.devRef .tc main_arg1) := W4_of_ne m ρ c main_arg1 (by decide)
    _ = _ := arg1_at3 m ρ c
theorem arg7_at4 (c : Dev nD) : W4 m ρ c (Proc.devRef .tc main_arg7) = (m ((c : Thread nD τ).loc main_arg7)) :=
  calc W4 m ρ c (Proc.devRef .tc main_arg7)
    _ = W3 m ρ c (Proc.devRef .tc main_arg7) := W4_of_ne m ρ c main_arg7 (by decide)
    _ = _ := arg7_at3 m ρ c
theorem arg2_at5 (c : Dev nD) : W5 m ρ c (Proc.devRef .tc main_arg2) = (m ((c : Thread nD τ).loc main_arg2)) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = _ := arg2_at3 m ρ c
/-- The first weight matrix, read by call 0 through a window, is unchanged by it. -/
theorem arg5_at5 (c : Dev nD) : W5 m ρ c (Proc.devRef .tc main_arg5) = (m ((c : Thread nD τ).loc main_arg5)) :=
  calc W5 m ρ c (Proc.devRef .tc main_arg5)
    _ = W4 m ρ c (Proc.devRef .tc main_arg5) := W5_of_ne m ρ c main_arg5 (by decide)
    _ = W3 m ρ c (Proc.devRef .tc main_arg5) := (W4_arr m ρ c 1).trans (((dat0 (V3 m ρ) c).arrAt_in 1 rfl _).trans (A_eq0 (V3 m ρ) c 1))
    _ = _ := arg5_at3 m ρ c
theorem arg3_at6 (c : Dev nD) : W6 m ρ c (Proc.devRef .tc main_arg3) = (m ((c : Thread nD τ).loc main_arg3)) :=
  calc W6 m ρ c (Proc.devRef .tc main_arg3)
    _ = W5 m ρ c (Proc.devRef .tc main_arg3) := W6_of_ne m ρ c main_arg3 (by decide)
    _ = W4 m ρ c (Proc.devRef .tc main_arg3) := W5_of_ne m ρ c main_arg3 (by decide)
    _ = W3 m ρ c (Proc.devRef .tc main_arg3) := W4_of_ne m ρ c main_arg3 (by decide)
    _ = _ := arg3_at3 m ρ c
/-- The second weight matrix, read by call 1 through a window, is unchanged by it. -/
theorem arg7_at6 (c : Dev nD) : W6 m ρ c (Proc.devRef .tc main_arg7) = (m ((c : Thread nD τ).loc main_arg7)) :=
  calc W6 m ρ c (Proc.devRef .tc main_arg7)
    _ = W5 m ρ c (Proc.devRef .tc main_arg7) := W6_of_ne m ρ c main_arg7 (by decide)
    _ = W4 m ρ c (Proc.devRef .tc main_arg7) := (W5_arr m ρ c 1).trans (((dat1 (V4 m ρ) c).arrAt_in 1 rfl _).trans (A_eq1 (V4 m ρ) c 1))
    _ = _ := arg7_at4 m ρ c

/-! ## The four transformed feature arrays -/

theorem linear0_at7 (c : Dev nD) : W7 m ρ c (Proc.devRef .tc main_v30) = linear (m ((c : Thread nD τ).loc main_arg0)) (m ((c : Thread nD τ).loc main_arg5)) :=
  calc W7 m ρ c (Proc.devRef .tc main_v30)
    _ = W6 m ρ c (Proc.devRef .tc main_v30) := W7_of_ne m ρ c main_v30 (by decide)
    _ = W5 m ρ c (Proc.devRef .tc main_v30) := W6_of_ne m ρ c main_v30 (by decide)
    _ = W4 m ρ c (Proc.devRef .tc main_v30) := W5_of_ne m ρ c main_v30 (by decide)
    _ = (dat0 (F := Ideal) (V3 m ρ) c).arrAt 2 cfg0.N := W4_arr m ρ c 2
    _ = linear (V3 m ρ c main_arg0) (V3 m ρ c main_arg5) := Linear0.result (V3 m ρ) c
    _ = _ := congrArg₂ linear (arg0_at3 m ρ c) (arg5_at3 m ρ c)
theorem linear1_at7 (c : Dev nD) : W7 m ρ c (Proc.devRef .tc main_v31) = linear (m ((c : Thread nD τ).loc main_arg1)) (m ((c : Thread nD τ).loc main_arg7)) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = (dat1 (F := Ideal) (V4 m ρ) c).arrAt 2 cfg1.N := W5_arr m ρ c 2
    _ = linear (V4 m ρ c main_arg1) (V4 m ρ c main_arg7) := Linear1.result (V4 m ρ) c
    _ = _ := congrArg₂ linear (arg1_at4 m ρ c) (arg7_at4 m ρ c)
theorem linear2_at7 (c : Dev nD) : W7 m ρ c (Proc.devRef .tc main_v32) = linear (m ((c : Thread nD τ).loc main_arg2)) (m ((c : Thread nD τ).loc main_arg5)) :=
  calc W7 m ρ c (Proc.devRef .tc main_v32)
    _ = W6 m ρ c (Proc.devRef .tc main_v32) := W7_of_ne m ρ c main_v32 (by decide)
    _ = (dat2 (F := Ideal) (V5 m ρ) c).arrAt 2 cfg2.N := W6_arr m ρ c 2
    _ = linear (V5 m ρ c main_arg2) (V5 m ρ c main_arg5) := Linear2.result (V5 m ρ) c
    _ = _ := congrArg₂ linear (arg2_at5 m ρ c) (arg5_at5 m ρ c)
theorem linear3_at7 (c : Dev nD) : W7 m ρ c (Proc.devRef .tc main_v33) = linear (m ((c : Thread nD τ).loc main_arg3)) (m ((c : Thread nD τ).loc main_arg7)) :=
  calc W7 m ρ c (Proc.devRef .tc main_v33)
    _ = (dat3 (F := Ideal) (V6 m ρ) c).arrAt 2 cfg3.N := W7_arr m ρ c 2
    _ = linear (V6 m ρ c main_arg3) (V6 m ρ c main_arg7) := Linear3.result (V6 m ρ) c
    _ = _ := congrArg₂ linear (arg3_at6 m ρ c) (arg7_at6 m ρ c)

/-! ## What the calls leave alone -/

theorem src_at7 (c : Dev nD) : W7 m ρ c (Proc.devRef .tc main_v3) = Cert.ReferenceIdeal.Stages.src (m ((c : Thread nD τ).loc main_arg4)) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := W5_of_ne m ρ c main_v3 (by decide)
    _ = W3 m ρ c (Proc.devRef .tc main_v3) := W4_of_ne m ρ c main_v3 (by decide)
    _ = _ := src_at3 m ρ c
theorem dst_at7 (c : Dev nD) : W7 m ρ c (Proc.devRef .tc main_v6) = Cert.ReferenceIdeal.Stages.dst (m ((c : Thread nD τ).loc main_arg4)) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := W5_of_ne m ρ c main_v6 (by decide)
    _ = W3 m ρ c (Proc.devRef .tc main_v6) := W4_of_ne m ρ c main_v6 (by decide)
    _ = _ := dst_at3 m ρ c
theorem norm_at7 (c : Dev nD) : W7 m ρ c (Proc.devRef .tc main_v29) = Cert.ReferenceIdeal.Stages.norm (m ((c : Thread nD τ).loc main_arg4)) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := W5_of_ne m ρ c main_v29 (by decide)
    _ = W3 m ρ c (Proc.devRef .tc main_v29) := W4_of_ne m ρ c main_v29 (by decide)
    _ = _ := norm_at3 m ρ c
theorem arg6_at7 (c : Dev nD) : W7 m ρ c (Proc.devRef .tc main_arg6) = (m ((c : Thread nD τ).loc main_arg6)) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := W5_of_ne m ρ c main_arg6 (by decide)
    _ = W3 m ρ c (Proc.devRef .tc main_arg6) := W4_of_ne m ρ c main_arg6 (by decide)
    _ = _ := arg6_at3 m ρ c
theorem arg8_at7 (c : Dev nD) : W7 m ρ c (Proc.devRef .tc main_arg8) = (m ((c : Thread nD τ).loc main_arg8)) :=
  calc W7 m ρ c (Proc.devRef .tc main_arg8)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := W5_of_ne m ρ c main_arg8 (by decide)
    _ = W3 m ρ c (Proc.devRef .tc main_arg8) := W4_of_ne m ρ c main_arg8 (by decide)
    _ = _ := arg8_at3 m ρ c

end Cert.KernelIdeal.AfterLinear

end
-- ==== Proof.AfterAggregate.lean ====
/-
  What the kernel program holds after the host operations between its matmul calls and its bias calls.

  That stretch runs the message passing once per transformed feature array: gather its rows by source, scale each by
  the edge's normalisation, add into the destination's row. These are the operations `Stages.aggregate` names, applied
  to the matmul calls' results, the sources, the destinations and the normalisation as the calls left them. The stretch
  ends by laying the first bias out as one row.
-/
import proofs.«159419_j31293131719204_1_alg».proof.Proof.AfterLinear

set_option maxRecDepth 16384

noncomputable section

namespace Cert.KernelIdeal.AfterAggregate

open Idealize.ShloMosaic Idealize.ShloMosaic.TcCoe Idealize.SL.Sem Idealize.ShloMosaic.StableHlo
open Cert.KernelIdeal Cert.KernelIdeal.Gen Cert.KernelIdeal.Facts₀ Cert.LayerSpec

/-- A buffer that no operation of a host stretch writes holds after the stretch what it held before. -/
macro "unwritten" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg)

open Cert.KernelIdeal.Prelude Cert.KernelIdeal.AfterLinear

/-- The message passing of transformed feature array 0. -/
theorem aggregate0_at8 (c : Dev nD) :
    W8 m ρ c (Proc.devRef .tc main_v46) = Cert.ReferenceIdeal.Stages.aggregate (linear (m ((c : Thread nD τ).loc main_arg0)) (m ((c : Thread nD τ).loc main_arg5))) (m ((c : Thread nD τ).loc main_arg4)) := by
  have hh := linear0_at7 m ρ c
  have h3 := src_at7 m ρ c
  have h6 := dst_at7 m ρ c
  have hn := norm_at7 m ρ c
  show StableHlo.after hostOps4 (W7 m ρ c) (Proc.devRef .tc main_v46) = _
  generalize W7 m ρ c = V at hh h3 h6 hn ⊢
  after_results_simp
  rw [hh, h3, h6, hn]
  unfold Cert.ReferenceIdeal.Stages.aggregate Cert.ReferenceIdeal.Stages.wrap
  generalize linear (m ((c : Thread nD τ).loc main_arg0)) (m ((c : Thread nD τ).loc main_arg5)) = t
  generalize Cert.ReferenceIdeal.Stages.norm (m ((c : Thread nD τ).loc main_arg4)) = n
  generalize Cert.ReferenceIdeal.Stages.src (m ((c : Thread nD τ).loc main_arg4)) = s
  generalize Cert.ReferenceIdeal.Stages.dst (m ((c : Thread nD τ).loc main_arg4)) = d
  rfl

/-- The message passing of transformed feature array 1. -/
theorem aggregate1_at8 (c : Dev nD) :
    W8 m ρ c (Proc.devRef .tc main_v59) = Cert.ReferenceIdeal.Stages.aggregate (linear (m ((c : Thread nD τ).loc main_arg1)) (m ((c : Thread nD τ).loc main_arg7))) (m ((c : Thread nD τ).loc main_arg4)) := by
  have hh := linear1_at7 m ρ c
  have h3 := src_at7 m ρ c
  have h6 := dst_at7 m ρ c
  have hn := norm_at7 m ρ c
  show StableHlo.after hostOps4 (W7 m ρ c) (Proc.devRef .tc main_v59) = _
  generalize W7 m ρ c = V at hh h3 h6 hn ⊢
  after_results_simp
  rw [hh, h3, h6, hn]
  unfold Cert.ReferenceIdeal.Stages.aggregate Cert.ReferenceIdeal.Stages.wrap
  generalize linear (m ((c : Thread nD τ).loc main_arg1)) (m ((c : Thread nD τ).loc main_arg7)) = t
  generalize Cert.ReferenceIdeal.Stages.norm (m ((c : Thread nD τ).loc main_arg4)) = n
  generalize Cert.ReferenceIdeal.Stages.src (m ((c : Thread nD τ).loc main_arg4)) = s
  generalize Cert.ReferenceIdeal.Stages.dst (m ((c : Thread nD τ).loc main_arg4)) = d
  rfl

/-- The message passing of transformed feature array 2. -/
theorem aggregate2_at8 (c : Dev nD) :
    W8 m ρ c (Proc.devRef .tc main_v72) = Cert.ReferenceIdeal.Stages.aggregate (linear (m ((c : Thread nD τ).loc main_arg2)) (m ((c : Thread nD τ).loc main_arg5))) (m ((c : Thread nD τ).loc main_arg4)) := by
  have hh := linear2_at7 m ρ c
  have h3 := src_at7 m ρ c
  have h6 := dst_at7 m ρ c
  have hn := norm_at7 m ρ c
  show StableHlo.after hostOps4 (W7 m ρ c) (Proc.devRef .tc main_v72) = _
  generalize W7 m ρ c = V at hh h3 h6 hn ⊢
  after_results_simp
  rw [hh, h3, h6, hn]
  unfold Cert.ReferenceIdeal.Stages.aggregate Cert.ReferenceIdeal.Stages.wrap
  generalize linear (m ((c : Thread nD τ).loc main_arg2)) (m ((c : Thread nD τ).loc main_arg5)) = t
  generalize Cert.ReferenceIdeal.Stages.norm (m ((c : Thread nD τ).loc main_arg4)) = n
  generalize Cert.ReferenceIdeal.Stages.src (m ((c : Thread nD τ).loc main_arg4)) = s
  generalize Cert.ReferenceIdeal.Stages.dst (m ((c : Thread nD τ).loc main_arg4)) = d
  rfl

/-- The message passing of transformed feature array 3. -/
theorem aggregate3_at8 (c : Dev nD) :
    W8 m ρ c (Proc.devRef .tc main_v85) = Cert.ReferenceIdeal.Stages.aggregate (linear (m ((c : Thread nD τ).loc main_arg3)) (m ((c : Thread nD τ).loc main_arg7))) (m ((c : Thread nD τ).loc main_arg4)) := by
  have hh := linear3_at7 m ρ c
  have h3 := src_at7 m ρ c
  have h6 := dst_at7 m ρ c
  have hn := norm_at7 m ρ c
  show StableHlo.after hostOps4 (W7 m ρ c) (Proc.devRef .tc main_v85) = _
  generalize W7 m ρ c = V at hh h3 h6 hn ⊢
  after_results_simp
  rw [hh, h3, h6, hn]
  unfold Cert.ReferenceIdeal.Stages.aggregate Cert.ReferenceIdeal.Stages.wrap
  generalize linear (m ((c : Thread nD τ).loc main_arg3)) (m ((c : Thread nD τ).loc main_arg7)) = t
  generalize Cert.ReferenceIdeal.Stages.norm (m ((c : Thread nD τ).loc main_arg4)) = n
  generalize Cert.ReferenceIdeal.Stages.src (m ((c : Thread nD τ).loc main_arg4)) = s
  generalize Cert.ReferenceIdeal.Stages.dst (m ((c : Thread nD τ).loc main_arg4)) = d
  rfl

/-- The first bias laid out as one row. -/
theorem row0_at8 (c : Dev nD) : W8 m ρ c (Proc.devRef .tc main_v86) = shapeCast S1x128 (m ((c : Thread nD τ).loc main_arg6)) Cert.KernelIdeal.Facts₀.shapeCasts_S128_S1x128 := by
  have hb := arg6_at7 m ρ c
  show StableHlo.after hostOps4 (W7 m ρ c) (Proc.devRef .tc main_v86) = _
  generalize W7 m ρ c = V at hb ⊢
  after_results_simp
  rw [hb]
  rfl

/-- The biases are still as launched. -/
theorem arg6_at8 (c : Dev nD) : W8 m ρ c (Proc.devRef .tc main_arg6) = (m ((c : Thread nD τ).loc main_arg6)) :=
  calc W8 m ρ c (Proc.devRef .tc main_arg6)
    _ = W7 m ρ c (Proc.devRef .tc main_arg6) := by
      show StableHlo.after hostOps4 (W7 m ρ c) (Proc.devRef .tc main_arg6) = _
      unwritten hostOps4
    _ = _ := arg6_at7 m ρ c
theorem arg8_at8 (c : Dev nD) : W8 m ρ c (Proc.devRef .tc main_arg8) = (m ((c : Thread nD τ).loc main_arg8)) :=
  calc W8 m ρ c (Proc.devRef .tc main_arg8)
    _ = W7 m ρ c (Proc.devRef .tc main_arg8) := by
      show StableHlo.after hostOps4 (W7 m ρ c) (Proc.devRef .tc main_arg8) = _
      unwritten hostOps4
    _ = _ := arg8_at7 m ρ c

end Cert.KernelIdeal.AfterAggregate

end
-- ==== Proof.Bias4.lean ====
/-
  The array the bias call number 4 leaves: the bias row added to every node's aggregated row.

  The call walks the nodes in 10 blocks of 5000 rows; the point for block q reads rows 5000 q .. 5000 q + 4999 of the
  aggregated features and the bias, held as one row of 128 lanes, and writes the same rows of the result. Entry (r, j) of
  what it writes is a[5000 q + r, j] + b[0, j], which is entry (5000 q + r, j) of `plusBiasRow a b`. The 10 blocks tile
  the 50000 rows, so the array ends as `plusBiasRow a b` everywhere.
-/
import proofs.«159419_j31293131719204_1_alg».proof.Proof.Gen.KernelIdeal.Frame
import proofs.«159419_j31293131719204_1_alg».proof.Proof.PointValue
import proofs.«159419_j31293131719204_1_alg».proof.Proof.LayerSpec
import Idealize.ShloMosaic.Lib.Pipeline.Value

set_option maxRecDepth 16384

noncomputable section

namespace Cert.KernelIdeal.Bias4

open Idealize.ShloMosaic Idealize.ShloMosaic.TcCoe Idealize.SL.Sem
open Cert.KernelIdeal Cert.KernelIdeal.Gen Cert.LayerSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps, decided over the 10 points: the aggregated rows' block moves with the result's block along the
    rows, the bias row is always its one whole block, and the result's row-block number is at most 9. -/
theorem blockIndex : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every one of the 10 row blocks is some point's. -/
theorem blockOfRows : ∀ q : Fin 10, ∃ t : Fin cfg4.N, win4_2.index t = ![q.val, 0] :=
  (by decide +kernel : ∀ q : Fin 10, ∃ t : Fin grid4.N, win4_2.index t = ![q.val, 0])

/-- What point `t` writes back is block `t` of `plusBiasRow a b` of the arrays as the call finds them. -/
theorem written (c : Dev nD) (t : Fin cfg4.N) :
    (dat4 (F := Ideal) V c).flushed 2 t
      = ((cfg4.win 2).blk t).view.read (Elt Ideal) (plusBiasRow (V c main_v46) (V c main_v86)) := by
  show (cfg4.win 2).cut (grid4.coords t) ((dat4 V c).after 2 t) = _
  rw [after4_2]
  unfold out4_2
  rw [View.canon_unit_zero origin]
  simp only [View.ld_unit_zero (S := S5000x128) origin, View.ld_unit_zero (S := S1x128) origin]
  obtain ⟨e0, e1, e2, e3, e4, e5⟩ := blockIndex t
  funext j
  show k4_pay1 (iblk4 V c 0 t) (iblk4 V c 1 t) j = plusBiasRow (V c main_v46) (V c main_v86) (((cfg4.win 2).blk t).view.emb j)
  refine (PointValue.rows_plus_bias (iblk4 V c 0 t) (iblk4 V c 1 t) j).trans ?_
  unfold plusBiasRow
  have ha : iblk4 V c 0 t j = V c main_v46 (((cfg4.win 2).blk t).view.emb j) := by
    show V c main_v46 (((cfg4.win 0).blk t).view.emb j) = _
    refine congrArg (V c main_v46) (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 128 + 1 * (j 1).val = win4_2.index t (1 : Fin 2) * 128 + 1 * (j 1).val
      omega
  have hb : iblk4 V c 1 t (PointValue.laneAt j) = V c main_v86 (laneOf (((cfg4.win 2).blk t).view.emb j)) := by
    show V c main_v86 (((cfg4.win 1).blk t).view.emb (PointValue.laneAt j)) = _
    refine congrArg (V c main_v86) (funext fun a => Fin.ext ?_)
    match a with
    | ⟨0, _⟩ =>
      show win4_1.index t (0 : Fin 2) * 1 + 1 * 0 = 0
      omega
    | ⟨1, _⟩ =>
      show win4_1.index t (1 : Fin 2) * 128 + 1 * (j 1).val = win4_2.index t (1 : Fin 2) * 128 + 1 * (j 1).val
      omega
  rw [ha, hb]

/-- A node row is in point `t`'s block iff each of its coordinates is in the block's range on that axis. -/
theorem mem_block (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v87).slice (win4_2.rect t)).set ↔ _
  rw [View.set_slice_whole, Rect.mem_set_unit]
  exact Iff.rfl

/-- The 10 blocks tile the nodes: row n is in block n / 5000. -/
theorem covered (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := blockOfRows ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

/-- After the call its result array is `plusBiasRow a b` of the aggregated rows and bias row it was entered with. -/
theorem result (c : Dev nD) :
    (dat4 (F := Ideal) V c).arrAt 2 cfg4.N = plusBiasRow (V c main_v46) (V c main_v86) :=
  (dat4 (F := Ideal) V c).arrAt_eq_of_cover 2 (plusBiasRow (V c main_v46) (V c main_v86))
    (fun t _ => written V c t) covered

end Cert.KernelIdeal.Bias4

end
-- ==== Proof.Bias5.lean ====
/-
  The array the bias call number 5 leaves: the bias row added to every node's aggregated row.

  The call walks the nodes in 10 blocks of 5000 rows; the point for block q reads rows 5000 q .. 5000 q + 4999 of the
  aggregated features and the bias, held as one row of 128 lanes, and writes the same rows of the result. Entry (r, j) of
  what it writes is a[5000 q + r, j] + b[0, j], which is entry (5000 q + r, j) of `plusBiasRow a b`. The 10 blocks tile
  the 50000 rows, so the array ends as `plusBiasRow a b` everywhere.
-/
import proofs.«159419_j31293131719204_1_alg».proof.Proof.Gen.KernelIdeal.Frame
import proofs.«159419_j31293131719204_1_alg».proof.Proof.PointValue
import proofs.«159419_j31293131719204_1_alg».proof.Proof.LayerSpec
import Idealize.ShloMosaic.Lib.Pipeline.Value

set_option maxRecDepth 16384

noncomputable section

namespace Cert.KernelIdeal.Bias5

open Idealize.ShloMosaic Idealize.ShloMosaic.TcCoe Idealize.SL.Sem
open Cert.KernelIdeal Cert.KernelIdeal.Gen Cert.LayerSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps, decided over the 10 points: the aggregated rows' block moves with the result's block along the
    rows, the bias row is always its one whole block, and the result's row-block number is at most 9. -/
theorem blockIndex : ∀ t : Fin cfg5.N,
    win5_0.index t (0 : Fin 2) = win5_2.index t (0 : Fin 2) ∧ win5_0.index t (1 : Fin 2) = 0
    ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every one of the 10 row blocks is some point's. -/
theorem blockOfRows : ∀ q : Fin 10, ∃ t : Fin cfg5.N, win5_2.index t = ![q.val, 0] :=
  (by decide +kernel : ∀ q : Fin 10, ∃ t : Fin grid5.N, win5_2.index t = ![q.val, 0])

/-- What point `t` writes back is block `t` of `plusBiasRow a b` of the arrays as the call finds them. -/
theorem written (c : Dev nD) (t : Fin cfg5.N) :
    (dat5 (F := Ideal) V c).flushed 2 t
      = ((cfg5.win 2).blk t).view.read (Elt Ideal) (plusBiasRow (V c main_v59) (V c main_v88)) := by
  show (cfg5.win 2).cut (grid5.coords t) ((dat5 V c).after 2 t) = _
  rw [after5_2]
  unfold out5_2
  rw [View.canon_unit_zero origin]
  simp only [View.ld_unit_zero (S := S5000x128) origin, View.ld_unit_zero (S := S1x128) origin]
  obtain ⟨e0, e1, e2, e3, e4, e5⟩ := blockIndex t
  funext j
  show k5_pay1 (iblk5 V c 0 t) (iblk5 V c 1 t) j = plusBiasRow (V c main_v59) (V c main_v88) (((cfg5.win 2).blk t).view.emb j)
  refine (PointValue.rows_plus_bias (iblk5 V c 0 t) (iblk5 V c 1 t) j).trans ?_
  unfold plusBiasRow
  have ha : iblk5 V c 0 t j = V c main_v59 (((cfg5.win 2).blk t).view.emb j) := by
    show V c main_v59 (((cfg5.win 0).blk t).view.emb j) = _
    refine congrArg (V c main_v59) (funext fun a => Fin.ext ?_)
    match a with
    | ⟨0, _⟩ =>
      show win5_0.index t (0 : Fin 2) * 5000 + 1 * (j 0).val = win5_2.index t (0 : Fin 2) * 5000 + 1 * (j 0).val
      omega
    | ⟨1, _⟩ =>
      show win5_0.index t (1 : Fin 2) * 128 + 1 * (j 1).val = win5_2.index t (1 : Fin 2) * 128 + 1 * (j 1).val
      omega
  have hb : iblk5 V c 1 t (PointValue.laneAt j) = V c main_v88 (laneOf (((cfg5.win 2).blk t).view.emb j)) := by
    show V c main_v88 (((cfg5.win 1).blk t).view.emb (PointValue.laneAt j)) = _
    refine congrArg (V c main_v88) (funext fun a => Fin.ext ?_)
    match a with
    | ⟨0, _⟩ =>
      show win5_1.index t (0 : Fin 2) * 1 + 1 * 0 = 0
      omega
    | ⟨1, _⟩ =>
      show win5_1.index t (1 : Fin 2) * 128 + 1 * (j 1).val = win5_2.index t (1 : Fin 2) * 128 + 1 * (j 1).val
      omega
  rw [ha, hb]

/-- A node row is in point `t`'s block iff each of its coordinates is in the block's range on that axis. -/
theorem mem_block (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v89).slice (win5_2.rect t)).set ↔ _
  rw [View.set_slice_whole, Rect.mem_set_unit]
  exact Iff.rfl

/-- The 10 blocks tile the nodes: row n is in block n / 5000. -/
theorem covered (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := blockOfRows ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 128 ≤ (i 1).val ∧ (i 1).val < win5_2.index t (1 : Fin 2) * 128 + 128
    omega

/-- After the call its result array is `plusBiasRow a b` of the aggregated rows and bias row it was entered with. -/
theorem result (c : Dev nD) :
    (dat5 (F := Ideal) V c).arrAt 2 cfg5.N = plusBiasRow (V c main_v59) (V c main_v88) :=
  (dat5 (F := Ideal) V c).arrAt_eq_of_cover 2 (plusBiasRow (V c main_v59) (V c main_v88))
    (fun t _ => written V c t) covered

end Cert.KernelIdeal.Bias5

end
-- ==== Proof.Bias6.lean ====
/-
  The array the bias call number 6 leaves: the bias row added to every node's aggregated row.

  The call walks the nodes in 10 blocks of 5000 rows; the point for block q reads rows 5000 q .. 5000 q + 4999 of the
  aggregated features and the bias, held as one row of 128 lanes, and writes the same rows of the result. Entry (r, j) of
  what it writes is a[5000 q + r, j] + b[0, j], which is entry (5000 q + r, j) of `plusBiasRow a b`. The 10 blocks tile
  the 50000 rows, so the array ends as `plusBiasRow a b` everywhere.
-/
import proofs.«159419_j31293131719204_1_alg».proof.Proof.Gen.KernelIdeal.Frame
import proofs.«159419_j31293131719204_1_alg».proof.Proof.PointValue
import proofs.«159419_j31293131719204_1_alg».proof.Proof.LayerSpec
import Idealize.ShloMosaic.Lib.Pipeline.Value

set_option maxRecDepth 16384

noncomputable section

namespace Cert.KernelIdeal.Bias6

open Idealize.ShloMosaic Idealize.ShloMosaic.TcCoe Idealize.SL.Sem
open Cert.KernelIdeal Cert.KernelIdeal.Gen Cert.LayerSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps, decided over the 10 points: the aggregated rows' block moves with the result's block along the
    rows, the bias row is always its one whole block, and the result's row-block number is at most 9. -/
theorem blockIndex : ∀ t : Fin cfg6.N,
    win6_0.index t (0 : Fin 2) = win6_2.index t (0 : Fin 2) ∧ win6_0.index t (1 : Fin 2) = 0
    ∧ win6_1.index t (0 : Fin 2) = 0 ∧ win6_1.index t (1 : Fin 2) = 0
    ∧ win6_2.index t (1 : Fin 2) = 0 ∧ win6_2.index t (0 : Fin 2) ≤ 9 :=
  (by decide +kernel : ∀ t : Fin grid6.N, _)

/-- Every one of the 10 row blocks is some point's. -/
theorem blockOfRows : ∀ q : Fin 10, ∃ t : Fin cfg6.N, win6_2.index t = ![q.val, 0] :=
  (by decide +kernel : ∀ q : Fin 10, ∃ t : Fin grid6.N, win6_2.index t = ![q.val, 0])

/-- What point `t` writes back is block `t` of `plusBiasRow a b` of the arrays as the call finds them. -/
theorem written (c : Dev nD) (t : Fin cfg6.N) :
    (dat6 (F := Ideal) V c).flushed 2 t
      = ((cfg6.win 2).blk t).view.read (Elt Ideal) (plusBiasRow (V c main_v72) (V c main_v90)) := by
  show (cfg6.win 2).cut (grid6.coords t) ((dat6 V c).after 2 t) = _
  rw [after6_2]
  unfold out6_2
  rw [View.canon_unit_zero origin]
  simp only [View.ld_unit_zero (S := S5000x128) origin, View.ld_unit_zero (S := S1x128) origin]
  obtain ⟨e0, e1, e2, e3, e4, e5⟩ := blockIndex t
  funext j
  show k6_pay1 (iblk6 V c 0 t) (iblk6 V c 1 t) j = plusBiasRow (V c main_v72) (V c main_v90) (((cfg6.win 2).blk t).view.emb j)
  refine (PointValue.rows_plus_bias (iblk6 V c 0 t) (iblk6 V c 1 t) j).trans ?_
  unfold plusBiasRow
  have ha : iblk6 V c 0 t j = V c main_v72 (((cfg6.win 2).blk t).view.emb j) := by
    show V c main_v72 (((cfg6.win 0).blk t).view.emb j) = _
    refine congrArg (V c main_v72) (funext fun a => Fin.ext ?_)
    match a with
    | ⟨0, _⟩ =>
      show win6_0.index t (0 : Fin 2) * 5000 + 1 * (j 0).val = win6_2.index t (0 : Fin 2) * 5000 + 1 * (j 0).val
      omega
    | ⟨1, _⟩ =>
      show win6_0.index t (1 : Fin 2) * 128 + 1 * (j 1).val = win6_2.index t (1 : Fin 2) * 128 + 1 * (j 1).val
      omega
  have hb : iblk6 V c 1 t (PointValue.laneAt j) = V c main_v90 (laneOf (((cfg6.win 2).blk t).view.emb j)) := by
    show V c main_v90 (((cfg6.win 1).blk t).view.emb (PointValue.laneAt j)) = _
    refine congrArg (V c main_v90) (funext fun a => Fin.ext ?_)
    match a with
    | ⟨0, _⟩ =>
      show win6_1.index t (0 : Fin 2) * 1 + 1 * 0 = 0
      omega
    | ⟨1, _⟩ =>
      show win6_1.index t (1 : Fin 2) * 128 + 1 * (j 1).val = win6_2.index t (1 : Fin 2) * 128 + 1 * (j 1).val
      omega
  rw [ha, hb]

/-- A node row is in point `t`'s block iff each of its coordinates is in the block's range on that axis. -/
theorem mem_block (t : Fin cfg6.N) (i : S50000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v91).slice (win6_2.rect t)).set ↔ _
  rw [View.set_slice_whole, Rect.mem_set_unit]
  exact Iff.rfl

/-- The 10 blocks tile the nodes: row n is in block n / 5000. -/
theorem covered (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  obtain ⟨t, ht⟩ := blockOfRows ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_block]
  intro a
  match a with
  | ⟨0, _⟩ =>
    show win6_2.index t (0 : Fin 2) * 5000 ≤ (i 0).val ∧ (i 0).val < win6_2.index t (0 : Fin 2) * 5000 + 5000
    omega
  | ⟨1, _⟩ =>
    show win6_2.index t (1 : Fin 2) * 128 ≤ (i 1).val ∧ (i 1).val < win6_2.index t (1 : Fin 2) * 128 + 128
    omega

/-- After the call its result array is `plusBiasRow a b` of the aggregated rows and bias row it was entered with. -/
theorem result (c : Dev nD) :
    (dat6 (F := Ideal) V c).arrAt 2 cfg6.N = plusBiasRow (V c main_v72) (V c main_v90) :=
  (dat6 (F := Ideal) V c).arrAt_eq_of_cover 2 (plusBiasRow (V c main_v72) (V c main_v90))
    (fun t _ => written V c t) covered

end Cert.KernelIdeal.Bias6

end
-- ==== Proof.Bias7.lean ====
/-
  The array the bias call number 7 leaves: the bias row added to every node's aggregated row.

  The call walks the nodes in 10 blocks of 5000 rows; the point for block q reads rows 5000 q .. 5000 q + 4999 of the
  aggregated features and the bias, held as one row of 128 lanes, and writes the same rows of the result. Entry (r, j) of
  what it writes is a[5000 q + r, j] + b[0, j], which is entry (5000 q + r, j) of `plusBiasRow a b`. The 10 blocks tile
  the 50000 rows, so the array ends as `plusBiasRow a b` everywhere.
-/
import proofs.«159419_j31293131719204_1_alg».proof.Proof.Gen.KernelIdeal.Frame
import proofs.«159419_j31293131719204_1_alg».proof.Proof.PointValue
import proofs.«159419_j31293131719204_1_alg».proof.Proof.LayerSpec
import Idealize.ShloMosaic.Lib.Pipeline.Value

set_option maxRecDepth 16384

noncomputable section

namespace Cert.KernelIdeal.Bias7

open Idealize.ShloMosaic Idealize.ShloMosaic.TcCoe Idealize.SL.Sem
open Cert.KernelIdeal Cert.KernelIdeal.Gen Cert.LayerSpec
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The index maps, decided over the 10 points: the aggregated rows' block moves with the result's block along the
    rows, the bias row is always its one whole block, and the result's row-block number is at most 9. -/
theorem blockIndex : ∀ t : Fin cfg7.N,
    win7_0.index t (0 : Fin 2) = win7_2.index t (0 : Fin 2) ∧ win7_0.index t (1 : Fin 2) = 0
    ∧ win7_1.index t (0 : Fin 2) = 0 ∧ win7_1.index t (1 : Fin 2) = 0
    ∧ win7_2.index t (1 : Fin 2) = 0 ∧ win7_2.index t (0 : Fin 2) ≤ 9 :=
  (by decide +kernel : ∀ t : Fin grid7.N, _)

/-- Every one of the 10 row blocks is some point's. -/
theorem blockOfRows : ∀ q : Fin 10, ∃ t : Fin cfg7.N, win7_2.index t = ![q.val, 0] :=
  (by decide +kernel : ∀ q : Fin 10, ∃ t : Fin grid7.N, win7_2.index t = ![q.val, 0])

/-- What point `t` writes back is block `t` of `plusBiasRow a b` of the arrays as the call finds them. -/
theorem written (c : Dev nD) (t : Fin cfg7.N) :
    (dat7 (F := Ideal) V c).flushed 2 t
      = ((cfg7.win 2).blk t).view.read (Elt Ideal) (plusBiasRow (V c main_v85) (V c main_v92)) := by
  show (cfg7.win 2).cut (grid7.coords t) ((dat7 V c).after 2 t) = _
  rw [after7_2]
  unfold out7_2
  rw [View.canon_unit_zero origin]
  simp only [View.ld_unit_zero (S := S5000x128) origin, View.ld_unit_zero (S := S1x128) origin]
  obtain ⟨e0, e1, e2, e3, e4, e5⟩ := blockIndex t
  funext j
  show k7_pay1 (iblk7 V c 0 t) (iblk7 V c 1 t) j = plusBiasRow (V c main_v85) (V c main_v92) (((cfg7.win 2).blk t).view.emb j)
  refine (PointValue.rows_plus_bias (iblk7 V c 0 t) (iblk7 V c 1 t) j).trans ?_
  unfold plusBiasRow
  have ha : iblk7 V c 0 t j = V c main_v85 (((cfg7.win 2).blk t).view.emb j) := by
    show V c main_v85 (((cfg7.win 0).blk t).view.emb j) = _
    refine congrArg (V c main_v85) (funext fun a => Fin.ext ?_)
    match a with
    | ⟨0, _⟩ =>
      show win7_0.index t (0 : Fin 2) * 5000 + 1 * (j 0).val = win7_2.index t (0 : Fin 2) * 5000 + 1 * (j 0).val
      omega
    | ⟨1, _⟩ =>
      show win7_0.index t (1 : Fin 2) * 128 + 1 * (j 1).val = win7_2.index t (1 : Fin 2) * 128 + 1 * (j 1).val
      omega
  have hb : iblk7 V c 1 t (PointValue.laneAt j) = V c main_v92 (laneOf (((cfg7.win 2).blk t).view.emb j)) := by
    show V c main_v92 (((cfg7.win 1).blk t).view.emb (PointValue.laneAt j)) = _
    refine congrArg (V c main_v92) (funext fun a => Fin.ext ?_)
    match a with
    | ⟨0, _⟩ =>
      show win7_1.index t (0 : Fin 2) * 1 + 1 * 0 = 0
      omega
    | ⟨1, _⟩ =>
      show win7_1.index t (1 : Fin 2) * 128 + 1 * (j 1).val = win7_2.index t (1 : Fin 2) * 128 + 1 * (j 1).val
      omega
  rw [ha, hb]

/-- A node row is in point `t`'s block iff each of its coordinates is in the block's range on that axis. -/
theorem mem_block (t : Fin cfg7.N) (i : S50000x128.Idx) :
    i ∈ ((cfg7.win 2).blk t).view.set ↔ ∀ a : Fin 2, win7_2.index t a * S5000x128.size a ≤ (i a).val
      ∧ (i a).val < win7_2.index t a * S5000x128.size a + S5000x128.size a := by
  show i ∈ ((View.whole main_v93).slice (win7_2.rect t)).set ↔ _
  rw [View.set_slice_whole, Rect.mem_set_unit]
  exact Iff.rfl

/-- The 10 blocks tile the nodes: row n is in block n / 5000. -/
theorem covered (i : S50000x128.Idx) :
    ∃ t : Fin cfg7.N, (cfg7.win 2).flush t = true ∧ i ∈ ((cfg7.win 2).blk t).view.set := by
  have hi0 : (i 0).val < 50000 := (i 0).isLt
  have hi1 : (i 1).val < 128 := (i 1).isLt
  obtain ⟨t, ht⟩ := blockOfRows ⟨(i 0).val / 5000, by omega⟩
  have q0 : win7_2.index t (0 : Fin 2) = (i 0).val / 5000 := congrFun ht 0
  have q1 : win7_2.index t (1 : Fin 2) = 0 := congrFun ht 1
  refine ⟨t, flush7_2 t, ?_⟩
  rw [mem_block]
  intro a
  match a with
  | ⟨0, _⟩ =>
    show win7_2.index t (0 : Fin 2) * 5000 ≤ (i 0).val ∧ (i 0).val < win7_2.index t (0 : Fin 2) * 5000 + 5000
    omega
  | ⟨1, _⟩ =>
    show win7_2.index t (1 : Fin 2) * 128 ≤ (i 1).val ∧ (i 1).val < win7_2.index t (1 : Fin 2) * 128 + 128
    omega

/-- After the call its result array is `plusBiasRow a b` of the aggregated rows and bias row it was entered with. -/
theorem result (c : Dev nD) :
    (dat7 (F := Ideal) V c).arrAt 2 cfg7.N = plusBiasRow (V c main_v85) (V c main_v92) :=
  (dat7 (F := Ideal) V c).arrAt_eq_of_cover 2 (plusBiasRow (V c main_v85) (V c main_v92))
    (fun t _ => written V c t) covered

end Cert.KernelIdeal.Bias7

end
-- ==== Proof.KernelValue.lean ====
/-
  The kernel program's four results.

  A bias call leaves in its result buffer `plusBiasRow a b` of the aggregated rows and the bias row it was entered
  with (the call's own module). The aggregated rows are the message passing of the matching matmul call's result,
  written by the long host stretch and by nothing after it; the bias row is the bias as launched, laid out as one row
  by the host operation right before the call. The calls and host operations after a bias call write none of its
  buffers. So result k is `plusBiasRow (aggregate (linear x w) e) b` of the arguments.
-/
import proofs.«159419_j31293131719204_1_alg».proof.Proof.AfterAggregate
import proofs.«159419_j31293131719204_1_alg».proof.Proof.Bias4
import proofs.«159419_j31293131719204_1_alg».proof.Proof.Bias5
import proofs.«159419_j31293131719204_1_alg».proof.Proof.Bias6
import proofs.«159419_j31293131719204_1_alg».proof.Proof.Bias7

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen Cert.KernelIdeal.Facts₀ Cert.LayerSpec

/-- A buffer that no operation of a host stretch writes holds after the stretch what it held before. -/
macro "unwritten" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg)

open Cert.KernelIdeal.Prelude Cert.KernelIdeal.AfterLinear Cert.KernelIdeal.AfterAggregate

/-! ## The bias rows of the later calls -/

theorem arg8_at9 (c : Dev nD) : W9 m ρ c (Proc.devRef .tc main_arg8) = (m ((c : Thread nD τ).loc main_arg8)) :=
  calc W9 m ρ c (Proc.devRef .tc main_arg8)
    _ = W8 m ρ c (Proc.devRef .tc main_arg8) := W9_of_ne m ρ c main_arg8 (by decide)
    _ = _ := arg8_at8 m ρ c
theorem row1_at10 (c : Dev nD) : W10 m ρ c (Proc.devRef .tc main_v88) = shapeCast S1x128 (m ((c : Thread nD τ).loc main_arg8)) Cert.KernelIdeal.Facts₀.shapeCasts_S128_S1x128 := by
  have hb := arg8_at9 m ρ c
  show StableHlo.after hostOps5 (W9 m ρ c) (Proc.devRef .tc main_v88) = _
  generalize W9 m ρ c = V at hb ⊢
  after_results
  rw [hb]
  rfl
theorem arg6_at11 (c : Dev nD) : W11 m ρ c (Proc.devRef .tc main_arg6) = (m ((c : Thread nD τ).loc main_arg6)) :=
  calc W11 m ρ c (Proc.devRef .tc main_arg6)
    _ = W10 m ρ c (Proc.devRef .tc main_arg6) := W11_of_ne m ρ c main_arg6 (by decide)
    _ = W9 m ρ c (Proc.devRef .tc main_arg6) := by
      show StableHlo.after hostOps5 (W9 m ρ c) (Proc.devRef .tc main_arg6) = _
      unwritten hostOps5
    _ = W8 m ρ c (Proc.devRef .tc main_arg6) := W9_of_ne m ρ c main_arg6 (by decide)
    _ = _ := arg6_at8 m ρ c
theorem row2_at12 (c : Dev nD) : W12 m ρ c (Proc.devRef .tc main_v90) = shapeCast S1x128 (m ((c : Thread nD τ).loc main_arg6)) Cert.KernelIdeal.Facts₀.shapeCasts_S128_S1x128 := by
  have hb := arg6_at11 m ρ c
  show StableHlo.after hostOps6 (W11 m ρ c) (Proc.devRef .tc main_v90) = _
  generalize W11 m ρ c = V at hb ⊢
  after_results
  rw [hb]
  rfl
theorem arg8_at13 (c : Dev nD) : W13 m ρ c (Proc.devRef .tc main_arg8) = (m ((c : Thread nD τ).loc main_arg8)) :=
  calc W13 m ρ c (Proc.devRef .tc main_arg8)
    _ = W12 m ρ c (Proc.devRef .tc main_arg8) := W13_of_ne m ρ c main_arg8 (by decide)
    _ = W11 m ρ c (Proc.devRef .tc main_arg8) := by
      show StableHlo.after hostOps6 (W11 m ρ c) (Proc.devRef .tc main_arg8) = _
      unwritten hostOps6
    _ = W10 m ρ c (Proc.devRef .tc main_arg8) := W11_of_ne m ρ c main_arg8 (by decide)
    _ = W9 m ρ c (Proc.devRef .tc main_arg8) := by
      show StableHlo.after hostOps5 (W9 m ρ c) (Proc.devRef .tc main_arg8) = _
      unwritten hostOps5
    _ = _ := arg8_at9 m ρ c
theorem row3_at14 (c : Dev nD) : W14 m ρ c (Proc.devRef .tc main_v92) = shapeCast S1x128 (m ((c : Thread nD τ).loc main_arg8)) Cert.KernelIdeal.Facts₀.shapeCasts_S128_S1x128 := by
  have hb := arg8_at13 m ρ c
  show StableHlo.after hostOps7 (W13 m ρ c) (Proc.devRef .tc main_v92) = _
  generalize W13 m ρ c = V at hb ⊢
  after_results
  rw [hb]
  rfl

/-! ## The aggregated rows each bias call is entered with -/

theorem aggregate1_at10 (c : Dev nD) : W10 m ρ c (Proc.devRef .tc main_v59) = Cert.ReferenceIdeal.Stages.aggregate (linear (m ((c : Thread nD τ).loc main_arg1)) (m ((c : Thread nD τ).loc main_arg7))) (m ((c : Thread nD τ).loc main_arg4)) :=
  calc W10 m ρ c (Proc.devRef .tc main_v59)
    _ = W9 m ρ c (Proc.devRef .tc main_v59) := by
      show StableHlo.after hostOps5 (W9 m ρ c) (Proc.devRef .tc main_v59) = _
      unwritten hostOps5
    _ = W8 m ρ c (Proc.devRef .tc main_v59) := W9_of_ne m ρ c main_v59 (by decide)
    _ = _ := aggregate1_at8 m ρ c
theorem aggregate2_at12 (c : Dev nD) : W12 m ρ c (Proc.devRef .tc main_v72) = Cert.ReferenceIdeal.Stages.aggregate (linear (m ((c : Thread nD τ).loc main_arg2)) (m ((c : Thread nD τ).loc main_arg5))) (m ((c : Thread nD τ).loc main_arg4)) :=
  calc W12 m ρ c (Proc.devRef .tc main_v72)
    _ = W11 m ρ c (Proc.devRef .tc main_v72) := by
      show StableHlo.after hostOps6 (W11 m ρ c) (Proc.devRef .tc main_v72) = _
      unwritten hostOps6
    _ = W10 m ρ c (Proc.devRef .tc main_v72) := W11_of_ne m ρ c main_v72 (by decide)
    _ = W9 m ρ c (Proc.devRef .tc main_v72) := by
      show StableHlo.after hostOps5 (W9 m ρ c) (Proc.devRef .tc main_v72) = _
      unwritten hostOps5
    _ = W8 m ρ c (Proc.devRef .tc main_v72) := W9_of_ne m ρ c main_v72 (by decide)
    _ = _ := aggregate2_at8 m ρ c
theorem aggregate3_at14 (c : Dev nD) : W14 m ρ c (Proc.devRef .tc main_v85) = Cert.ReferenceIdeal.Stages.aggregate (linear (m ((c : Thread nD τ).loc main_arg3)) (m ((c : Thread nD τ).loc main_arg7))) (m ((c : Thread nD τ).loc main_arg4)) :=
  calc W14 m ρ c (Proc.devRef .tc main_v85)
    _ = W13 m ρ c (Proc.devRef .tc main_v85) := by
      show StableHlo.after hostOps7 (W13 m ρ c) (Proc.devRef .tc main_v85) = _
      unwritten hostOps7
    _ = W12 m ρ c (Proc.devRef .tc main_v85) := W13_of_ne m ρ c main_v85 (by decide)
    _ = W11 m ρ c (Proc.devRef .tc main_v85) := by
      show StableHlo.after hostOps6 (W11 m ρ c) (Proc.devRef .tc main_v85) = _
      unwritten hostOps6
    _ = W10 m ρ c (Proc.devRef .tc main_v85) := W11_of_ne m ρ c main_v85 (by decide)
    _ = W9 m ρ c (Proc.devRef .tc main_v85) := by
      show StableHlo.after hostOps5 (W9 m ρ c) (Proc.devRef .tc main_v85) = _
      unwritten hostOps5
    _ = W8 m ρ c (Proc.devRef .tc main_v85) := W9_of_ne m ρ c main_v85 (by decide)
    _ = _ := aggregate3_at8 m ρ c

/-! ## The four results at the end of the run -/

theorem result0 (c : Dev nD) : W15 m ρ c (Proc.devRef .tc main_v87) = plusBiasRow (Cert.ReferenceIdeal.Stages.aggregate (linear (m ((c : Thread nD τ).loc main_arg0)) (m ((c : Thread nD τ).loc main_arg5))) (m ((c : Thread nD τ).loc main_arg4))) (shapeCast S1x128 (m ((c : Thread nD τ).loc main_arg6)) Cert.KernelIdeal.Facts₀.shapeCasts_S128_S1x128) :=
  calc W15 m ρ c (Proc.devRef .tc main_v87)
    _ = W14 m ρ c (Proc.devRef .tc main_v87) := W15_of_ne m ρ c main_v87 (by decide)
    _ = W13 m ρ c (Proc.devRef .tc main_v87) := by
      show StableHlo.after hostOps7 (W13 m ρ c) (Proc.devRef .tc main_v87) = _
      unwritten hostOps7
    _ = W12 m ρ c (Proc.devRef .tc main_v87) := W13_of_ne m ρ c main_v87 (by decide)
    _ = W11 m ρ c (Proc.devRef .tc main_v87) := by
      show StableHlo.after hostOps6 (W11 m ρ c) (Proc.devRef .tc main_v87) = _
      unwritten hostOps6
    _ = W10 m ρ c (Proc.devRef .tc main_v87) := W11_of_ne m ρ c main_v87 (by decide)
    _ = W9 m ρ c (Proc.devRef .tc main_v87) := by
      show StableHlo.after hostOps5 (W9 m ρ c) (Proc.devRef .tc main_v87) = _
      unwritten hostOps5
    _ = (dat4 (F := Ideal) (V8 m ρ) c).arrAt 2 cfg4.N := W9_arr m ρ c 2
    _ = plusBiasRow (V8 m ρ c main_v46) (V8 m ρ c main_v86) := Bias4.result (V8 m ρ) c
    _ = _ := congrArg₂ plusBiasRow (aggregate0_at8 m ρ c) (row0_at8 m ρ c)
theorem result1 (c : Dev nD) : W15 m ρ c (Proc.devRef .tc main_v89) = plusBiasRow (Cert.ReferenceIdeal.Stages.aggregate (linear (m ((c : Thread nD τ).loc main_arg1)) (m ((c : Thread nD τ).loc main_arg7))) (m ((c : Thread nD τ).loc main_arg4))) (shapeCast S1x128 (m ((c : Thread nD τ).loc main_arg8)) Cert.KernelIdeal.Facts₀.shapeCasts_S128_S1x128) :=
  calc W15 m ρ c (Proc.devRef .tc main_v89)
    _ = W14 m ρ c (Proc.devRef .tc main_v89) := W15_of_ne m ρ c main_v89 (by decide)
    _ = W13 m ρ c (Proc.devRef .tc main_v89) := by
      show StableHlo.after hostOps7 (W13 m ρ c) (Proc.devRef .tc main_v89) = _
      unwritten hostOps7
    _ = W12 m ρ c (Proc.devRef .tc main_v89) := W13_of_ne m ρ c main_v89 (by decide)
    _ = W11 m ρ c (Proc.devRef .tc main_v89) := by
      show StableHlo.after hostOps6 (W11 m ρ c) (Proc.devRef .tc main_v89) = _
      unwritten hostOps6
    _ = (dat5 (F := Ideal) (V10 m ρ) c).arrAt 2 cfg5.N := W11_arr m ρ c 2
    _ = plusBiasRow (V10 m ρ c main_v59) (V10 m ρ c main_v88) := Bias5.result (V10 m ρ) c
    _ = _ := congrArg₂ plusBiasRow (aggregate1_at10 m ρ c) (row1_at10 m ρ c)
theorem result2 (c : Dev nD) : W15 m ρ c (Proc.devRef .tc main_v91) = plusBiasRow (Cert.ReferenceIdeal.Stages.aggregate (linear (m ((c : Thread nD τ).loc main_arg2)) (m ((c : Thread nD τ).loc main_arg5))) (m ((c : Thread nD τ).loc main_arg4))) (shapeCast S1x128 (m ((c : Thread nD τ).loc main_arg6)) Cert.KernelIdeal.Facts₀.shapeCasts_S128_S1x128) :=
  calc W15 m ρ c (Proc.devRef .tc main_v91)
    _ = W14 m ρ c (Proc.devRef .tc main_v91) := W15_of_ne m ρ c main_v91 (by decide)
    _ = W13 m ρ c (Proc.devRef .tc main_v91) := by
      show StableHlo.after hostOps7 (W13 m ρ c) (Proc.devRef .tc main_v91) = _
      unwritten hostOps7
    _ = (dat6 (F := Ideal) (V12 m ρ) c).arrAt 2 cfg6.N := W13_arr m ρ c 2
    _ = plusBiasRow (V12 m ρ c main_v72) (V12 m ρ c main_v90) := Bias6.result (V12 m ρ) c
    _ = _ := congrArg₂ plusBiasRow (aggregate2_at12 m ρ c) (row2_at12 m ρ c)
theorem result3 (c : Dev nD) : W15 m ρ c (Proc.devRef .tc main_v93) = plusBiasRow (Cert.ReferenceIdeal.Stages.aggregate (linear (m ((c : Thread nD τ).loc main_arg3)) (m ((c : Thread nD τ).loc main_arg7))) (m ((c : Thread nD τ).loc main_arg4))) (shapeCast S1x128 (m ((c : Thread nD τ).loc main_arg8)) Cert.KernelIdeal.Facts₀.shapeCasts_S128_S1x128) :=
  calc W15 m ρ c (Proc.devRef .tc main_v93)
    _ = (dat7 (F := Ideal) (V14 m ρ) c).arrAt 2 cfg7.N := W15_arr m ρ c 2
    _ = plusBiasRow (V14 m ρ c main_v85) (V14 m ρ c main_v92) := Bias7.result (V14 m ρ) c
    _ = _ := congrArg₂ plusBiasRow (aggregate3_at14 m ρ c) (row3_at14 m ρ c)

end Cert.KernelIdeal.KernelValue

end
-- ==== Proof.ReferenceRun.lean ====
/-
  The reference program as a line of host operations, and its run.

  The reference has no pallas call: its entry function is 223 whole-array operations in sequence (the outlined select
  that guards rsqrt of the degree stands in its call's place). So every weakly fair execution is that sequence, and
  each buffer ends at the value the operations before it compute from the launch memory. The line is cut here where
  the program's own structure cuts it: seven operations that build the sources and destinations of the edges with a
  self-loop per node appended, then one graph convolution of 54 operations for each of the four feature arrays. A
  convolution writes none of the buffers of the others, which is how each result is later read through the line one
  piece at a time.
-/
import proofs.«159419_j31293131719204_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The whole line, in program order. -/
abbrev ops : List (HloOp τ sig (Elt F)) :=
  [ nullary main_v0 (iotaInDim S50000 32 0),
    unary main_arg4 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg4 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg5 main_v7 ((transpose S128x128 [1, 0] · transposes_S128x128_S128x128_1_0) : (⟨S128x128, .f32⟩ : BufTy).Contents (Elt F) → (⟨S128x128, .f32⟩ : BufTy).Contents (Elt F)),
    binary main_arg0 main_v7 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v9 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v10 (broadcastInDim S50000 ![] bcast_S_S50000 : (⟨S_, .f32⟩ : BufTy).Contents (Elt F) → (⟨S50000, .f32⟩ : BufTy).Contents (Elt F)),
    unary main_v6 main_v11 (broadcastInDim S850000x1 ![0] bcast_S850000_S850000x1_0 : (⟨S850000, .i32⟩ : BufTy).Contents (Elt F) → (⟨S850000x1, .i32⟩ : BufTy).Contents (Elt F)),
    ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v13 (broadcastInDim S50000 ![] bcast_S_S50000 : (⟨S_, .f32⟩ : BufTy).Contents (Elt F) → (⟨S50000, .f32⟩ : BufTy).Contents (Elt F)),
    binary main_v12 main_v13 main_v14 (cmpf .ogt : (⟨S50000, .f32⟩ : BufTy).Contents (Elt F) → (⟨S50000, .f32⟩ : BufTy).Contents (Elt F) → (⟨S50000, .i1⟩ : BufTy).Contents (Elt F)),
    unary main_v12 main_v15 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v14) (TRef.of (T := ⟨S50000, .f32⟩) main_v15) (TRef.of (T := ⟨S50000, .f32⟩) main_call0_v1) (TRef.of (T := ⟨S50000, .f32⟩) main_v16) select,
    nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v3 main_v17 main_v18 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v19 (broadcastInDim S850000 ![] bcast_S_S850000 : (⟨S_, .i32⟩ : BufTy).Contents (Elt F) → (⟨S850000, .i32⟩ : BufTy).Contents (Elt F)),
    binary main_v3 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v8 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x128 ![0, 1] bcast_S850000x1_S850000x128_0_1 : (⟨S850000x1, .f32⟩ : BufTy).Contents (Elt F) → (⟨S850000x128, .f32⟩ : BufTy).Contents (Elt F)),
    binary main_v38 main_v40 main_v41 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v42 (broadcastInDim S50000x128 ![] bcast_S_S50000x128 : (⟨S_, .f32⟩ : BufTy).Contents (Elt F) → (⟨S50000x128, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    unary main_arg7 main_v48 ((transpose S128x128 [1, 0] · transposes_S128x128_S128x128_1_0) : (⟨S128x128, .f32⟩ : BufTy).Contents (Elt F) → (⟨S128x128, .f32⟩ : BufTy).Contents (Elt F)),
    binary main_arg1 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_9 (constant S_ .f32 0x3F800000#32),
    unary main_cst_9 main_v50 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v51 (broadcastInDim S50000 ![] bcast_S_S50000 : (⟨S_, .f32⟩ : BufTy).Contents (Elt F) → (⟨S50000, .f32⟩ : BufTy).Contents (Elt F)),
    unary main_v6 main_v52 (broadcastInDim S850000x1 ![0] bcast_S850000_S850000x1_0 : (⟨S850000, .i32⟩ : BufTy).Contents (Elt F) → (⟨S850000x1, .i32⟩ : BufTy).Contents (Elt F)),
    ternary main_v51 main_v52 main_v50 main_v53 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v54 (broadcastInDim S50000 ![] bcast_S_S50000 : (⟨S_, .f32⟩ : BufTy).Contents (Elt F) → (⟨S50000, .f32⟩ : BufTy).Contents (Elt F)),
    binary main_v53 main_v54 main_v55 (cmpf .ogt : (⟨S50000, .f32⟩ : BufTy).Contents (Elt F) → (⟨S50000, .f32⟩ : BufTy).Contents (Elt F) → (⟨S50000, .i1⟩ : BufTy).Contents (Elt F)),
    unary main_v53 main_v56 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v55) (TRef.of (T := ⟨S50000, .f32⟩) main_v56) (TRef.of (T := ⟨S50000, .f32⟩) main_call1_v1) (TRef.of (T := ⟨S50000, .f32⟩) main_v57) select,
    nullary main_c_13 (constantI S_ 32 0#32),
    unary main_c_13 main_v58 (broadcastInDim S850000 ![] bcast_S_S850000 : (⟨S_, .i32⟩ : BufTy).Contents (Elt F) → (⟨S850000, .i32⟩ : BufTy).Contents (Elt F)),
    binary main_v3 main_v58 main_v59 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v60 (broadcastInDim S850000 ![] bcast_S_S850000 : (⟨S_, .i32⟩ : BufTy).Contents (Elt F) → (⟨S850000, .i32⟩ : BufTy).Contents (Elt F)),
    binary main_v3 main_v60 main_v61 (addi : (⟨S850000, .i32⟩ : BufTy).Contents (Elt F) → (⟨S850000, .i32⟩ : BufTy).Contents (Elt F) → (⟨S850000, .i32⟩ : BufTy).Contents (Elt F)),
    ternary main_v59 main_v61 main_v3 main_v62 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v62 main_v63 (broadcastInDim S850000x1 ![0] bcast_S850000_S850000x1_0 : (⟨S850000, .i32⟩ : BufTy).Contents (Elt F) → (⟨S850000x1, .i32⟩ : BufTy).Contents (Elt F)),
    binary main_v57 main_v63 main_v64 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v65 (broadcastInDim S850000 ![] bcast_S_S850000 : (⟨S_, .i32⟩ : BufTy).Contents (Elt F) → (⟨S850000, .i32⟩ : BufTy).Contents (Elt F)),
    binary main_v6 main_v65 main_v66 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v67 (broadcastInDim S850000 ![] bcast_S_S850000 : (⟨S_, .i32⟩ : BufTy).Contents (Elt F) → (⟨S850000, .i32⟩ : BufTy).Contents (Elt F)),
    binary main_v6 main_v67 main_v68 (addi : (⟨S850000, .i32⟩ : BufTy).Contents (Elt F) → (⟨S850000, .i32⟩ : BufTy).Contents (Elt F) → (⟨S850000, .i32⟩ : BufTy).Contents (Elt F)),
    ternary main_v66 main_v68 main_v6 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v69 main_v70 (broadcastInDim S850000x1 ![0] bcast_S850000_S850000x1_0 : (⟨S850000, .i32⟩ : BufTy).Contents (Elt F) → (⟨S850000x1, .i32⟩ : BufTy).Contents (Elt F)),
    binary main_v57 main_v70 main_v71 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v64 main_v71 main_v72 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v73 (broadcastInDim S850000 ![] bcast_S_S850000 : (⟨S_, .i32⟩ : BufTy).Contents (Elt F) → (⟨S850000, .i32⟩ : BufTy).Contents (Elt F)),
    binary main_v3 main_v73 main_v74 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v75 (broadcastInDim S850000 ![] bcast_S_S850000 : (⟨S_, .i32⟩ : BufTy).Contents (Elt F) → (⟨S850000, .i32⟩ : BufTy).Contents (Elt F)),
    binary main_v3 main_v75 main_v76 (addi : (⟨S850000, .i32⟩ : BufTy).Contents (Elt F) → (⟨S850000, .i32⟩ : BufTy).Contents (Elt F) → (⟨S850000, .i32⟩ : BufTy).Contents (Elt F)),
    ternary main_v74 main_v76 main_v3 main_v77 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v77 main_v78 (broadcastInDim S850000x1 ![0] bcast_S850000_S850000x1_0 : (⟨S850000, .i32⟩ : BufTy).Contents (Elt F) → (⟨S850000x1, .i32⟩ : BufTy).Contents (Elt F)),
    binary main_v49 main_v78 main_v79 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v72 main_v80 (broadcastInDim S850000x1 ![0] bcast_S850000_S850000x1_0 : (⟨S850000, .f32⟩ : BufTy).Contents (Elt F) → (⟨S850000x1, .f32⟩ : BufTy).Contents (Elt F)),
    unary main_v80 main_v81 (broadcastInDim S850000x128 ![0, 1] bcast_S850000x1_S850000x128_0_1 : (⟨S850000x1, .f32⟩ : BufTy).Contents (Elt F) → (⟨S850000x128, .f32⟩ : BufTy).Contents (Elt F)),
    binary main_v79 main_v81 main_v82 (mulf : (⟨S850000x128, .f32⟩ : BufTy).Contents (Elt F) → (⟨S850000x128, .f32⟩ : BufTy).Contents (Elt F) → (⟨S850000x128, .f32⟩ : BufTy).Contents (Elt F)),
    nullary main_cst_19 (constant S_ .f32 0x00000000#32),
    unary main_cst_19 main_v83 (broadcastInDim S50000x128 ![] bcast_S_S50000x128 : (⟨S_, .f32⟩ : BufTy).Contents (Elt F) → (⟨S50000x128, .f32⟩ : BufTy).Contents (Elt F)),
    unary main_v6 main_v84 (broadcastInDim S850000x1 ![0] bcast_S850000_S850000x1_0 : (⟨S850000, .i32⟩ : BufTy).Contents (Elt F) → (⟨S850000x1, .i32⟩ : BufTy).Contents (Elt F)),
    ternary main_v83 main_v84 main_v82 main_v85 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg8 main_v86 (broadcastInDim S1x128 ![1] bcast_S128_S1x128_1 : (⟨S128, .f32⟩ : BufTy).Contents (Elt F) → (⟨S1x128, .f32⟩ : BufTy).Contents (Elt F)),
    unary main_v86 main_v87 (broadcastInDim S50000x128 ![0, 1] bcast_S1x128_S50000x128_0_1 : (⟨S1x128, .f32⟩ : BufTy).Contents (Elt F) → (⟨S50000x128, .f32⟩ : BufTy).Contents (Elt F)),
    binary main_v85 main_v87 main_v88 (addf : (⟨S50000x128, .f32⟩ : BufTy).Contents (Elt F) → (⟨S50000x128, .f32⟩ : BufTy).Contents (Elt F) → (⟨S50000x128, .f32⟩ : BufTy).Contents (Elt F)),
    unary main_arg5 main_v89 ((transpose S128x128 [1, 0] · transposes_S128x128_S128x128_1_0) : (⟨S128x128, .f32⟩ : BufTy).Contents (Elt F) → (⟨S128x128, .f32⟩ : BufTy).Contents (Elt F)),
    binary main_arg2 main_v89 main_v90 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_20 (constant S_ .f32 0x3F800000#32),
    unary main_cst_20 main_v91 (broadcastInDim S850000 ![] bcast_S_S850000 : (⟨S_, .f32⟩ : BufTy).Contents (Elt F) → (⟨S850000, .f32⟩ : BufTy).Contents (Elt F)),
    nullary main_cst_21 (constant S_ .f32 0x00000000#32),
    unary main_cst_21 main_v92 (broadcastInDim S50000 ![] bcast_S_S50000 : (⟨S_, .f32⟩ : BufTy).Contents (Elt F) → (⟨S50000, .f32⟩ : BufTy).Contents (Elt F)),
    unary main_v6 main_v93 (broadcastInDim S850000x1 ![0] bcast_S850000_S850000x1_0 : (⟨S850000, .i32⟩ : BufTy).Contents (Elt F) → (⟨S850000x1, .i32⟩ : BufTy).Contents (Elt F)),
    ternary main_v92 main_v93 main_v91 main_v94 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_22 (constant S_ .f32 0x00000000#32),
    unary main_cst_22 main_v95 (broadcastInDim S50000 ![] bcast_S_S50000 : (⟨S_, .f32⟩ : BufTy).Contents (Elt F) → (⟨S50000, .f32⟩ : BufTy).Contents (Elt F)),
    binary main_v94 main_v95 main_v96 (cmpf .ogt : (⟨S50000, .f32⟩ : BufTy).Contents (Elt F) → (⟨S50000, .f32⟩ : BufTy).Contents (Elt F) → (⟨S50000, .i1⟩ : BufTy).Contents (Elt F)),
    unary main_v94 main_v97 (Host.rsqrt : (⟨S50000, .f32⟩ : BufTy).Contents (Elt F) → (⟨S50000, .f32⟩ : BufTy).Contents (Elt F)),
    nullary main_cst_23 (constant S_ .f32 0x00000000#32),
    TRef.unary (TRef.of (T := ⟨S_, .f32⟩) main_cst_23) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v96) (TRef.of (T := ⟨S50000, .f32⟩) main_v97) (TRef.of (T := ⟨S50000, .f32⟩) main_call2_v1) (TRef.of (T := ⟨S50000, .f32⟩) main_v98) select,
    nullary main_c_24 (constantI S_ 32 0#32),
    unary main_c_24 main_v99 (broadcastInDim S850000 ![] bcast_S_S850000 : (⟨S_, .i32⟩ : BufTy).Contents (Elt F) → (⟨S850000, .i32⟩ : BufTy).Contents (Elt F)),
    binary main_v3 main_v99 main_v100 (cmpi .slt : (⟨S850000, .i32⟩ : BufTy).Contents (Elt F) → (⟨S850000, .i32⟩ : BufTy).Contents (Elt F) → (⟨S850000, .i1⟩ : BufTy).Contents (Elt F)),
    nullary main_c_25 (constantI S_ 32 50000#32),
    unary main_c_25 main_v101 (broadcastInDim S850000 ![] bcast_S_S850000 : (⟨S_, .i32⟩ : BufTy).Contents (Elt F) → (⟨S850000, .i32⟩ : BufTy).Contents (Elt F)),
    binary main_v3 main_v101 main_v102 (addi : (⟨S850000, .i32⟩ : BufTy).Contents (Elt F) → (⟨S850000, .i32⟩ : BufTy).Contents (Elt F) → (⟨S850000, .i32⟩ : BufTy).Contents (Elt F)),
    ternary main_v100 main_v102 main_v3 main_v103 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v103 main_v104 (broadcastInDim S850000x1 ![0] bcast_S850000_S850000x1_0 : (⟨S850000, .i32⟩ : BufTy).Contents (Elt F) → (⟨S850000x1, .i32⟩ : BufTy).Contents (Elt F)),
    binary main_v98 main_v104 main_v105 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_26 (constantI S_ 32 0#32),
    unary main_c_26 main_v106 (broadcastInDim S850000 ![] bcast_S_S850000 : (⟨S_, .i32⟩ : BufTy).Contents (Elt F) → (⟨S850000, .i32⟩ : BufTy).Contents (Elt F)),
    binary main_v6 main_v106 main_v107 (cmpi .slt : (⟨S850000, .i32⟩ : BufTy).Contents (Elt F) → (⟨S850000, .i32⟩ : BufTy).Contents (Elt F) → (⟨S850000, .i1⟩ : BufTy).Contents (Elt F)),
    nullary main_c_27 (constantI S_ 32 50000#32),
    unary main_c_27 main_v108 (broadcastInDim S850000 ![] bcast_S_S850000 : (⟨S_, .i32⟩ : BufTy).Contents (Elt F) → (⟨S850000, .i32⟩ : BufTy).Contents (Elt F)),
    binary main_v6 main_v108 main_v109 (addi : (⟨S850000, .i32⟩ : BufTy).Contents (Elt F) → (⟨S850000, .i32⟩ : BufTy).Contents (Elt F) → (⟨S850000, .i32⟩ : BufTy).Contents (Elt F)),
    ternary main_v107 main_v109 main_v6 main_v110 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v110 main_v111 (broadcastInDim S850000x1 ![0] bcast_S850000_S850000x1_0 : (⟨S850000, .i32⟩ : BufTy).Contents (Elt F) → (⟨S850000x1, .i32⟩ : BufTy).Contents (Elt F)),
    binary main_v98 main_v111 main_v112 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v105 main_v112 main_v113 (mulf : (⟨S850000, .f32⟩ : BufTy).Contents (Elt F) → (⟨S850000, .f32⟩ : BufTy).Contents (Elt F) → (⟨S850000, .f32⟩ : BufTy).Contents (Elt F)),
    nullary main_c_28 (constantI S_ 32 0#32),
    unary main_c_28 main_v114 (broadcastInDim S850000 ![] bcast_S_S850000 : (⟨S_, .i32⟩ : BufTy).Contents (Elt F) → (⟨S850000, .i32⟩ : BufTy).Contents (Elt F)),
    binary main_v3 main_v114 main_v115 (cmpi .slt : (⟨S850000, .i32⟩ : BufTy).Contents (Elt F) → (⟨S850000, .i32⟩ : BufTy).Contents (Elt F) → (⟨S850000, .i1⟩ : BufTy).Contents (Elt F)),
    nullary main_c_29 (constantI S_ 32 50000#32),
    unary main_c_29 main_v116 (broadcastInDim S850000 ![] bcast_S_S850000 : (⟨S_, .i32⟩ : BufTy).Contents (Elt F) → (⟨S850000, .i32⟩ : BufTy).Contents (Elt F)),
    binary main_v3 main_v116 main_v117 (addi : (⟨S850000, .i32⟩ : BufTy).Contents (Elt F) → (⟨S850000, .i32⟩ : BufTy).Contents (Elt F) → (⟨S850000, .i32⟩ : BufTy).Contents (Elt F)),
    ternary main_v115 main_v117 main_v3 main_v118 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v118 main_v119 (broadcastInDim S850000x1 ![0] bcast_S850000_S850000x1_0 : (⟨S850000, .i32⟩ : BufTy).Contents (Elt F) → (⟨S850000x1, .i32⟩ : BufTy).Contents (Elt F)),
    binary main_v90 main_v119 main_v120 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v113 main_v121 (broadcastInDim S850000x1 ![0] bcast_S850000_S850000x1_0 : (⟨S850000, .f32⟩ : BufTy).Contents (Elt F) → (⟨S850000x1, .f32⟩ : BufTy).Contents (Elt F)),
    unary main_v121 main_v122 (broadcastInDim S850000x128 ![0, 1] bcast_S850000x1_S850000x128_0_1 : (⟨S850000x1, .f32⟩ : BufTy).Contents (Elt F) → (⟨S850000x128, .f32⟩ : BufTy).Contents (Elt F)),
    binary main_v120 main_v122 main_v123 (mulf : (⟨S850000x128, .f32⟩ : BufTy).Contents (Elt F) → (⟨S850000x128, .f32⟩ : BufTy).Contents (Elt F) → (⟨S850000x128, .f32⟩ : BufTy).Contents (Elt F)),
    nullary main_cst_30 (constant S_ .f32 0x00000000#32),
    unary main_cst_30 main_v124 (broadcastInDim S50000x128 ![] bcast_S_S50000x128 : (⟨S_, .f32⟩ : BufTy).Contents (Elt F) → (⟨S50000x128, .f32⟩ : BufTy).Contents (Elt F)),
    unary main_v6 main_v125 (broadcastInDim S850000x1 ![0] bcast_S850000_S850000x1_0 : (⟨S850000, .i32⟩ : BufTy).Contents (Elt F) → (⟨S850000x1, .i32⟩ : BufTy).Contents (Elt F)),
    ternary main_v124 main_v125 main_v123 main_v126 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v127 (broadcastInDim S1x128 ![1] bcast_S128_S1x128_1 : (⟨S128, .f32⟩ : BufTy).Contents (Elt F) → (⟨S1x128, .f32⟩ : BufTy).Contents (Elt F)),
    unary main_v127 main_v128 (broadcastInDim S50000x128 ![0, 1] bcast_S1x128_S50000x128_0_1 : (⟨S1x128, .f32⟩ : BufTy).Contents (Elt F) → (⟨S50000x128, .f32⟩ : BufTy).Contents (Elt F)),
    binary main_v126 main_v128 main_v129 (addf : (⟨S50000x128, .f32⟩ : BufTy).Contents (Elt F) → (⟨S50000x128, .f32⟩ : BufTy).Contents (Elt F) → (⟨S50000x128, .f32⟩ : BufTy).Contents (Elt F)),
    unary main_arg7 main_v130 ((transpose S128x128 [1, 0] · transposes_S128x128_S128x128_1_0) : (⟨S128x128, .f32⟩ : BufTy).Contents (Elt F) → (⟨S128x128, .f32⟩ : BufTy).Contents (Elt F)),
    binary main_arg3 main_v130 main_v131 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_31 (constant S_ .f32 0x3F800000#32),
    unary main_cst_31 main_v132 (broadcastInDim S850000 ![] bcast_S_S850000 : (⟨S_, .f32⟩ : BufTy).Contents (Elt F) → (⟨S850000, .f32⟩ : BufTy).Contents (Elt F)),
    nullary main_cst_32 (constant S_ .f32 0x00000000#32),
    unary main_cst_32 main_v133 (broadcastInDim S50000 ![] bcast_S_S50000 : (⟨S_, .f32⟩ : BufTy).Contents (Elt F) → (⟨S50000, .f32⟩ : BufTy).Contents (Elt F)),
    unary main_v6 main_v134 (broadcastInDim S850000x1 ![0] bcast_S850000_S850000x1_0 : (⟨S850000, .i32⟩ : BufTy).Contents (Elt F) → (⟨S850000x1, .i32⟩ : BufTy).Contents (Elt F)),
    ternary main_v133 main_v134 main_v132 main_v135 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_33 (constant S_ .f32 0x00000000#32),
    unary main_cst_33 main_v136 (broadcastInDim S50000 ![] bcast_S_S50000 : (⟨S_, .f32⟩ : BufTy).Contents (Elt F) → (⟨S50000, .f32⟩ : BufTy).Contents (Elt F)),
    binary main_v135 main_v136 main_v137 (cmpf .ogt : (⟨S50000, .f32⟩ : BufTy).Contents (Elt F) → (⟨S50000, .f32⟩ : BufTy).Contents (Elt F) → (⟨S50000, .i1⟩ : BufTy).Contents (Elt F)),
    unary main_v135 main_v138 (Host.rsqrt : (⟨S50000, .f32⟩ : BufTy).Contents (Elt F) → (⟨S50000, .f32⟩ : BufTy).Contents (Elt F)),
    nullary main_cst_34 (constant S_ .f32 0x00000000#32),
    TRef.unary (TRef.of (T := ⟨S_, .f32⟩) main_cst_34) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v137) (TRef.of (T := ⟨S50000, .f32⟩) main_v138) (TRef.of (T := ⟨S50000, .f32⟩) main_call3_v1) (TRef.of (T := ⟨S50000, .f32⟩) main_v139) select,
    nullary main_c_35 (constantI S_ 32 0#32),
    unary main_c_35 main_v140 (broadcastInDim S850000 ![] bcast_S_S850000 : (⟨S_, .i32⟩ : BufTy).Contents (Elt F) → (⟨S850000, .i32⟩ : BufTy).Contents (Elt F)),
    binary main_v3 main_v140 main_v141 (cmpi .slt : (⟨S850000, .i32⟩ : BufTy).Contents (Elt F) → (⟨S850000, .i32⟩ : BufTy).Contents (Elt F) → (⟨S850000, .i1⟩ : BufTy).Contents (Elt F)),
    nullary main_c_36 (constantI S_ 32 50000#32),
    unary main_c_36 main_v142 (broadcastInDim S850000 ![] bcast_S_S850000 : (⟨S_, .i32⟩ : BufTy).Contents (Elt F) → (⟨S850000, .i32⟩ : BufTy).Contents (Elt F)),
    binary main_v3 main_v142 main_v143 (addi : (⟨S850000, .i32⟩ : BufTy).Contents (Elt F) → (⟨S850000, .i32⟩ : BufTy).Contents (Elt F) → (⟨S850000, .i32⟩ : BufTy).Contents (Elt F)),
    ternary main_v141 main_v143 main_v3 main_v144 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v144 main_v145 (broadcastInDim S850000x1 ![0] bcast_S850000_S850000x1_0 : (⟨S850000, .i32⟩ : BufTy).Contents (Elt F) → (⟨S850000x1, .i32⟩ : BufTy).Contents (Elt F)),
    binary main_v139 main_v145 main_v146 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_37 (constantI S_ 32 0#32),
    unary main_c_37 main_v147 (broadcastInDim S850000 ![] bcast_S_S850000 : (⟨S_, .i32⟩ : BufTy).Contents (Elt F) → (⟨S850000, .i32⟩ : BufTy).Contents (Elt F)),
    binary main_v6 main_v147 main_v148 (cmpi .slt : (⟨S850000, .i32⟩ : BufTy).Contents (Elt F) → (⟨S850000, .i32⟩ : BufTy).Contents (Elt F) → (⟨S850000, .i1⟩ : BufTy).Contents (Elt F)),
    nullary main_c_38 (constantI S_ 32 50000#32),
    unary main_c_38 main_v149 (broadcastInDim S850000 ![] bcast_S_S850000 : (⟨S_, .i32⟩ : BufTy).Contents (Elt F) → (⟨S850000, .i32⟩ : BufTy).Contents (Elt F)),
    binary main_v6 main_v149 main_v150 (addi : (⟨S850000, .i32⟩ : BufTy).Contents (Elt F) → (⟨S850000, .i32⟩ : BufTy).Contents (Elt F) → (⟨S850000, .i32⟩ : BufTy).Contents (Elt F)),
    ternary main_v148 main_v150 main_v6 main_v151 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v151 main_v152 (broadcastInDim S850000x1 ![0] bcast_S850000_S850000x1_0 : (⟨S850000, .i32⟩ : BufTy).Contents (Elt F) → (⟨S850000x1, .i32⟩ : BufTy).Contents (Elt F)),
    binary main_v139 main_v152 main_v153 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v146 main_v153 main_v154 (mulf : (⟨S850000, .f32⟩ : BufTy).Contents (Elt F) → (⟨S850000, .f32⟩ : BufTy).Contents (Elt F) → (⟨S850000, .f32⟩ : BufTy).Contents (Elt F)),
    nullary main_c_39 (constantI S_ 32 0#32),
    unary main_c_39 main_v155 (broadcastInDim S850000 ![] bcast_S_S850000 : (⟨S_, .i32⟩ : BufTy).Contents (Elt F) → (⟨S850000, .i32⟩ : BufTy).Contents (Elt F)),
    binary main_v3 main_v155 main_v156 (cmpi .slt : (⟨S850000, .i32⟩ : BufTy).Contents (Elt F) → (⟨S850000, .i32⟩ : BufTy).Contents (Elt F) → (⟨S850000, .i1⟩ : BufTy).Contents (Elt F)),
    nullary main_c_40 (constantI S_ 32 50000#32),
    unary main_c_40 main_v157 (broadcastInDim S850000 ![] bcast_S_S850000 : (⟨S_, .i32⟩ : BufTy).Contents (Elt F) → (⟨S850000, .i32⟩ : BufTy).Contents (Elt F)),
    binary main_v3 main_v157 main_v158 (addi : (⟨S850000, .i32⟩ : BufTy).Contents (Elt F) → (⟨S850000, .i32⟩ : BufTy).Contents (Elt F) → (⟨S850000, .i32⟩ : BufTy).Contents (Elt F)),
    ternary main_v156 main_v158 main_v3 main_v159 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v159 main_v160 (broadcastInDim S850000x1 ![0] bcast_S850000_S850000x1_0 : (⟨S850000, .i32⟩ : BufTy).Contents (Elt F) → (⟨S850000x1, .i32⟩ : BufTy).Contents (Elt F)),
    binary main_v131 main_v160 main_v161 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v154 main_v162 (broadcastInDim S850000x1 ![0] bcast_S850000_S850000x1_0 : (⟨S850000, .f32⟩ : BufTy).Contents (Elt F) → (⟨S850000x1, .f32⟩ : BufTy).Contents (Elt F)),
    unary main_v162 main_v163 (broadcastInDim S850000x128 ![0, 1] bcast_S850000x1_S850000x128_0_1 : (⟨S850000x1, .f32⟩ : BufTy).Contents (Elt F) → (⟨S850000x128, .f32⟩ : BufTy).Contents (Elt F)),
    binary main_v161 main_v163 main_v164 (mulf : (⟨S850000x128, .f32⟩ : BufTy).Contents (Elt F) → (⟨S850000x128, .f32⟩ : BufTy).Contents (Elt F) → (⟨S850000x128, .f32⟩ : BufTy).Contents (Elt F)),
    nullary main_cst_41 (constant S_ .f32 0x00000000#32),
    unary main_cst_41 main_v165 (broadcastInDim S50000x128 ![] bcast_S_S50000x128 : (⟨S_, .f32⟩ : BufTy).Contents (Elt F) → (⟨S50000x128, .f32⟩ : BufTy).Contents (Elt F)),
    unary main_v6 main_v166 (broadcastInDim S850000x1 ![0] bcast_S850000_S850000x1_0 : (⟨S850000, .i32⟩ : BufTy).Contents (Elt F) → (⟨S850000x1, .i32⟩ : BufTy).Contents (Elt F)),
    ternary main_v165 main_v166 main_v164 main_v167 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg8 main_v168 (broadcastInDim S1x128 ![1] bcast_S128_S1x128_1 : (⟨S128, .f32⟩ : BufTy).Contents (Elt F) → (⟨S1x128, .f32⟩ : BufTy).Contents (Elt F)),
    unary main_v168 main_v169 (broadcastInDim S50000x128 ![0, 1] bcast_S1x128_S50000x128_0_1 : (⟨S1x128, .f32⟩ : BufTy).Contents (Elt F) → (⟨S50000x128, .f32⟩ : BufTy).Contents (Elt F)),
    binary main_v167 main_v169 main_v170 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- The edge list's two rows with a self-loop per node appended: sources and destinations. -/
abbrev opsEdges : List (HloOp τ sig (Elt F)) :=
  [ nullary main_v0 (iotaInDim S50000 32 0),
    unary main_arg4 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg4 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
/-- The graph convolution of the first feature array. -/
abbrev opsConv0 : List (HloOp τ sig (Elt F)) :=
  [ unary main_arg5 main_v7 ((transpose S128x128 [1, 0] · transposes_S128x128_S128x128_1_0) : (⟨S128x128, .f32⟩ : BufTy).Contents (Elt F) → (⟨S128x128, .f32⟩ : BufTy).Contents (Elt F)),
    binary main_arg0 main_v7 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v9 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v10 (broadcastInDim S50000 ![] bcast_S_S50000 : (⟨S_, .f32⟩ : BufTy).Contents (Elt F) → (⟨S50000, .f32⟩ : BufTy).Contents (Elt F)),
    unary main_v6 main_v11 (broadcastInDim S850000x1 ![0] bcast_S850000_S850000x1_0 : (⟨S850000, .i32⟩ : BufTy).Contents (Elt F) → (⟨S850000x1, .i32⟩ : BufTy).Contents (Elt F)),
    ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v13 (broadcastInDim S50000 ![] bcast_S_S50000 : (⟨S_, .f32⟩ : BufTy).Contents (Elt F) → (⟨S50000, .f32⟩ : BufTy).Contents (Elt F)),
    binary main_v12 main_v13 main_v14 (cmpf .ogt : (⟨S50000, .f32⟩ : BufTy).Contents (Elt F) → (⟨S50000, .f32⟩ : BufTy).Contents (Elt F) → (⟨S50000, .i1⟩ : BufTy).Contents (Elt F)),
    unary main_v12 main_v15 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v14) (TRef.of (T := ⟨S50000, .f32⟩) main_v15) (TRef.of (T := ⟨S50000, .f32⟩) main_call0_v1) (TRef.of (T := ⟨S50000, .f32⟩) main_v16) select,
    nullary main_c (constantI S_ 32 0#32),
    unary main_c main_v17 (broadcastInDim S850000 ![] bcast_S_S850000 : (⟨S_, .i32⟩ : BufTy).Contents (Elt F) → (⟨S850000, .i32⟩ : BufTy).Contents (Elt F)),
    binary main_v3 main_v17 main_v18 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v19 (broadcastInDim S850000 ![] bcast_S_S850000 : (⟨S_, .i32⟩ : BufTy).Contents (Elt F) → (⟨S850000, .i32⟩ : BufTy).Contents (Elt F)),
    binary main_v3 main_v19 main_v20 (addi : (⟨S850000, .i32⟩ : BufTy).Contents (Elt F) → (⟨S850000, .i32⟩ : BufTy).Contents (Elt F) → (⟨S850000, .i32⟩ : BufTy).Contents (Elt F)),
    ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v21 main_v22 (broadcastInDim S850000x1 ![0] bcast_S850000_S850000x1_0 : (⟨S850000, .i32⟩ : BufTy).Contents (Elt F) → (⟨S850000x1, .i32⟩ : BufTy).Contents (Elt F)),
    binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v24 (broadcastInDim S850000 ![] bcast_S_S850000 : (⟨S_, .i32⟩ : BufTy).Contents (Elt F) → (⟨S850000, .i32⟩ : BufTy).Contents (Elt F)),
    binary main_v6 main_v24 main_v25 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v26 (broadcastInDim S850000 ![] bcast_S_S850000 : (⟨S_, .i32⟩ : BufTy).Contents (Elt F) → (⟨S850000, .i32⟩ : BufTy).Contents (Elt F)),
    binary main_v6 main_v26 main_v27 (addi : (⟨S850000, .i32⟩ : BufTy).Contents (Elt F) → (⟨S850000, .i32⟩ : BufTy).Contents (Elt F) → (⟨S850000, .i32⟩ : BufTy).Contents (Elt F)),
    ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v28 main_v29 (broadcastInDim S850000x1 ![0] bcast_S850000_S850000x1_0 : (⟨S850000, .i32⟩ : BufTy).Contents (Elt F) → (⟨S850000x1, .i32⟩ : BufTy).Contents (Elt F)),
    binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v23 main_v30 main_v31 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v8 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v31 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x128 ![0, 1] bcast_S850000x1_S850000x128_0_1 : (⟨S850000x1, .f32⟩ : BufTy).Contents (Elt F) → (⟨S850000x128, .f32⟩ : BufTy).Contents (Elt F)),
    binary main_v38 main_v40 main_v41 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v42 (broadcastInDim S50000x128 ![] bcast_S_S50000x128 : (⟨S_, .f32⟩ : BufTy).Contents (Elt F) → (⟨S50000x128, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)) ]
/-- The graph convolution of the second feature array. -/
abbrev opsConv1 : List (HloOp τ sig (Elt F)) :=
  [ unary main_arg7 main_v48 ((transpose S128x128 [1, 0] · transposes_S128x128_S128x128_1_0) : (⟨S128x128, .f32⟩ : BufTy).Contents (Elt F) → (⟨S128x128, .f32⟩ : BufTy).Contents (Elt F)),
    binary main_arg1 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_9 (constant S_ .f32 0x3F800000#32),
    unary main_cst_9 main_v50 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v51 (broadcastInDim S50000 ![] bcast_S_S50000 : (⟨S_, .f32⟩ : BufTy).Contents (Elt F) → (⟨S50000, .f32⟩ : BufTy).Contents (Elt F)),
    unary main_v6 main_v52 (broadcastInDim S850000x1 ![0] bcast_S850000_S850000x1_0 : (⟨S850000, .i32⟩ : BufTy).Contents (Elt F) → (⟨S850000x1, .i32⟩ : BufTy).Contents (Elt F)),
    ternary main_v51 main_v52 main_v50 main_v53 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v54 (broadcastInDim S50000 ![] bcast_S_S50000 : (⟨S_, .f32⟩ : BufTy).Contents (Elt F) → (⟨S50000, .f32⟩ : BufTy).Contents (Elt F)),
    binary main_v53 main_v54 main_v55 (cmpf .ogt : (⟨S50000, .f32⟩ : BufTy).Contents (Elt F) → (⟨S50000, .f32⟩ : BufTy).Contents (Elt F) → (⟨S50000, .i1⟩ : BufTy).Contents (Elt F)),
    unary main_v53 main_v56 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v55) (TRef.of (T := ⟨S50000, .f32⟩) main_v56) (TRef.of (T := ⟨S50000, .f32⟩) main_call1_v1) (TRef.of (T := ⟨S50000, .f32⟩) main_v57) select,
    nullary main_c_13 (constantI S_ 32 0#32),
    unary main_c_13 main_v58 (broadcastInDim S850000 ![] bcast_S_S850000 : (⟨S_, .i32⟩ : BufTy).Contents (Elt F) → (⟨S850000, .i32⟩ : BufTy).Contents (Elt F)),
    binary main_v3 main_v58 main_v59 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v60 (broadcastInDim S850000 ![] bcast_S_S850000 : (⟨S_, .i32⟩ : BufTy).Contents (Elt F) → (⟨S850000, .i32⟩ : BufTy).Contents (Elt F)),
    binary main_v3 main_v60 main_v61 (addi : (⟨S850000, .i32⟩ : BufTy).Contents (Elt F) → (⟨S850000, .i32⟩ : BufTy).Contents (Elt F) → (⟨S850000, .i32⟩ : BufTy).Contents (Elt F)),
    ternary main_v59 main_v61 main_v3 main_v62 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v62 main_v63 (broadcastInDim S850000x1 ![0] bcast_S850000_S850000x1_0 : (⟨S850000, .i32⟩ : BufTy).Contents (Elt F) → (⟨S850000x1, .i32⟩ : BufTy).Contents (Elt F)),
    binary main_v57 main_v63 main_v64 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v65 (broadcastInDim S850000 ![] bcast_S_S850000 : (⟨S_, .i32⟩ : BufTy).Contents (Elt F) → (⟨S850000, .i32⟩ : BufTy).Contents (Elt F)),
    binary main_v6 main_v65 main_v66 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v67 (broadcastInDim S850000 ![] bcast_S_S850000 : (⟨S_, .i32⟩ : BufTy).Contents (Elt F) → (⟨S850000, .i32⟩ : BufTy).Contents (Elt F)),
    binary main_v6 main_v67 main_v68 (addi : (⟨S850000, .i32⟩ : BufTy).Contents (Elt F) → (⟨S850000, .i32⟩ : BufTy).Contents (Elt F) → (⟨S850000, .i32⟩ : BufTy).Contents (Elt F)),
    ternary main_v66 main_v68 main_v6 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v69 main_v70 (broadcastInDim S850000x1 ![0] bcast_S850000_S850000x1_0 : (⟨S850000, .i32⟩ : BufTy).Contents (Elt F) → (⟨S850000x1, .i32⟩ : BufTy).Contents (Elt F)),
    binary main_v57 main_v70 main_v71 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v64 main_v71 main_v72 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v73 (broadcastInDim S850000 ![] bcast_S_S850000 : (⟨S_, .i32⟩ : BufTy).Contents (Elt F) → (⟨S850000, .i32⟩ : BufTy).Contents (Elt F)),
    binary main_v3 main_v73 main_v74 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v75 (broadcastInDim S850000 ![] bcast_S_S850000 : (⟨S_, .i32⟩ : BufTy).Contents (Elt F) → (⟨S850000, .i32⟩ : BufTy).Contents (Elt F)),
    binary main_v3 main_v75 main_v76 (addi : (⟨S850000, .i32⟩ : BufTy).Contents (Elt F) → (⟨S850000, .i32⟩ : BufTy).Contents (Elt F) → (⟨S850000, .i32⟩ : BufTy).Contents (Elt F)),
    ternary main_v74 main_v76 main_v3 main_v77 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v77 main_v78 (broadcastInDim S850000x1 ![0] bcast_S850000_S850000x1_0 : (⟨S850000, .i32⟩ : BufTy).Contents (Elt F) → (⟨S850000x1, .i32⟩ : BufTy).Contents (Elt F)),
    binary main_v49 main_v78 main_v79 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v72 main_v80 (broadcastInDim S850000x1 ![0] bcast_S850000_S850000x1_0 : (⟨S850000, .f32⟩ : BufTy).Contents (Elt F) → (⟨S850000x1, .f32⟩ : BufTy).Contents (Elt F)),
    unary main_v80 main_v81 (broadcastInDim S850000x128 ![0, 1] bcast_S850000x1_S850000x128_0_1 : (⟨S850000x1, .f32⟩ : BufTy).Contents (Elt F) → (⟨S850000x128, .f32⟩ : BufTy).Contents (Elt F)),
    binary main_v79 main_v81 main_v82 (mulf : (⟨S850000x128, .f32⟩ : BufTy).Contents (Elt F) → (⟨S850000x128, .f32⟩ : BufTy).Contents (Elt F) → (⟨S850000x128, .f32⟩ : BufTy).Contents (Elt F)),
    nullary main_cst_19 (constant S_ .f32 0x00000000#32),
    unary main_cst_19 main_v83 (broadcastInDim S50000x128 ![] bcast_S_S50000x128 : (⟨S_, .f32⟩ : BufTy).Contents (Elt F) → (⟨S50000x128, .f32⟩ : BufTy).Contents (Elt F)),
    unary main_v6 main_v84 (broadcastInDim S850000x1 ![0] bcast_S850000_S850000x1_0 : (⟨S850000, .i32⟩ : BufTy).Contents (Elt F) → (⟨S850000x1, .i32⟩ : BufTy).Contents (Elt F)),
    ternary main_v83 main_v84 main_v82 main_v85 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg8 main_v86 (broadcastInDim S1x128 ![1] bcast_S128_S1x128_1 : (⟨S128, .f32⟩ : BufTy).Contents (Elt F) → (⟨S1x128, .f32⟩ : BufTy).Contents (Elt F)),
    unary main_v86 main_v87 (broadcastInDim S50000x128 ![0, 1] bcast_S1x128_S50000x128_0_1 : (⟨S1x128, .f32⟩ : BufTy).Contents (Elt F) → (⟨S50000x128, .f32⟩ : BufTy).Contents (Elt F)),
    binary main_v85 main_v87 main_v88 (addf : (⟨S50000x128, .f32⟩ : BufTy).Contents (Elt F) → (⟨S50000x128, .f32⟩ : BufTy).Contents (Elt F) → (⟨S50000x128, .f32⟩ : BufTy).Contents (Elt F)) ]
/-- The graph convolution of the third feature array. -/
abbrev opsConv2 : List (HloOp τ sig (Elt F)) :=
  [ unary main_arg5 main_v89 ((transpose S128x128 [1, 0] · transposes_S128x128_S128x128_1_0) : (⟨S128x128, .f32⟩ : BufTy).Contents (Elt F) → (⟨S128x128, .f32⟩ : BufTy).Contents (Elt F)),
    binary main_arg2 main_v89 main_v90 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_20 (constant S_ .f32 0x3F800000#32),
    unary main_cst_20 main_v91 (broadcastInDim S850000 ![] bcast_S_S850000 : (⟨S_, .f32⟩ : BufTy).Contents (Elt F) → (⟨S850000, .f32⟩ : BufTy).Contents (Elt F)),
    nullary main_cst_21 (constant S_ .f32 0x00000000#32),
    unary main_cst_21 main_v92 (broadcastInDim S50000 ![] bcast_S_S50000 : (⟨S_, .f32⟩ : BufTy).Contents (Elt F) → (⟨S50000, .f32⟩ : BufTy).Contents (Elt F)),
    unary main_v6 main_v93 (broadcastInDim S850000x1 ![0] bcast_S850000_S850000x1_0 : (⟨S850000, .i32⟩ : BufTy).Contents (Elt F) → (⟨S850000x1, .i32⟩ : BufTy).Contents (Elt F)),
    ternary main_v92 main_v93 main_v91 main_v94 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_22 (constant S_ .f32 0x00000000#32),
    unary main_cst_22 main_v95 (broadcastInDim S50000 ![] bcast_S_S50000 : (⟨S_, .f32⟩ : BufTy).Contents (Elt F) → (⟨S50000, .f32⟩ : BufTy).Contents (Elt F)),
    binary main_v94 main_v95 main_v96 (cmpf .ogt : (⟨S50000, .f32⟩ : BufTy).Contents (Elt F) → (⟨S50000, .f32⟩ : BufTy).Contents (Elt F) → (⟨S50000, .i1⟩ : BufTy).Contents (Elt F)),
    unary main_v94 main_v97 (Host.rsqrt : (⟨S50000, .f32⟩ : BufTy).Contents (Elt F) → (⟨S50000, .f32⟩ : BufTy).Contents (Elt F)),
    nullary main_cst_23 (constant S_ .f32 0x00000000#32),
    TRef.unary (TRef.of (T := ⟨S_, .f32⟩) main_cst_23) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v96) (TRef.of (T := ⟨S50000, .f32⟩) main_v97) (TRef.of (T := ⟨S50000, .f32⟩) main_call2_v1) (TRef.of (T := ⟨S50000, .f32⟩) main_v98) select,
    nullary main_c_24 (constantI S_ 32 0#32),
    unary main_c_24 main_v99 (broadcastInDim S850000 ![] bcast_S_S850000 : (⟨S_, .i32⟩ : BufTy).Contents (Elt F) → (⟨S850000, .i32⟩ : BufTy).Contents (Elt F)),
    binary main_v3 main_v99 main_v100 (cmpi .slt : (⟨S850000, .i32⟩ : BufTy).Contents (Elt F) → (⟨S850000, .i32⟩ : BufTy).Contents (Elt F) → (⟨S850000, .i1⟩ : BufTy).Contents (Elt F)),
    nullary main_c_25 (constantI S_ 32 50000#32),
    unary main_c_25 main_v101 (broadcastInDim S850000 ![] bcast_S_S850000 : (⟨S_, .i32⟩ : BufTy).Contents (Elt F) → (⟨S850000, .i32⟩ : BufTy).Contents (Elt F)),
    binary main_v3 main_v101 main_v102 (addi : (⟨S850000, .i32⟩ : BufTy).Contents (Elt F) → (⟨S850000, .i32⟩ : BufTy).Contents (Elt F) → (⟨S850000, .i32⟩ : BufTy).Contents (Elt F)),
    ternary main_v100 main_v102 main_v3 main_v103 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v103 main_v104 (broadcastInDim S850000x1 ![0] bcast_S850000_S850000x1_0 : (⟨S850000, .i32⟩ : BufTy).Contents (Elt F) → (⟨S850000x1, .i32⟩ : BufTy).Contents (Elt F)),
    binary main_v98 main_v104 main_v105 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_26 (constantI S_ 32 0#32),
    unary main_c_26 main_v106 (broadcastInDim S850000 ![] bcast_S_S850000 : (⟨S_, .i32⟩ : BufTy).Contents (Elt F) → (⟨S850000, .i32⟩ : BufTy).Contents (Elt F)),
    binary main_v6 main_v106 main_v107 (cmpi .slt : (⟨S850000, .i32⟩ : BufTy).Contents (Elt F) → (⟨S850000, .i32⟩ : BufTy).Contents (Elt F) → (⟨S850000, .i1⟩ : BufTy).Contents (Elt F)),
    nullary main_c_27 (constantI S_ 32 50000#32),
    unary main_c_27 main_v108 (broadcastInDim S850000 ![] bcast_S_S850000 : (⟨S_, .i32⟩ : BufTy).Contents (Elt F) → (⟨S850000, .i32⟩ : BufTy).Contents (Elt F)),
    binary main_v6 main_v108 main_v109 (addi : (⟨S850000, .i32⟩ : BufTy).Contents (Elt F) → (⟨S850000, .i32⟩ : BufTy).Contents (Elt F) → (⟨S850000, .i32⟩ : BufTy).Contents (Elt F)),
    ternary main_v107 main_v109 main_v6 main_v110 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v110 main_v111 (broadcastInDim S850000x1 ![0] bcast_S850000_S850000x1_0 : (⟨S850000, .i32⟩ : BufTy).Contents (Elt F) → (⟨S850000x1, .i32⟩ : BufTy).Contents (Elt F)),
    binary main_v98 main_v111 main_v112 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v105 main_v112 main_v113 (mulf : (⟨S850000, .f32⟩ : BufTy).Contents (Elt F) → (⟨S850000, .f32⟩ : BufTy).Contents (Elt F) → (⟨S850000, .f32⟩ : BufTy).Contents (Elt F)),
    nullary main_c_28 (constantI S_ 32 0#32),
    unary main_c_28 main_v114 (broadcastInDim S850000 ![] bcast_S_S850000 : (⟨S_, .i32⟩ : BufTy).Contents (Elt F) → (⟨S850000, .i32⟩ : BufTy).Contents (Elt F)),
    binary main_v3 main_v114 main_v115 (cmpi .slt : (⟨S850000, .i32⟩ : BufTy).Contents (Elt F) → (⟨S850000, .i32⟩ : BufTy).Contents (Elt F) → (⟨S850000, .i1⟩ : BufTy).Contents (Elt F)),
    nullary main_c_29 (constantI S_ 32 50000#32),
    unary main_c_29 main_v116 (broadcastInDim S850000 ![] bcast_S_S850000 : (⟨S_, .i32⟩ : BufTy).Contents (Elt F) → (⟨S850000, .i32⟩ : BufTy).Contents (Elt F)),
    binary main_v3 main_v116 main_v117 (addi : (⟨S850000, .i32⟩ : BufTy).Contents (Elt F) → (⟨S850000, .i32⟩ : BufTy).Contents (Elt F) → (⟨S850000, .i32⟩ : BufTy).Contents (Elt F)),
    ternary main_v115 main_v117 main_v3 main_v118 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v118 main_v119 (broadcastInDim S850000x1 ![0] bcast_S850000_S850000x1_0 : (⟨S850000, .i32⟩ : BufTy).Contents (Elt F) → (⟨S850000x1, .i32⟩ : BufTy).Contents (Elt F)),
    binary main_v90 main_v119 main_v120 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v113 main_v121 (broadcastInDim S850000x1 ![0] bcast_S850000_S850000x1_0 : (⟨S850000, .f32⟩ : BufTy).Contents (Elt F) → (⟨S850000x1, .f32⟩ : BufTy).Contents (Elt F)),
    unary main_v121 main_v122 (broadcastInDim S850000x128 ![0, 1] bcast_S850000x1_S850000x128_0_1 : (⟨S850000x1, .f32⟩ : BufTy).Contents (Elt F) → (⟨S850000x128, .f32⟩ : BufTy).Contents (Elt F)),
    binary main_v120 main_v122 main_v123 (mulf : (⟨S850000x128, .f32⟩ : BufTy).Contents (Elt F) → (⟨S850000x128, .f32⟩ : BufTy).Contents (Elt F) → (⟨S850000x128, .f32⟩ : BufTy).Contents (Elt F)),
    nullary main_cst_30 (constant S_ .f32 0x00000000#32),
    unary main_cst_30 main_v124 (broadcastInDim S50000x128 ![] bcast_S_S50000x128 : (⟨S_, .f32⟩ : BufTy).Contents (Elt F) → (⟨S50000x128, .f32⟩ : BufTy).Contents (Elt F)),
    unary main_v6 main_v125 (broadcastInDim S850000x1 ![0] bcast_S850000_S850000x1_0 : (⟨S850000, .i32⟩ : BufTy).Contents (Elt F) → (⟨S850000x1, .i32⟩ : BufTy).Contents (Elt F)),
    ternary main_v124 main_v125 main_v123 main_v126 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg6 main_v127 (broadcastInDim S1x128 ![1] bcast_S128_S1x128_1 : (⟨S128, .f32⟩ : BufTy).Contents (Elt F) → (⟨S1x128, .f32⟩ : BufTy).Contents (Elt F)),
    unary main_v127 main_v128 (broadcastInDim S50000x128 ![0, 1] bcast_S1x128_S50000x128_0_1 : (⟨S1x128, .f32⟩ : BufTy).Contents (Elt F) → (⟨S50000x128, .f32⟩ : BufTy).Contents (Elt F)),
    binary main_v126 main_v128 main_v129 (addf : (⟨S50000x128, .f32⟩ : BufTy).Contents (Elt F) → (⟨S50000x128, .f32⟩ : BufTy).Contents (Elt F) → (⟨S50000x128, .f32⟩ : BufTy).Contents (Elt F)) ]
/-- The graph convolution of the fourth feature array. -/
abbrev opsConv3 : List (HloOp τ sig (Elt F)) :=
  [ unary main_arg7 main_v130 ((transpose S128x128 [1, 0] · transposes_S128x128_S128x128_1_0) : (⟨S128x128, .f32⟩ : BufTy).Contents (Elt F) → (⟨S128x128, .f32⟩ : BufTy).Contents (Elt F)),
    binary main_arg3 main_v130 main_v131 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_31 (constant S_ .f32 0x3F800000#32),
    unary main_cst_31 main_v132 (broadcastInDim S850000 ![] bcast_S_S850000 : (⟨S_, .f32⟩ : BufTy).Contents (Elt F) → (⟨S850000, .f32⟩ : BufTy).Contents (Elt F)),
    nullary main_cst_32 (constant S_ .f32 0x00000000#32),
    unary main_cst_32 main_v133 (broadcastInDim S50000 ![] bcast_S_S50000 : (⟨S_, .f32⟩ : BufTy).Contents (Elt F) → (⟨S50000, .f32⟩ : BufTy).Contents (Elt F)),
    unary main_v6 main_v134 (broadcastInDim S850000x1 ![0] bcast_S850000_S850000x1_0 : (⟨S850000, .i32⟩ : BufTy).Contents (Elt F) → (⟨S850000x1, .i32⟩ : BufTy).Contents (Elt F)),
    ternary main_v133 main_v134 main_v132 main_v135 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_33 (constant S_ .f32 0x00000000#32),
    unary main_cst_33 main_v136 (broadcastInDim S50000 ![] bcast_S_S50000 : (⟨S_, .f32⟩ : BufTy).Contents (Elt F) → (⟨S50000, .f32⟩ : BufTy).Contents (Elt F)),
    binary main_v135 main_v136 main_v137 (cmpf .ogt : (⟨S50000, .f32⟩ : BufTy).Contents (Elt F) → (⟨S50000, .f32⟩ : BufTy).Contents (Elt F) → (⟨S50000, .i1⟩ : BufTy).Contents (Elt F)),
    unary main_v135 main_v138 (Host.rsqrt : (⟨S50000, .f32⟩ : BufTy).Contents (Elt F) → (⟨S50000, .f32⟩ : BufTy).Contents (Elt F)),
    nullary main_cst_34 (constant S_ .f32 0x00000000#32),
    TRef.unary (TRef.of (T := ⟨S_, .f32⟩) main_cst_34) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v137) (TRef.of (T := ⟨S50000, .f32⟩) main_v138) (TRef.of (T := ⟨S50000, .f32⟩) main_call3_v1) (TRef.of (T := ⟨S50000, .f32⟩) main_v139) select,
    nullary main_c_35 (constantI S_ 32 0#32),
    unary main_c_35 main_v140 (broadcastInDim S850000 ![] bcast_S_S850000 : (⟨S_, .i32⟩ : BufTy).Contents (Elt F) → (⟨S850000, .i32⟩ : BufTy).Contents (Elt F)),
    binary main_v3 main_v140 main_v141 (cmpi .slt : (⟨S850000, .i32⟩ : BufTy).Contents (Elt F) → (⟨S850000, .i32⟩ : BufTy).Contents (Elt F) → (⟨S850000, .i1⟩ : BufTy).Contents (Elt F)),
    nullary main_c_36 (constantI S_ 32 50000#32),
    unary main_c_36 main_v142 (broadcastInDim S850000 ![] bcast_S_S850000 : (⟨S_, .i32⟩ : BufTy).Contents (Elt F) → (⟨S850000, .i32⟩ : BufTy).Contents (Elt F)),
    binary main_v3 main_v142 main_v143 (addi : (⟨S850000, .i32⟩ : BufTy).Contents (Elt F) → (⟨S850000, .i32⟩ : BufTy).Contents (Elt F) → (⟨S850000, .i32⟩ : BufTy).Contents (Elt F)),
    ternary main_v141 main_v143 main_v3 main_v144 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v144 main_v145 (broadcastInDim S850000x1 ![0] bcast_S850000_S850000x1_0 : (⟨S850000, .i32⟩ : BufTy).Contents (Elt F) → (⟨S850000x1, .i32⟩ : BufTy).Contents (Elt F)),
    binary main_v139 main_v145 main_v146 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_37 (constantI S_ 32 0#32),
    unary main_c_37 main_v147 (broadcastInDim S850000 ![] bcast_S_S850000 : (⟨S_, .i32⟩ : BufTy).Contents (Elt F) → (⟨S850000, .i32⟩ : BufTy).Contents (Elt F)),
    binary main_v6 main_v147 main_v148 (cmpi .slt : (⟨S850000, .i32⟩ : BufTy).Contents (Elt F) → (⟨S850000, .i32⟩ : BufTy).Contents (Elt F) → (⟨S850000, .i1⟩ : BufTy).Contents (Elt F)),
    nullary main_c_38 (constantI S_ 32 50000#32),
    unary main_c_38 main_v149 (broadcastInDim S850000 ![] bcast_S_S850000 : (⟨S_, .i32⟩ : BufTy).Contents (Elt F) → (⟨S850000, .i32⟩ : BufTy).Contents (Elt F)),
    binary main_v6 main_v149 main_v150 (addi : (⟨S850000, .i32⟩ : BufTy).Contents (Elt F) → (⟨S850000, .i32⟩ : BufTy).Contents (Elt F) → (⟨S850000, .i32⟩ : BufTy).Contents (Elt F)),
    ternary main_v148 main_v150 main_v6 main_v151 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v151 main_v152 (broadcastInDim S850000x1 ![0] bcast_S850000_S850000x1_0 : (⟨S850000, .i32⟩ : BufTy).Contents (Elt F) → (⟨S850000x1, .i32⟩ : BufTy).Contents (Elt F)),
    binary main_v139 main_v152 main_v153 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v146 main_v153 main_v154 (mulf : (⟨S850000, .f32⟩ : BufTy).Contents (Elt F) → (⟨S850000, .f32⟩ : BufTy).Contents (Elt F) → (⟨S850000, .f32⟩ : BufTy).Contents (Elt F)),
    nullary main_c_39 (constantI S_ 32 0#32),
    unary main_c_39 main_v155 (broadcastInDim S850000 ![] bcast_S_S850000 : (⟨S_, .i32⟩ : BufTy).Contents (Elt F) → (⟨S850000, .i32⟩ : BufTy).Contents (Elt F)),
    binary main_v3 main_v155 main_v156 (cmpi .slt : (⟨S850000, .i32⟩ : BufTy).Contents (Elt F) → (⟨S850000, .i32⟩ : BufTy).Contents (Elt F) → (⟨S850000, .i1⟩ : BufTy).Contents (Elt F)),
    nullary main_c_40 (constantI S_ 32 50000#32),
    unary main_c_40 main_v157 (broadcastInDim S850000 ![] bcast_S_S850000 : (⟨S_, .i32⟩ : BufTy).Contents (Elt F) → (⟨S850000, .i32⟩ : BufTy).Contents (Elt F)),
    binary main_v3 main_v157 main_v158 (addi : (⟨S850000, .i32⟩ : BufTy).Contents (Elt F) → (⟨S850000, .i32⟩ : BufTy).Contents (Elt F) → (⟨S850000, .i32⟩ : BufTy).Contents (Elt F)),
    ternary main_v156 main_v158 main_v3 main_v159 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v159 main_v160 (broadcastInDim S850000x1 ![0] bcast_S850000_S850000x1_0 : (⟨S850000, .i32⟩ : BufTy).Contents (Elt F) → (⟨S850000x1, .i32⟩ : BufTy).Contents (Elt F)),
    binary main_v131 main_v160 main_v161 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v154 main_v162 (broadcastInDim S850000x1 ![0] bcast_S850000_S850000x1_0 : (⟨S850000, .f32⟩ : BufTy).Contents (Elt F) → (⟨S850000x1, .f32⟩ : BufTy).Contents (Elt F)),
    unary main_v162 main_v163 (broadcastInDim S850000x128 ![0, 1] bcast_S850000x1_S850000x128_0_1 : (⟨S850000x1, .f32⟩ : BufTy).Contents (Elt F) → (⟨S850000x128, .f32⟩ : BufTy).Contents (Elt F)),
    binary main_v161 main_v163 main_v164 (mulf : (⟨S850000x128, .f32⟩ : BufTy).Contents (Elt F) → (⟨S850000x128, .f32⟩ : BufTy).Contents (Elt F) → (⟨S850000x128, .f32⟩ : BufTy).Contents (Elt F)),
    nullary main_cst_41 (constant S_ .f32 0x00000000#32),
    unary main_cst_41 main_v165 (broadcastInDim S50000x128 ![] bcast_S_S50000x128 : (⟨S_, .f32⟩ : BufTy).Contents (Elt F) → (⟨S50000x128, .f32⟩ : BufTy).Contents (Elt F)),
    unary main_v6 main_v166 (broadcastInDim S850000x1 ![0] bcast_S850000_S850000x1_0 : (⟨S850000, .i32⟩ : BufTy).Contents (Elt F) → (⟨S850000x1, .i32⟩ : BufTy).Contents (Elt F)),
    ternary main_v165 main_v166 main_v164 main_v167 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg8 main_v168 (broadcastInDim S1x128 ![1] bcast_S128_S1x128_1 : (⟨S128, .f32⟩ : BufTy).Contents (Elt F) → (⟨S1x128, .f32⟩ : BufTy).Contents (Elt F)),
    unary main_v168 main_v169 (broadcastInDim S50000x128 ![0, 1] bcast_S1x128_S50000x128_0_1 : (⟨S1x128, .f32⟩ : BufTy).Contents (Elt F) → (⟨S50000x128, .f32⟩ : BufTy).Contents (Elt F)),
    binary main_v167 main_v169 main_v170 (addf : (⟨S50000x128, .f32⟩ : BufTy).Contents (Elt F) → (⟨S50000x128, .f32⟩ : BufTy).Contents (Elt F) → (⟨S50000x128, .f32⟩ : BufTy).Contents (Elt F)) ]

set_option maxRecDepth 8192 in
/-- The line is its five pieces in order. -/
theorem ops_pieces : (ops : List (HloOp τ sig (Elt F))) = opsEdges ++ (opsConv0 ++ (opsConv1 ++ (opsConv2 ++ opsConv3))) := rfl

/-- Running one line after another is running the joined line. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- What the buffers hold after each piece, from the launch memory `m` on core `c`. -/
abbrev atEdges (m : (ℓ : Loc nD τ sig) → Buf (Elt F) ℓ) (c : Dev nD) : Valuation τ sig (Elt F) := after opsEdges (launchContents m c)
abbrev atConv0 (m : (ℓ : Loc nD τ sig) → Buf (Elt F) ℓ) (c : Dev nD) : Valuation τ sig (Elt F) := after opsConv0 (atEdges m c)
abbrev atConv1 (m : (ℓ : Loc nD τ sig) → Buf (Elt F) ℓ) (c : Dev nD) : Valuation τ sig (Elt F) := after opsConv1 (atConv0 m c)
abbrev atConv2 (m : (ℓ : Loc nD τ sig) → Buf (Elt F) ℓ) (c : Dev nD) : Valuation τ sig (Elt F) := after opsConv2 (atConv1 m c)
abbrev atConv3 (m : (ℓ : Loc nD τ sig) → Buf (Elt F) ℓ) (c : Dev nD) : Valuation τ sig (Elt F) := after opsConv3 (atConv2 m c)

/-- On every device, from any memory with zero counters: every weakly fair execution of the reference terminates,
    nothing faulting, with every buffer at what the five pieces, run in order from the launch memory, leave in it. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = atConv3 m c (Proc.devRef .tc b) :=
  (θ_run defs _ _).mono (fun r h c b => by
      rw [h c b, ops_pieces, after_append, after_append, after_append, after_append])
    (run_seq scopedRefs_eq scopedSems_eq defs main (fun _ => ops) main_eq (fun _ => ops_sub) m ρ)

end Cert.ReferenceIdeal.HostRun

end
-- ==== Proof.ReferenceValue.lean ====
/-
  The reference's four results, each as the convolution of its feature array.

  A result buffer is read back through the line of operations one piece at a time. The convolutions after its own
  write none of its buffers, so they leave it as it was; its own 54 operations compute, from the feature array, the
  weights, the bias and the sources and destinations the first seven operations built, the feature transform, the
  message passing and the bias step; the earlier convolutions write none of those five inputs. What comes out is
  `plusBiasRow (aggregate (linear x w) e) b` with the bias `b` laid out as a row. The arguments are written by no
  operation at all.
-/
import proofs.«159419_j31293131719204_1_alg».proof.Proof.ReferenceRun
import proofs.«159419_j31293131719204_1_alg».proof.Proof.Stages

set_option maxRecDepth 16384

noncomputable section

namespace Cert.ReferenceIdeal.Results

open Cert.ReferenceIdeal Cert.ReferenceIdeal.Facts₀ Cert.ReferenceIdeal.HostRun Cert.ReferenceIdeal.Stages
open Idealize.ShloMosaic Idealize.ShloMosaic.TcCoe Idealize.SL.Sem Idealize.ShloMosaic.StableHlo Cert.LayerSpec

/-- A buffer that no operation of a host stretch writes holds after the stretch what it held before. -/
macro "unwritten" ops:ident : tactic => `(tactic| (
  refine StableHlo.after_of_forall_not_mem _ _ (List.forall_iff_forall_mem.mp ?_)
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

variable (m : (ℓ : Loc nD τ sig) → Buf (Elt Ideal) ℓ)

/-! ## The select each convolution calls, as plain operations

The three operations of the called select are written over typed references, which move every value to and from its
buffer's own type. Each is the plain operation over the same buffers: the move is along an equation between a type and
itself, so it is the identity on any value. With these a convolution's 54 operations are read like any others. -/

/-- The select's fallback value is copied: the typed copy is the plain one. -/
theorem where0_copy : (StableHlo.TRef.unary (StableHlo.TRef.of (T := ⟨S_, .f32⟩) main_cst_2) (StableHlo.TRef.of (T := ⟨S_, .f32⟩) main_call0_v0) id : HloOp τ sig (Elt Ideal))
    = StableHlo.unary main_cst_2 main_call0_v0 (id : (⟨S_, .f32⟩ : BufTy).Contents (Elt Ideal) → (⟨S_, .f32⟩ : BufTy).Contents (Elt Ideal)) := by
  have hg : (fun (u : (⟨S_, .f32⟩ : BufTy).Contents (Elt Ideal)) => (StableHlo.TRef.of (T := ⟨S_, .f32⟩) main_call0_v0).toBuf (id ((StableHlo.TRef.of (T := ⟨S_, .f32⟩) main_cst_2).ofBuf u))) = id :=
    funext fun u => (cast_eq _ _).trans (congrArg id (cast_eq _ u))
  exact congrArg (fun g => StableHlo.unary main_cst_2 main_call0_v0 g) hg
/-- The fallback value is broadcast to every node: the typed broadcast is the plain one. -/
theorem where0_spread : (StableHlo.TRef.unary (StableHlo.TRef.of (T := ⟨S_, .f32⟩) main_call0_v0) (StableHlo.TRef.of (T := ⟨S50000, .f32⟩) main_call0_v1) (broadcastInDim S50000 ![] Cert.ReferenceIdeal.Facts₀.bcast_S_S50000) : HloOp τ sig (Elt Ideal))
    = StableHlo.unary main_call0_v0 main_call0_v1 (broadcastInDim S50000 ![] Cert.ReferenceIdeal.Facts₀.bcast_S_S50000 : (⟨S_, .f32⟩ : BufTy).Contents (Elt Ideal) → (⟨S50000, .f32⟩ : BufTy).Contents (Elt Ideal)) := by
  have hg : (fun (u : (⟨S_, .f32⟩ : BufTy).Contents (Elt Ideal)) => (StableHlo.TRef.of (T := ⟨S50000, .f32⟩) main_call0_v1).toBuf (broadcastInDim S50000 ![] Cert.ReferenceIdeal.Facts₀.bcast_S_S50000 ((StableHlo.TRef.of (T := ⟨S_, .f32⟩) main_call0_v0).ofBuf u)))
      = (broadcastInDim S50000 ![] Cert.ReferenceIdeal.Facts₀.bcast_S_S50000 : (⟨S_, .f32⟩ : BufTy).Contents (Elt Ideal) → (⟨S50000, .f32⟩ : BufTy).Contents (Elt Ideal)) :=
    funext fun u => (cast_eq _ _).trans (congrArg (broadcastInDim S50000 ![] Cert.ReferenceIdeal.Facts₀.bcast_S_S50000) (cast_eq _ u))
  exact congrArg (fun g => StableHlo.unary main_call0_v0 main_call0_v1 g) hg
/-- The select itself: the typed select is the plain one. -/
theorem where0_choose : (StableHlo.TRef.ternary (StableHlo.TRef.of (T := ⟨S50000, .i1⟩) main_v14) (StableHlo.TRef.of (T := ⟨S50000, .f32⟩) main_v15) (StableHlo.TRef.of (T := ⟨S50000, .f32⟩) main_call0_v1) (StableHlo.TRef.of (T := ⟨S50000, .f32⟩) main_v16) select : HloOp τ sig (Elt Ideal))
    = StableHlo.ternary main_v14 main_v15 main_call0_v1 main_v16 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) := by
  have hg : (fun (w : (⟨S50000, .i1⟩ : BufTy).Contents (Elt Ideal)) (u : (⟨S50000, .f32⟩ : BufTy).Contents (Elt Ideal)) (v : (⟨S50000, .f32⟩ : BufTy).Contents (Elt Ideal)) =>
        (StableHlo.TRef.of (T := ⟨S50000, .f32⟩) main_v16).toBuf (select ((StableHlo.TRef.of (T := ⟨S50000, .i1⟩) main_v14).ofBuf w) ((StableHlo.TRef.of (T := ⟨S50000, .f32⟩) main_v15).ofBuf u) ((StableHlo.TRef.of (T := ⟨S50000, .f32⟩) main_call0_v1).ofBuf v)))
      = (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) :=
    funext fun w => funext fun u => funext fun v =>
      (cast_eq _ _).trans (congr (congrArg₂ select (cast_eq _ w) (cast_eq _ u)) (cast_eq _ v))
  exact congrArg (fun g => StableHlo.ternary main_v14 main_v15 main_call0_v1 main_v16 g) hg
/-- The select's fallback value is copied: the typed copy is the plain one. -/
theorem where1_copy : (StableHlo.TRef.unary (StableHlo.TRef.of (T := ⟨S_, .f32⟩) main_cst_12) (StableHlo.TRef.of (T := ⟨S_, .f32⟩) main_call1_v0) id : HloOp τ sig (Elt Ideal))
    = StableHlo.unary main_cst_12 main_call1_v0 (id : (⟨S_, .f32⟩ : BufTy).Contents (Elt Ideal) → (⟨S_, .f32⟩ : BufTy).Contents (Elt Ideal)) := by
  have hg : (fun (u : (⟨S_, .f32⟩ : BufTy).Contents (Elt Ideal)) => (StableHlo.TRef.of (T := ⟨S_, .f32⟩) main_call1_v0).toBuf (id ((StableHlo.TRef.of (T := ⟨S_, .f32⟩) main_cst_12).ofBuf u))) = id :=
    funext fun u => (cast_eq _ _).trans (congrArg id (cast_eq _ u))
  exact congrArg (fun g => StableHlo.unary main_cst_12 main_call1_v0 g) hg
/-- The fallback value is broadcast to every node: the typed broadcast is the plain one. -/
theorem where1_spread : (StableHlo.TRef.unary (StableHlo.TRef.of (T := ⟨S_, .f32⟩) main_call1_v0) (StableHlo.TRef.of (T := ⟨S50000, .f32⟩) main_call1_v1) (broadcastInDim S50000 ![] Cert.ReferenceIdeal.Facts₀.bcast_S_S50000) : HloOp τ sig (Elt Ideal))
    = StableHlo.unary main_call1_v0 main_call1_v1 (broadcastInDim S50000 ![] Cert.ReferenceIdeal.Facts₀.bcast_S_S50000 : (⟨S_, .f32⟩ : BufTy).Contents (Elt Ideal) → (⟨S50000, .f32⟩ : BufTy).Contents (Elt Ideal)) := by
  have hg : (fun (u : (⟨S_, .f32⟩ : BufTy).Contents (Elt Ideal)) => (StableHlo.TRef.of (T := ⟨S50000, .f32⟩) main_call1_v1).toBuf (broadcastInDim S50000 ![] Cert.ReferenceIdeal.Facts₀.bcast_S_S50000 ((StableHlo.TRef.of (T := ⟨S_, .f32⟩) main_call1_v0).ofBuf u)))
      = (broadcastInDim S50000 ![] Cert.ReferenceIdeal.Facts₀.bcast_S_S50000 : (⟨S_, .f32⟩ : BufTy).Contents (Elt Ideal) → (⟨S50000, .f32⟩ : BufTy).Contents (Elt Ideal)) :=
    funext fun u => (cast_eq _ _).trans (congrArg (broadcastInDim S50000 ![] Cert.ReferenceIdeal.Facts₀.bcast_S_S50000) (cast_eq _ u))
  exact congrArg (fun g => StableHlo.unary main_call1_v0 main_call1_v1 g) hg
/-- The select itself: the typed select is the plain one. -/
theorem where1_choose : (StableHlo.TRef.ternary (StableHlo.TRef.of (T := ⟨S50000, .i1⟩) main_v55) (StableHlo.TRef.of (T := ⟨S50000, .f32⟩) main_v56) (StableHlo.TRef.of (T := ⟨S50000, .f32⟩) main_call1_v1) (StableHlo.TRef.of (T := ⟨S50000, .f32⟩) main_v57) select : HloOp τ sig (Elt Ideal))
    = StableHlo.ternary main_v55 main_v56 main_call1_v1 main_v57 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) := by
  have hg : (fun (w : (⟨S50000, .i1⟩ : BufTy).Contents (Elt Ideal)) (u : (⟨S50000, .f32⟩ : BufTy).Contents (Elt Ideal)) (v : (⟨S50000, .f32⟩ : BufTy).Contents (Elt Ideal)) =>
        (StableHlo.TRef.of (T := ⟨S50000, .f32⟩) main_v57).toBuf (select ((StableHlo.TRef.of (T := ⟨S50000, .i1⟩) main_v55).ofBuf w) ((StableHlo.TRef.of (T := ⟨S50000, .f32⟩) main_v56).ofBuf u) ((StableHlo.TRef.of (T := ⟨S50000, .f32⟩) main_call1_v1).ofBuf v)))
      = (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) :=
    funext fun w => funext fun u => funext fun v =>
      (cast_eq _ _).trans (congr (congrArg₂ select (cast_eq _ w) (cast_eq _ u)) (cast_eq _ v))
  exact congrArg (fun g => StableHlo.ternary main_v55 main_v56 main_call1_v1 main_v57 g) hg
/-- The select's fallback value is copied: the typed copy is the plain one. -/
theorem where2_copy : (StableHlo.TRef.unary (StableHlo.TRef.of (T := ⟨S_, .f32⟩) main_cst_23) (StableHlo.TRef.of (T := ⟨S_, .f32⟩) main_call2_v0) id : HloOp τ sig (Elt Ideal))
    = StableHlo.unary main_cst_23 main_call2_v0 (id : (⟨S_, .f32⟩ : BufTy).Contents (Elt Ideal) → (⟨S_, .f32⟩ : BufTy).Contents (Elt Ideal)) := by
  have hg : (fun (u : (⟨S_, .f32⟩ : BufTy).Contents (Elt Ideal)) => (StableHlo.TRef.of (T := ⟨S_, .f32⟩) main_call2_v0).toBuf (id ((StableHlo.TRef.of (T := ⟨S_, .f32⟩) main_cst_23).ofBuf u))) = id :=
    funext fun u => (cast_eq _ _).trans (congrArg id (cast_eq _ u))
  exact congrArg (fun g => StableHlo.unary main_cst_23 main_call2_v0 g) hg
/-- The fallback value is broadcast to every node: the typed broadcast is the plain one. -/
theorem where2_spread : (StableHlo.TRef.unary (StableHlo.TRef.of (T := ⟨S_, .f32⟩) main_call2_v0) (StableHlo.TRef.of (T := ⟨S50000, .f32⟩) main_call2_v1) (broadcastInDim S50000 ![] Cert.ReferenceIdeal.Facts₀.bcast_S_S50000) : HloOp τ sig (Elt Ideal))
    = StableHlo.unary main_call2_v0 main_call2_v1 (broadcastInDim S50000 ![] Cert.ReferenceIdeal.Facts₀.bcast_S_S50000 : (⟨S_, .f32⟩ : BufTy).Contents (Elt Ideal) → (⟨S50000, .f32⟩ : BufTy).Contents (Elt Ideal)) := by
  have hg : (fun (u : (⟨S_, .f32⟩ : BufTy).Contents (Elt Ideal)) => (StableHlo.TRef.of (T := ⟨S50000, .f32⟩) main_call2_v1).toBuf (broadcastInDim S50000 ![] Cert.ReferenceIdeal.Facts₀.bcast_S_S50000 ((StableHlo.TRef.of (T := ⟨S_, .f32⟩) main_call2_v0).ofBuf u)))
      = (broadcastInDim S50000 ![] Cert.ReferenceIdeal.Facts₀.bcast_S_S50000 : (⟨S_, .f32⟩ : BufTy).Contents (Elt Ideal) → (⟨S50000, .f32⟩ : BufTy).Contents (Elt Ideal)) :=
    funext fun u => (cast_eq _ _).trans (congrArg (broadcastInDim S50000 ![] Cert.ReferenceIdeal.Facts₀.bcast_S_S50000) (cast_eq _ u))
  exact congrArg (fun g => StableHlo.unary main_call2_v0 main_call2_v1 g) hg
/-- The select itself: the typed select is the plain one. -/
theorem where2_choose : (StableHlo.TRef.ternary (StableHlo.TRef.of (T := ⟨S50000, .i1⟩) main_v96) (StableHlo.TRef.of (T := ⟨S50000, .f32⟩) main_v97) (StableHlo.TRef.of (T := ⟨S50000, .f32⟩) main_call2_v1) (StableHlo.TRef.of (T := ⟨S50000, .f32⟩) main_v98) select : HloOp τ sig (Elt Ideal))
    = StableHlo.ternary main_v96 main_v97 main_call2_v1 main_v98 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) := by
  have hg : (fun (w : (⟨S50000, .i1⟩ : BufTy).Contents (Elt Ideal)) (u : (⟨S50000, .f32⟩ : BufTy).Contents (Elt Ideal)) (v : (⟨S50000, .f32⟩ : BufTy).Contents (Elt Ideal)) =>
        (StableHlo.TRef.of (T := ⟨S50000, .f32⟩) main_v98).toBuf (select ((StableHlo.TRef.of (T := ⟨S50000, .i1⟩) main_v96).ofBuf w) ((StableHlo.TRef.of (T := ⟨S50000, .f32⟩) main_v97).ofBuf u) ((StableHlo.TRef.of (T := ⟨S50000, .f32⟩) main_call2_v1).ofBuf v)))
      = (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) :=
    funext fun w => funext fun u => funext fun v =>
      (cast_eq _ _).trans (congr (congrArg₂ select (cast_eq _ w) (cast_eq _ u)) (cast_eq _ v))
  exact congrArg (fun g => StableHlo.ternary main_v96 main_v97 main_call2_v1 main_v98 g) hg
/-- The select's fallback value is copied: the typed copy is the plain one. -/
theorem where3_copy : (StableHlo.TRef.unary (StableHlo.TRef.of (T := ⟨S_, .f32⟩) main_cst_34) (StableHlo.TRef.of (T := ⟨S_, .f32⟩) main_call3_v0) id : HloOp τ sig (Elt Ideal))
    = StableHlo.unary main_cst_34 main_call3_v0 (id : (⟨S_, .f32⟩ : BufTy).Contents (Elt Ideal) → (⟨S_, .f32⟩ : BufTy).Contents (Elt Ideal)) := by
  have hg : (fun (u : (⟨S_, .f32⟩ : BufTy).Contents (Elt Ideal)) => (StableHlo.TRef.of (T := ⟨S_, .f32⟩) main_call3_v0).toBuf (id ((StableHlo.TRef.of (T := ⟨S_, .f32⟩) main_cst_34).ofBuf u))) = id :=
    funext fun u => (cast_eq _ _).trans (congrArg id (cast_eq _ u))
  exact congrArg (fun g => StableHlo.unary main_cst_34 main_call3_v0 g) hg
/-- The fallback value is broadcast to every node: the typed broadcast is the plain one. -/
theorem where3_spread : (StableHlo.TRef.unary (StableHlo.TRef.of (T := ⟨S_, .f32⟩) main_call3_v0) (StableHlo.TRef.of (T := ⟨S50000, .f32⟩) main_call3_v1) (broadcastInDim S50000 ![] Cert.ReferenceIdeal.Facts₀.bcast_S_S50000) : HloOp τ sig (Elt Ideal))
    = StableHlo.unary main_call3_v0 main_call3_v1 (broadcastInDim S50000 ![] Cert.ReferenceIdeal.Facts₀.bcast_S_S50000 : (⟨S_, .f32⟩ : BufTy).Contents (Elt Ideal) → (⟨S50000, .f32⟩ : BufTy).Contents (Elt Ideal)) := by
  have hg : (fun (u : (⟨S_, .f32⟩ : BufTy).Contents (Elt Ideal)) => (StableHlo.TRef.of (T := ⟨S50000, .f32⟩) main_call3_v1).toBuf (broadcastInDim S50000 ![] Cert.ReferenceIdeal.Facts₀.bcast_S_S50000 ((StableHlo.TRef.of (T := ⟨S_, .f32⟩) main_call3_v0).ofBuf u)))
      = (broadcastInDim S50000 ![] Cert.ReferenceIdeal.Facts₀.bcast_S_S50000 : (⟨S_, .f32⟩ : BufTy).Contents (Elt Ideal) → (⟨S50000, .f32⟩ : BufTy).Contents (Elt Ideal)) :=
    funext fun u => (cast_eq _ _).trans (congrArg (broadcastInDim S50000 ![] Cert.ReferenceIdeal.Facts₀.bcast_S_S50000) (cast_eq _ u))
  exact congrArg (fun g => StableHlo.unary main_call3_v0 main_call3_v1 g) hg
/-- The select itself: the typed select is the plain one. -/
theorem where3_choose : (StableHlo.TRef.ternary (StableHlo.TRef.of (T := ⟨S50000, .i1⟩) main_v137) (StableHlo.TRef.of (T := ⟨S50000, .f32⟩) main_v138) (StableHlo.TRef.of (T := ⟨S50000, .f32⟩) main_call3_v1) (StableHlo.TRef.of (T := ⟨S50000, .f32⟩) main_v139) select : HloOp τ sig (Elt Ideal))
    = StableHlo.ternary main_v137 main_v138 main_call3_v1 main_v139 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) := by
  have hg : (fun (w : (⟨S50000, .i1⟩ : BufTy).Contents (Elt Ideal)) (u : (⟨S50000, .f32⟩ : BufTy).Contents (Elt Ideal)) (v : (⟨S50000, .f32⟩ : BufTy).Contents (Elt Ideal)) =>
        (StableHlo.TRef.of (T := ⟨S50000, .f32⟩) main_v139).toBuf (select ((StableHlo.TRef.of (T := ⟨S50000, .i1⟩) main_v137).ofBuf w) ((StableHlo.TRef.of (T := ⟨S50000, .f32⟩) main_v138).ofBuf u) ((StableHlo.TRef.of (T := ⟨S50000, .f32⟩) main_call3_v1).ofBuf v)))
      = (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) :=
    funext fun w => funext fun u => funext fun v =>
      (cast_eq _ _).trans (congr (congrArg₂ select (cast_eq _ w) (cast_eq _ u)) (cast_eq _ v))
  exact congrArg (fun g => StableHlo.ternary main_v137 main_v138 main_call3_v1 main_v139 g) hg

/-! ## After the first seven operations -/

theorem src_atEdges (c : Dev nD) : atEdges m c (Proc.devRef .tc main_v3) = src (m ((c.tc : Thread nD τ).loc main_arg4)) := by
  show after opsEdges (launchContents m c) (Proc.devRef .tc main_v3) = _
  after_results
  rfl
theorem dst_atEdges (c : Dev nD) : atEdges m c (Proc.devRef .tc main_v6) = dst (m ((c.tc : Thread nD τ).loc main_arg4)) := by
  show after opsEdges (launchContents m c) (Proc.devRef .tc main_v6) = _
  after_results
  rfl
theorem arg0_atEdges (c : Dev nD) : atEdges m c (Proc.devRef .tc main_arg0) = (m ((c.tc : Thread nD τ).loc main_arg0)) :=
  (show after opsEdges (launchContents m c) (Proc.devRef .tc main_arg0) = launchContents m c (Proc.devRef .tc main_arg0) by unwritten opsEdges).trans rfl
theorem arg1_atEdges (c : Dev nD) : atEdges m c (Proc.devRef .tc main_arg1) = (m ((c.tc : Thread nD τ).loc main_arg1)) :=
  (show after opsEdges (launchContents m c) (Proc.devRef .tc main_arg1) = launchContents m c (Proc.devRef .tc main_arg1) by unwritten opsEdges).trans rfl
theorem arg2_atEdges (c : Dev nD) : atEdges m c (Proc.devRef .tc main_arg2) = (m ((c.tc : Thread nD τ).loc main_arg2)) :=
  (show after opsEdges (launchContents m c) (Proc.devRef .tc main_arg2) = launchContents m c (Proc.devRef .tc main_arg2) by unwritten opsEdges).trans rfl
theorem arg3_atEdges (c : Dev nD) : atEdges m c (Proc.devRef .tc main_arg3) = (m ((c.tc : Thread nD τ).loc main_arg3)) :=
  (show after opsEdges (launchContents m c) (Proc.devRef .tc main_arg3) = launchContents m c (Proc.devRef .tc main_arg3) by unwritten opsEdges).trans rfl
theorem arg4_atEdges (c : Dev nD) : atEdges m c (Proc.devRef .tc main_arg4) = (m ((c.tc : Thread nD τ).loc main_arg4)) :=
  (show after opsEdges (launchContents m c) (Proc.devRef .tc main_arg4) = launchContents m c (Proc.devRef .tc main_arg4) by unwritten opsEdges).trans rfl
theorem arg5_atEdges (c : Dev nD) : atEdges m c (Proc.devRef .tc main_arg5) = (m ((c.tc : Thread nD τ).loc main_arg5)) :=
  (show after opsEdges (launchContents m c) (Proc.devRef .tc main_arg5) = launchContents m c (Proc.devRef .tc main_arg5) by unwritten opsEdges).trans rfl
theorem arg6_atEdges (c : Dev nD) : atEdges m c (Proc.devRef .tc main_arg6) = (m ((c.tc : Thread nD τ).loc main_arg6)) :=
  (show after opsEdges (launchContents m c) (Proc.devRef .tc main_arg6) = launchContents m c (Proc.devRef .tc main_arg6) by unwritten opsEdges).trans rfl
theorem arg7_atEdges (c : Dev nD) : atEdges m c (Proc.devRef .tc main_arg7) = (m ((c.tc : Thread nD τ).loc main_arg7)) :=
  (show after opsEdges (launchContents m c) (Proc.devRef .tc main_arg7) = launchContents m c (Proc.devRef .tc main_arg7) by unwritten opsEdges).trans rfl
theorem arg8_atEdges (c : Dev nD) : atEdges m c (Proc.devRef .tc main_arg8) = (m ((c.tc : Thread nD τ).loc main_arg8)) :=
  (show after opsEdges (launchContents m c) (Proc.devRef .tc main_arg8) = launchContents m c (Proc.devRef .tc main_arg8) by unwritten opsEdges).trans rfl

/-! ## A buffer that a convolution does not write -/
theorem keep_main_v3_atConv0 (c : Dev nD) : atConv0 m c (Proc.devRef .tc main_v3) = atEdges m c (Proc.devRef .tc main_v3) := by
  show after opsConv0 (atEdges m c) (Proc.devRef .tc main_v3) = _
  unwritten opsConv0
theorem keep_main_v6_atConv0 (c : Dev nD) : atConv0 m c (Proc.devRef .tc main_v6) = atEdges m c (Proc.devRef .tc main_v6) := by
  show after opsConv0 (atEdges m c) (Proc.devRef .tc main_v6) = _
  unwritten opsConv0
theorem keep_main_arg0_atConv0 (c : Dev nD) : atConv0 m c (Proc.devRef .tc main_arg0) = atEdges m c (Proc.devRef .tc main_arg0) := by
  show after opsConv0 (atEdges m c) (Proc.devRef .tc main_arg0) = _
  unwritten opsConv0
theorem keep_main_arg1_atConv0 (c : Dev nD) : atConv0 m c (Proc.devRef .tc main_arg1) = atEdges m c (Proc.devRef .tc main_arg1) := by
  show after opsConv0 (atEdges m c) (Proc.devRef .tc main_arg1) = _
  unwritten opsConv0
theorem keep_main_arg2_atConv0 (c : Dev nD) : atConv0 m c (Proc.devRef .tc main_arg2) = atEdges m c (Proc.devRef .tc main_arg2) := by
  show after opsConv0 (atEdges m c) (Proc.devRef .tc main_arg2) = _
  unwritten opsConv0
theorem keep_main_arg3_atConv0 (c : Dev nD) : atConv0 m c (Proc.devRef .tc main_arg3) = atEdges m c (Proc.devRef .tc main_arg3) := by
  show after opsConv0 (atEdges m c) (Proc.devRef .tc main_arg3) = _
  unwritten opsConv0
theorem keep_main_arg4_atConv0 (c : Dev nD) : atConv0 m c (Proc.devRef .tc main_arg4) = atEdges m c (Proc.devRef .tc main_arg4) := by
  show after opsConv0 (atEdges m c) (Proc.devRef .tc main_arg4) = _
  unwritten opsConv0
theorem keep_main_arg5_atConv0 (c : Dev nD) : atConv0 m c (Proc.devRef .tc main_arg5) = atEdges m c (Proc.devRef .tc main_arg5) := by
  show after opsConv0 (atEdges m c) (Proc.devRef .tc main_arg5) = _
  unwritten opsConv0
theorem keep_main_arg6_atConv0 (c : Dev nD) : atConv0 m c (Proc.devRef .tc main_arg6) = atEdges m c (Proc.devRef .tc main_arg6) := by
  show after opsConv0 (atEdges m c) (Proc.devRef .tc main_arg6) = _
  unwritten opsConv0
theorem keep_main_arg7_atConv0 (c : Dev nD) : atConv0 m c (Proc.devRef .tc main_arg7) = atEdges m c (Proc.devRef .tc main_arg7) := by
  show after opsConv0 (atEdges m c) (Proc.devRef .tc main_arg7) = _
  unwritten opsConv0
theorem keep_main_arg8_atConv0 (c : Dev nD) : atConv0 m c (Proc.devRef .tc main_arg8) = atEdges m c (Proc.devRef .tc main_arg8) := by
  show after opsConv0 (atEdges m c) (Proc.devRef .tc main_arg8) = _
  unwritten opsConv0
theorem keep_main_v3_atConv1 (c : Dev nD) : atConv1 m c (Proc.devRef .tc main_v3) = atConv0 m c (Proc.devRef .tc main_v3) := by
  show after opsConv1 (atConv0 m c) (Proc.devRef .tc main_v3) = _
  unwritten opsConv1
theorem keep_main_v6_atConv1 (c : Dev nD) : atConv1 m c (Proc.devRef .tc main_v6) = atConv0 m c (Proc.devRef .tc main_v6) := by
  show after opsConv1 (atConv0 m c) (Proc.devRef .tc main_v6) = _
  unwritten opsConv1
theorem keep_main_arg0_atConv1 (c : Dev nD) : atConv1 m c (Proc.devRef .tc main_arg0) = atConv0 m c (Proc.devRef .tc main_arg0) := by
  show after opsConv1 (atConv0 m c) (Proc.devRef .tc main_arg0) = _
  unwritten opsConv1
theorem keep_main_arg1_atConv1 (c : Dev nD) : atConv1 m c (Proc.devRef .tc main_arg1) = atConv0 m c (Proc.devRef .tc main_arg1) := by
  show after opsConv1 (atConv0 m c) (Proc.devRef .tc main_arg1) = _
  unwritten opsConv1
theorem keep_main_arg2_atConv1 (c : Dev nD) : atConv1 m c (Proc.devRef .tc main_arg2) = atConv0 m c (Proc.devRef .tc main_arg2) := by
  show after opsConv1 (atConv0 m c) (Proc.devRef .tc main_arg2) = _
  unwritten opsConv1
theorem keep_main_arg3_atConv1 (c : Dev nD) : atConv1 m c (Proc.devRef .tc main_arg3) = atConv0 m c (Proc.devRef .tc main_arg3) := by
  show after opsConv1 (atConv0 m c) (Proc.devRef .tc main_arg3) = _
  unwritten opsConv1
theorem keep_main_arg4_atConv1 (c : Dev nD) : atConv1 m c (Proc.devRef .tc main_arg4) = atConv0 m c (Proc.devRef .tc main_arg4) := by
  show after opsConv1 (atConv0 m c) (Proc.devRef .tc main_arg4) = _
  unwritten opsConv1
theorem keep_main_arg5_atConv1 (c : Dev nD) : atConv1 m c (Proc.devRef .tc main_arg5) = atConv0 m c (Proc.devRef .tc main_arg5) := by
  show after opsConv1 (atConv0 m c) (Proc.devRef .tc main_arg5) = _
  unwritten opsConv1
theorem keep_main_arg6_atConv1 (c : Dev nD) : atConv1 m c (Proc.devRef .tc main_arg6) = atConv0 m c (Proc.devRef .tc main_arg6) := by
  show after opsConv1 (atConv0 m c) (Proc.devRef .tc main_arg6) = _
  unwritten opsConv1
theorem keep_main_arg7_atConv1 (c : Dev nD) : atConv1 m c (Proc.devRef .tc main_arg7) = atConv0 m c (Proc.devRef .tc main_arg7) := by
  show after opsConv1 (atConv0 m c) (Proc.devRef .tc main_arg7) = _
  unwritten opsConv1
theorem keep_main_arg8_atConv1 (c : Dev nD) : atConv1 m c (Proc.devRef .tc main_arg8) = atConv0 m c (Proc.devRef .tc main_arg8) := by
  show after opsConv1 (atConv0 m c) (Proc.devRef .tc main_arg8) = _
  unwritten opsConv1
theorem keep_main_v3_atConv2 (c : Dev nD) : atConv2 m c (Proc.devRef .tc main_v3) = atConv1 m c (Proc.devRef .tc main_v3) := by
  show after opsConv2 (atConv1 m c) (Proc.devRef .tc main_v3) = _
  unwritten opsConv2
theorem keep_main_v6_atConv2 (c : Dev nD) : atConv2 m c (Proc.devRef .tc main_v6) = atConv1 m c (Proc.devRef .tc main_v6) := by
  show after opsConv2 (atConv1 m c) (Proc.devRef .tc main_v6) = _
  unwritten opsConv2
theorem keep_main_arg0_atConv2 (c : Dev nD) : atConv2 m c (Proc.devRef .tc main_arg0) = atConv1 m c (Proc.devRef .tc main_arg0) := by
  show after opsConv2 (atConv1 m c) (Proc.devRef .tc main_arg0) = _
  unwritten opsConv2
theorem keep_main_arg1_atConv2 (c : Dev nD) : atConv2 m c (Proc.devRef .tc main_arg1) = atConv1 m c (Proc.devRef .tc main_arg1) := by
  show after opsConv2 (atConv1 m c) (Proc.devRef .tc main_arg1) = _
  unwritten opsConv2
theorem keep_main_arg2_atConv2 (c : Dev nD) : atConv2 m c (Proc.devRef .tc main_arg2) = atConv1 m c (Proc.devRef .tc main_arg2) := by
  show after opsConv2 (atConv1 m c) (Proc.devRef .tc main_arg2) = _
  unwritten opsConv2
theorem keep_main_arg3_atConv2 (c : Dev nD) : atConv2 m c (Proc.devRef .tc main_arg3) = atConv1 m c (Proc.devRef .tc main_arg3) := by
  show after opsConv2 (atConv1 m c) (Proc.devRef .tc main_arg3) = _
  unwritten opsConv2
theorem keep_main_arg4_atConv2 (c : Dev nD) : atConv2 m c (Proc.devRef .tc main_arg4) = atConv1 m c (Proc.devRef .tc main_arg4) := by
  show after opsConv2 (atConv1 m c) (Proc.devRef .tc main_arg4) = _
  unwritten opsConv2
theorem keep_main_arg5_atConv2 (c : Dev nD) : atConv2 m c (Proc.devRef .tc main_arg5) = atConv1 m c (Proc.devRef .tc main_arg5) := by
  show after opsConv2 (atConv1 m c) (Proc.devRef .tc main_arg5) = _
  unwritten opsConv2
theorem keep_main_arg6_atConv2 (c : Dev nD) : atConv2 m c (Proc.devRef .tc main_arg6) = atConv1 m c (Proc.devRef .tc main_arg6) := by
  show after opsConv2 (atConv1 m c) (Proc.devRef .tc main_arg6) = _
  unwritten opsConv2
theorem keep_main_arg7_atConv2 (c : Dev nD) : atConv2 m c (Proc.devRef .tc main_arg7) = atConv1 m c (Proc.devRef .tc main_arg7) := by
  show after opsConv2 (atConv1 m c) (Proc.devRef .tc main_arg7) = _
  unwritten opsConv2
theorem keep_main_arg8_atConv2 (c : Dev nD) : atConv2 m c (Proc.devRef .tc main_arg8) = atConv1 m c (Proc.devRef .tc main_arg8) := by
  show after opsConv2 (atConv1 m c) (Proc.devRef .tc main_arg8) = _
  unwritten opsConv2
theorem keep_main_v3_atConv3 (c : Dev nD) : atConv3 m c (Proc.devRef .tc main_v3) = atConv2 m c (Proc.devRef .tc main_v3) := by
  show after opsConv3 (atConv2 m c) (Proc.devRef .tc main_v3) = _
  unwritten opsConv3
theorem keep_main_v6_atConv3 (c : Dev nD) : atConv3 m c (Proc.devRef .tc main_v6) = atConv2 m c (Proc.devRef .tc main_v6) := by
  show after opsConv3 (atConv2 m c) (Proc.devRef .tc main_v6) = _
  unwritten opsConv3
theorem keep_main_arg0_atConv3 (c : Dev nD) : atConv3 m c (Proc.devRef .tc main_arg0) = atConv2 m c (Proc.devRef .tc main_arg0) := by
  show after opsConv3 (atConv2 m c) (Proc.devRef .tc main_arg0) = _
  unwritten opsConv3
theorem keep_main_arg1_atConv3 (c : Dev nD) : atConv3 m c (Proc.devRef .tc main_arg1) = atConv2 m c (Proc.devRef .tc main_arg1) := by
  show after opsConv3 (atConv2 m c) (Proc.devRef .tc main_arg1) = _
  unwritten opsConv3
theorem keep_main_arg2_atConv3 (c : Dev nD) : atConv3 m c (Proc.devRef .tc main_arg2) = atConv2 m c (Proc.devRef .tc main_arg2) := by
  show after opsConv3 (atConv2 m c) (Proc.devRef .tc main_arg2) = _
  unwritten opsConv3
theorem keep_main_arg3_atConv3 (c : Dev nD) : atConv3 m c (Proc.devRef .tc main_arg3) = atConv2 m c (Proc.devRef .tc main_arg3) := by
  show after opsConv3 (atConv2 m c) (Proc.devRef .tc main_arg3) = _
  unwritten opsConv3
theorem keep_main_arg4_atConv3 (c : Dev nD) : atConv3 m c (Proc.devRef .tc main_arg4) = atConv2 m c (Proc.devRef .tc main_arg4) := by
  show after opsConv3 (atConv2 m c) (Proc.devRef .tc main_arg4) = _
  unwritten opsConv3
theorem keep_main_arg5_atConv3 (c : Dev nD) : atConv3 m c (Proc.devRef .tc main_arg5) = atConv2 m c (Proc.devRef .tc main_arg5) := by
  show after opsConv3 (atConv2 m c) (Proc.devRef .tc main_arg5) = _
  unwritten opsConv3
theorem keep_main_arg6_atConv3 (c : Dev nD) : atConv3 m c (Proc.devRef .tc main_arg6) = atConv2 m c (Proc.devRef .tc main_arg6) := by
  show after opsConv3 (atConv2 m c) (Proc.devRef .tc main_arg6) = _
  unwritten opsConv3
theorem keep_main_arg7_atConv3 (c : Dev nD) : atConv3 m c (Proc.devRef .tc main_arg7) = atConv2 m c (Proc.devRef .tc main_arg7) := by
  show after opsConv3 (atConv2 m c) (Proc.devRef .tc main_arg7) = _
  unwritten opsConv3
theorem keep_main_arg8_atConv3 (c : Dev nD) : atConv3 m c (Proc.devRef .tc main_arg8) = atConv2 m c (Proc.devRef .tc main_arg8) := by
  show after opsConv3 (atConv2 m c) (Proc.devRef .tc main_arg8) = _
  unwritten opsConv3

/-! ## The sources, destinations and arguments at every boundary -/
theorem src_atConv0 (c : Dev nD) : atConv0 m c (Proc.devRef .tc main_v3) = src (m ((c.tc : Thread nD τ).loc main_arg4)) :=
  (keep_main_v3_atConv0 m c).trans (src_atEdges m c)
theorem dst_atConv0 (c : Dev nD) : atConv0 m c (Proc.devRef .tc main_v6) = dst (m ((c.tc : Thread nD τ).loc main_arg4)) :=
  (keep_main_v6_atConv0 m c).trans (dst_atEdges m c)
theorem arg0_atConv0 (c : Dev nD) : atConv0 m c (Proc.devRef .tc main_arg0) = (m ((c.tc : Thread nD τ).loc main_arg0)) :=
  (keep_main_arg0_atConv0 m c).trans (arg0_atEdges m c)
theorem arg1_atConv0 (c : Dev nD) : atConv0 m c (Proc.devRef .tc main_arg1) = (m ((c.tc : Thread nD τ).loc main_arg1)) :=
  (keep_main_arg1_atConv0 m c).trans (arg1_atEdges m c)
theorem arg2_atConv0 (c : Dev nD) : atConv0 m c (Proc.devRef .tc main_arg2) = (m ((c.tc : Thread nD τ).loc main_arg2)) :=
  (keep_main_arg2_atConv0 m c).trans (arg2_atEdges m c)
theorem arg3_atConv0 (c : Dev nD) : atConv0 m c (Proc.devRef .tc main_arg3) = (m ((c.tc : Thread nD τ).loc main_arg3)) :=
  (keep_main_arg3_atConv0 m c).trans (arg3_atEdges m c)
theorem arg4_atConv0 (c : Dev nD) : atConv0 m c (Proc.devRef .tc main_arg4) = (m ((c.tc : Thread nD τ).loc main_arg4)) :=
  (keep_main_arg4_atConv0 m c).trans (arg4_atEdges m c)
theorem arg5_atConv0 (c : Dev nD) : atConv0 m c (Proc.devRef .tc main_arg5) = (m ((c.tc : Thread nD τ).loc main_arg5)) :=
  (keep_main_arg5_atConv0 m c).trans (arg5_atEdges m c)
theorem arg6_atConv0 (c : Dev nD) : atConv0 m c (Proc.devRef .tc main_arg6) = (m ((c.tc : Thread nD τ).loc main_arg6)) :=
  (keep_main_arg6_atConv0 m c).trans (arg6_atEdges m c)
theorem arg7_atConv0 (c : Dev nD) : atConv0 m c (Proc.devRef .tc main_arg7) = (m ((c.tc : Thread nD τ).loc main_arg7)) :=
  (keep_main_arg7_atConv0 m c).trans (arg7_atEdges m c)
theorem arg8_atConv0 (c : Dev nD) : atConv0 m c (Proc.devRef .tc main_arg8) = (m ((c.tc : Thread nD τ).loc main_arg8)) :=
  (keep_main_arg8_atConv0 m c).trans (arg8_atEdges m c)
theorem src_atConv1 (c : Dev nD) : atConv1 m c (Proc.devRef .tc main_v3) = src (m ((c.tc : Thread nD τ).loc main_arg4)) :=
  (keep_main_v3_atConv1 m c).trans (src_atConv0 m c)
theorem dst_atConv1 (c : Dev nD) : atConv1 m c (Proc.devRef .tc main_v6) = dst (m ((c.tc : Thread nD τ).loc main_arg4)) :=
  (keep_main_v6_atConv1 m c).trans (dst_atConv0 m c)
theorem arg0_atConv1 (c : Dev nD) : atConv1 m c (Proc.devRef .tc main_arg0) = (m ((c.tc : Thread nD τ).loc main_arg0)) :=
  (keep_main_arg0_atConv1 m c).trans (arg0_atConv0 m c)
theorem arg1_atConv1 (c : Dev nD) : atConv1 m c (Proc.devRef .tc main_arg1) = (m ((c.tc : Thread nD τ).loc main_arg1)) :=
  (keep_main_arg1_atConv1 m c).trans (arg1_atConv0 m c)
theorem arg2_atConv1 (c : Dev nD) : atConv1 m c (Proc.devRef .tc main_arg2) = (m ((c.tc : Thread nD τ).loc main_arg2)) :=
  (keep_main_arg2_atConv1 m c).trans (arg2_atConv0 m c)
theorem arg3_atConv1 (c : Dev nD) : atConv1 m c (Proc.devRef .tc main_arg3) = (m ((c.tc : Thread nD τ).loc main_arg3)) :=
  (keep_main_arg3_atConv1 m c).trans (arg3_atConv0 m c)
theorem arg4_atConv1 (c : Dev nD) : atConv1 m c (Proc.devRef .tc main_arg4) = (m ((c.tc : Thread nD τ).loc main_arg4)) :=
  (keep_main_arg4_atConv1 m c).trans (arg4_atConv0 m c)
theorem arg5_atConv1 (c : Dev nD) : atConv1 m c (Proc.devRef .tc main_arg5) = (m ((c.tc : Thread nD τ).loc main_arg5)) :=
  (keep_main_arg5_atConv1 m c).trans (arg5_atConv0 m c)
theorem arg6_atConv1 (c : Dev nD) : atConv1 m c (Proc.devRef .tc main_arg6) = (m ((c.tc : Thread nD τ).loc main_arg6)) :=
  (keep_main_arg6_atConv1 m c).trans (arg6_atConv0 m c)
theorem arg7_atConv1 (c : Dev nD) : atConv1 m c (Proc.devRef .tc main_arg7) = (m ((c.tc : Thread nD τ).loc main_arg7)) :=
  (keep_main_arg7_atConv1 m c).trans (arg7_atConv0 m c)
theorem arg8_atConv1 (c : Dev nD) : atConv1 m c (Proc.devRef .tc main_arg8) = (m ((c.tc : Thread nD τ).loc main_arg8)) :=
  (keep_main_arg8_atConv1 m c).trans (arg8_atConv0 m c)
theorem src_atConv2 (c : Dev nD) : atConv2 m c (Proc.devRef .tc main_v3) = src (m ((c.tc : Thread nD τ).loc main_arg4)) :=
  (keep_main_v3_atConv2 m c).trans (src_atConv1 m c)
theorem dst_atConv2 (c : Dev nD) : atConv2 m c (Proc.devRef .tc main_v6) = dst (m ((c.tc : Thread nD τ).loc main_arg4)) :=
  (keep_main_v6_atConv2 m c).trans (dst_atConv1 m c)
theorem arg0_atConv2 (c : Dev nD) : atConv2 m c (Proc.devRef .tc main_arg0) = (m ((c.tc : Thread nD τ).loc main_arg0)) :=
  (keep_main_arg0_atConv2 m c).trans (arg0_atConv1 m c)
theorem arg1_atConv2 (c : Dev nD) : atConv2 m c (Proc.devRef .tc main_arg1) = (m ((c.tc : Thread nD τ).loc main_arg1)) :=
  (keep_main_arg1_atConv2 m c).trans (arg1_atConv1 m c)
theorem arg2_atConv2 (c : Dev nD) : atConv2 m c (Proc.devRef .tc main_arg2) = (m ((c.tc : Thread nD τ).loc main_arg2)) :=
  (keep_main_arg2_atConv2 m c).trans (arg2_atConv1 m c)
theorem arg3_atConv2 (c : Dev nD) : atConv2 m c (Proc.devRef .tc main_arg3) = (m ((c.tc : Thread nD τ).loc main_arg3)) :=
  (keep_main_arg3_atConv2 m c).trans (arg3_atConv1 m c)
theorem arg4_atConv2 (c : Dev nD) : atConv2 m c (Proc.devRef .tc main_arg4) = (m ((c.tc : Thread nD τ).loc main_arg4)) :=
  (keep_main_arg4_atConv2 m c).trans (arg4_atConv1 m c)
theorem arg5_atConv2 (c : Dev nD) : atConv2 m c (Proc.devRef .tc main_arg5) = (m ((c.tc : Thread nD τ).loc main_arg5)) :=
  (keep_main_arg5_atConv2 m c).trans (arg5_atConv1 m c)
theorem arg6_atConv2 (c : Dev nD) : atConv2 m c (Proc.devRef .tc main_arg6) = (m ((c.tc : Thread nD τ).loc main_arg6)) :=
  (keep_main_arg6_atConv2 m c).trans (arg6_atConv1 m c)
theorem arg7_atConv2 (c : Dev nD) : atConv2 m c (Proc.devRef .tc main_arg7) = (m ((c.tc : Thread nD τ).loc main_arg7)) :=
  (keep_main_arg7_atConv2 m c).trans (arg7_atConv1 m c)
theorem arg8_atConv2 (c : Dev nD) : atConv2 m c (Proc.devRef .tc main_arg8) = (m ((c.tc : Thread nD τ).loc main_arg8)) :=
  (keep_main_arg8_atConv2 m c).trans (arg8_atConv1 m c)
/-- Argument 0 ends as launched. -/
theorem arg0_end (c : Dev nD) : atConv3 m c (Proc.devRef .tc main_arg0) = (m ((c.tc : Thread nD τ).loc main_arg0)) :=
  (keep_main_arg0_atConv3 m c).trans (arg0_atConv2 m c)
/-- Argument 1 ends as launched. -/
theorem arg1_end (c : Dev nD) : atConv3 m c (Proc.devRef .tc main_arg1) = (m ((c.tc : Thread nD τ).loc main_arg1)) :=
  (keep_main_arg1_atConv3 m c).trans (arg1_atConv2 m c)
/-- Argument 2 ends as launched. -/
theorem arg2_end (c : Dev nD) : atConv3 m c (Proc.devRef .tc main_arg2) = (m ((c.tc : Thread nD τ).loc main_arg2)) :=
  (keep_main_arg2_atConv3 m c).trans (arg2_atConv2 m c)
/-- Argument 3 ends as launched. -/
theorem arg3_end (c : Dev nD) : atConv3 m c (Proc.devRef .tc main_arg3) = (m ((c.tc : Thread nD τ).loc main_arg3)) :=
  (keep_main_arg3_atConv3 m c).trans (arg3_atConv2 m c)
/-- Argument 4 ends as launched. -/
theorem arg4_end (c : Dev nD) : atConv3 m c (Proc.devRef .tc main_arg4) = (m ((c.tc : Thread nD τ).loc main_arg4)) :=
  (keep_main_arg4_atConv3 m c).trans (arg4_atConv2 m c)
/-- Argument 5 ends as launched. -/
theorem arg5_end (c : Dev nD) : atConv3 m c (Proc.devRef .tc main_arg5) = (m ((c.tc : Thread nD τ).loc main_arg5)) :=
  (keep_main_arg5_atConv3 m c).trans (arg5_atConv2 m c)
/-- Argument 6 ends as launched. -/
theorem arg6_end (c : Dev nD) : atConv3 m c (Proc.devRef .tc main_arg6) = (m ((c.tc : Thread nD τ).loc main_arg6)) :=
  (keep_main_arg6_atConv3 m c).trans (arg6_atConv2 m c)
/-- Argument 7 ends as launched. -/
theorem arg7_end (c : Dev nD) : atConv3 m c (Proc.devRef .tc main_arg7) = (m ((c.tc : Thread nD τ).loc main_arg7)) :=
  (keep_main_arg7_atConv3 m c).trans (arg7_atConv2 m c)
/-- Argument 8 ends as launched. -/
theorem arg8_end (c : Dev nD) : atConv3 m c (Proc.devRef .tc main_arg8) = (m ((c.tc : Thread nD τ).loc main_arg8)) :=
  (keep_main_arg8_atConv3 m c).trans (arg8_atConv2 m c)

/-! ## The four convolutions -/

/-- Right after its own 54 operations, result 0 is the convolution of its feature array. -/
theorem conv0_own (c : Dev nD) (h : S128.ShapeCasts S1x128) :
    atConv0 m c (Proc.devRef .tc main_v47) = plusBiasRow (aggregate (linear (m ((c.tc : Thread nD τ).loc main_arg0)) (m ((c.tc : Thread nD τ).loc main_arg5))) (m ((c.tc : Thread nD τ).loc main_arg4))) (shapeCast S1x128 (m ((c.tc : Thread nD τ).loc main_arg6)) h) := by
  have h3 := src_atEdges m c
  have h6 := dst_atEdges m c
  have hx := arg0_atEdges m c
  have hw := arg5_atEdges m c
  have hb := arg6_atEdges m c
  have key : atConv0 m c (Proc.devRef .tc main_v47)
      = addf (F := Ideal) (φ := .f32) (aggregate (Host.dotGeneral (F := Ideal) (φ₁ := .f32) (φ₂ := .f32) dot_S50000x128_S128x128_S50000x128_1_0_0_1_n_n none (m ((c.tc : Thread nD τ).loc main_arg0)) (transpose S128x128 [1, 0] (m ((c.tc : Thread nD τ).loc main_arg5)) transposes_S128x128_S128x128_1_0)) (m ((c.tc : Thread nD τ).loc main_arg4))) (broadcastInDim S50000x128 ![0, 1] bcast_S1x128_S50000x128_0_1 (broadcastInDim S1x128 ![1] bcast_S128_S1x128_1 (m ((c.tc : Thread nD τ).loc main_arg6) : BiasVec))) := by
    show after opsConv0 (atEdges m c) (Proc.devRef .tc main_v47) = _
    generalize atEdges m c = V at h3 h6 hx hw hb ⊢
    simp only [opsConv0, where0_copy, where0_spread, where0_choose]
    after_results_simp
    rw [h3, h6, hx, hw, hb]
    unfold Stages.aggregate Stages.norm Stages.factor Stages.positive Stages.invSqrt Stages.zeroScalar Stages.degree Stages.wrap
    generalize src (m ((c.tc : Thread nD τ).loc main_arg4)) = s
    generalize dst (m ((c.tc : Thread nD τ).loc main_arg4)) = d
    rfl
  rw [transform (m ((c.tc : Thread nD τ).loc main_arg0)) (m ((c.tc : Thread nD τ).loc main_arg5))] at key
  exact key.trans (addBias (aggregate (linear (m ((c.tc : Thread nD τ).loc main_arg0)) (m ((c.tc : Thread nD τ).loc main_arg5))) (m ((c.tc : Thread nD τ).loc main_arg4))) (m ((c.tc : Thread nD τ).loc main_arg6)) h)
/-- Result 0 at the end of the run. -/
theorem out0 (c : Dev nD) (h : S128.ShapeCasts S1x128) :
    atConv3 m c (Proc.devRef .tc main_v47) = plusBiasRow (aggregate (linear (m ((c.tc : Thread nD τ).loc main_arg0)) (m ((c.tc : Thread nD τ).loc main_arg5))) (m ((c.tc : Thread nD τ).loc main_arg4))) (shapeCast S1x128 (m ((c.tc : Thread nD τ).loc main_arg6)) h) :=
  calc atConv3 m c (Proc.devRef .tc main_v47)
    _ = atConv2 m c (Proc.devRef .tc main_v47) := by
      show after opsConv3 (atConv2 m c) (Proc.devRef .tc main_v47) = _
      unwritten opsConv3
    _ = atConv1 m c (Proc.devRef .tc main_v47) := by
      show after opsConv2 (atConv1 m c) (Proc.devRef .tc main_v47) = _
      unwritten opsConv2
    _ = atConv0 m c (Proc.devRef .tc main_v47) := by
      show after opsConv1 (atConv0 m c) (Proc.devRef .tc main_v47) = _
      unwritten opsConv1
    _ = _ := conv0_own m c h

/-- Right after its own 54 operations, result 1 is the convolution of its feature array. -/
theorem conv1_own (c : Dev nD) (h : S128.ShapeCasts S1x128) :
    atConv1 m c (Proc.devRef .tc main_v88) = plusBiasRow (aggregate (linear (m ((c.tc : Thread nD τ).loc main_arg1)) (m ((c.tc : Thread nD τ).loc main_arg7))) (m ((c.tc : Thread nD τ).loc main_arg4))) (shapeCast S1x128 (m ((c.tc : Thread nD τ).loc main_arg8)) h) := by
  have h3 := src_atConv0 m c
  have h6 := dst_atConv0 m c
  have hx := arg1_atConv0 m c
  have hw := arg7_atConv0 m c
  have hb := arg8_atConv0 m c
  have key : atConv1 m c (Proc.devRef .tc main_v88)
      = addf (F := Ideal) (φ := .f32) (aggregate (Host.dotGeneral (F := Ideal) (φ₁ := .f32) (φ₂ := .f32) dot_S50000x128_S128x128_S50000x128_1_0_0_1_n_n none (m ((c.tc : Thread nD τ).loc main_arg1)) (transpose S128x128 [1, 0] (m ((c.tc : Thread nD τ).loc main_arg7)) transposes_S128x128_S128x128_1_0)) (m ((c.tc : Thread nD τ).loc main_arg4))) (broadcastInDim S50000x128 ![0, 1] bcast_S1x128_S50000x128_0_1 (broadcastInDim S1x128 ![1] bcast_S128_S1x128_1 (m ((c.tc : Thread nD τ).loc main_arg8) : BiasVec))) := by
    show after opsConv1 (atConv0 m c) (Proc.devRef .tc main_v88) = _
    generalize atConv0 m c = V at h3 h6 hx hw hb ⊢
    simp only [opsConv1, where1_copy, where1_spread, where1_choose]
    after_results_simp
    rw [h3, h6, hx, hw, hb]
    unfold Stages.aggregate Stages.norm Stages.factor Stages.positive Stages.invSqrt Stages.zeroScalar Stages.degree Stages.wrap
    generalize src (m ((c.tc : Thread nD τ).loc main_arg4)) = s
    generalize dst (m ((c.tc : Thread nD τ).loc main_arg4)) = d
    rfl
  rw [transform (m ((c.tc : Thread nD τ).loc main_arg1)) (m ((c.tc : Thread nD τ).loc main_arg7))] at key
  exact key.trans (addBias (aggregate (linear (m ((c.tc : Thread nD τ).loc main_arg1)) (m ((c.tc : Thread nD τ).loc main_arg7))) (m ((c.tc : Thread nD τ).loc main_arg4))) (m ((c.tc : Thread nD τ).loc main_arg8)) h)
/-- Result 1 at the end of the run. -/
theorem out1 (c : Dev nD) (h : S128.ShapeCasts S1x128) :
    atConv3 m c (Proc.devRef .tc main_v88) = plusBiasRow (aggregate (linear (m ((c.tc : Thread nD τ).loc main_arg1)) (m ((c.tc : Thread nD τ).loc main_arg7))) (m ((c.tc : Thread nD τ).loc main_arg4))) (shapeCast S1x128 (m ((c.tc : Thread nD τ).loc main_arg8)) h) :=
  calc atConv3 m c (Proc.devRef .tc main_v88)
    _ = atConv2 m c (Proc.devRef .tc main_v88) := by
      show after opsConv3 (atConv2 m c) (Proc.devRef .tc main_v88) = _
      unwritten opsConv3
    _ = atConv1 m c (Proc.devRef .tc main_v88) := by
      show after opsConv2 (atConv1 m c) (Proc.devRef .tc main_v88) = _
      unwritten opsConv2
    _ = _ := conv1_own m c h

/-- Right after its own 54 operations, result 2 is the convolution of its feature array. -/
theorem conv2_own (c : Dev nD) (h : S128.ShapeCasts S1x128) :
    atConv2 m c (Proc.devRef .tc main_v129) = plusBiasRow (aggregate (linear (m ((c.tc : Thread nD τ).loc main_arg2)) (m ((c.tc : Thread nD τ).loc main_arg5))) (m ((c.tc : Thread nD τ).loc main_arg4))) (shapeCast S1x128 (m ((c.tc : Thread nD τ).loc main_arg6)) h) := by
  have h3 := src_atConv1 m c
  have h6 := dst_atConv1 m c
  have hx := arg2_atConv1 m c
  have hw := arg5_atConv1 m c
  have hb := arg6_atConv1 m c
  have key : atConv2 m c (Proc.devRef .tc main_v129)
      = addf (F := Ideal) (φ := .f32) (aggregate (Host.dotGeneral (F := Ideal) (φ₁ := .f32) (φ₂ := .f32) dot_S50000x128_S128x128_S50000x128_1_0_0_1_n_n none (m ((c.tc : Thread nD τ).loc main_arg2)) (transpose S128x128 [1, 0] (m ((c.tc : Thread nD τ).loc main_arg5)) transposes_S128x128_S128x128_1_0)) (m ((c.tc : Thread nD τ).loc main_arg4))) (broadcastInDim S50000x128 ![0, 1] bcast_S1x128_S50000x128_0_1 (broadcastInDim S1x128 ![1] bcast_S128_S1x128_1 (m ((c.tc : Thread nD τ).loc main_arg6) : BiasVec))) := by
    show after opsConv2 (atConv1 m c) (Proc.devRef .tc main_v129) = _
    generalize atConv1 m c = V at h3 h6 hx hw hb ⊢
    simp only [opsConv2, where2_copy, where2_spread, where2_choose]
    after_results_simp
    rw [h3, h6, hx, hw, hb]
    unfold Stages.aggregate Stages.norm Stages.factor Stages.positive Stages.invSqrt Stages.zeroScalar Stages.degree Stages.wrap
    generalize src (m ((c.tc : Thread nD τ).loc main_arg4)) = s
    generalize dst (m ((c.tc : Thread nD τ).loc main_arg4)) = d
    rfl
  rw [transform (m ((c.tc : Thread nD τ).loc main_arg2)) (m ((c.tc : Thread nD τ).loc main_arg5))] at key
  exact key.trans (addBias (aggregate (linear (m ((c.tc : Thread nD τ).loc main_arg2)) (m ((c.tc : Thread nD τ).loc main_arg5))) (m ((c.tc : Thread nD τ).loc main_arg4))) (m ((c.tc : Thread nD τ).loc main_arg6)) h)
/-- Result 2 at the end of the run. -/
theorem out2 (c : Dev nD) (h : S128.ShapeCasts S1x128) :
    atConv3 m c (Proc.devRef .tc main_v129) = plusBiasRow (aggregate (linear (m ((c.tc : Thread nD τ).loc main_arg2)) (m ((c.tc : Thread nD τ).loc main_arg5))) (m ((c.tc : Thread nD τ).loc main_arg4))) (shapeCast S1x128 (m ((c.tc : Thread nD τ).loc main_arg6)) h) :=
  calc atConv3 m c (Proc.devRef .tc main_v129)
    _ = atConv2 m c (Proc.devRef .tc main_v129) := by
      show after opsConv3 (atConv2 m c) (Proc.devRef .tc main_v129) = _
      unwritten opsConv3
    _ = _ := conv2_own m c h

/-- Right after its own 54 operations, result 3 is the convolution of its feature array. -/
theorem conv3_own (c : Dev nD) (h : S128.ShapeCasts S1x128) :
    atConv3 m c (Proc.devRef .tc main_v170) = plusBiasRow (aggregate (linear (m ((c.tc : Thread nD τ).loc main_arg3)) (m ((c.tc : Thread nD τ).loc main_arg7))) (m ((c.tc : Thread nD τ).loc main_arg4))) (shapeCast S1x128 (m ((c.tc : Thread nD τ).loc main_arg8)) h) := by
  have h3 := src_atConv2 m c
  have h6 := dst_atConv2 m c
  have hx := arg3_atConv2 m c
  have hw := arg7_atConv2 m c
  have hb := arg8_atConv2 m c
  have key : atConv3 m c (Proc.devRef .tc main_v170)
      = addf (F := Ideal) (φ := .f32) (aggregate (Host.dotGeneral (F := Ideal) (φ₁ := .f32) (φ₂ := .f32) dot_S50000x128_S128x128_S50000x128_1_0_0_1_n_n none (m ((c.tc : Thread nD τ).loc main_arg3)) (transpose S128x128 [1, 0] (m ((c.tc : Thread nD τ).loc main_arg7)) transposes_S128x128_S128x128_1_0)) (m ((c.tc : Thread nD τ).loc main_arg4))) (broadcastInDim S50000x128 ![0, 1] bcast_S1x128_S50000x128_0_1 (broadcastInDim S1x128 ![1] bcast_S128_S1x128_1 (m ((c.tc : Thread nD τ).loc main_arg8) : BiasVec))) := by
    show after opsConv3 (atConv2 m c) (Proc.devRef .tc main_v170) = _
    generalize atConv2 m c = V at h3 h6 hx hw hb ⊢
    simp only [opsConv3, where3_copy, where3_spread, where3_choose]
    after_results_simp
    rw [h3, h6, hx, hw, hb]
    unfold Stages.aggregate Stages.norm Stages.factor Stages.positive Stages.invSqrt Stages.zeroScalar Stages.degree Stages.wrap
    generalize src (m ((c.tc : Thread nD τ).loc main_arg4)) = s
    generalize dst (m ((c.tc : Thread nD τ).loc main_arg4)) = d
    rfl
  rw [transform (m ((c.tc : Thread nD τ).loc main_arg3)) (m ((c.tc : Thread nD τ).loc main_arg7))] at key
  exact key.trans (addBias (aggregate (linear (m ((c.tc : Thread nD τ).loc main_arg3)) (m ((c.tc : Thread nD τ).loc main_arg7))) (m ((c.tc : Thread nD τ).loc main_arg4))) (m ((c.tc : Thread nD τ).loc main_arg8)) h)
/-- Result 3 at the end of the run. -/
theorem out3 (c : Dev nD) (h : S128.ShapeCasts S1x128) :
    atConv3 m c (Proc.devRef .tc main_v170) = plusBiasRow (aggregate (linear (m ((c.tc : Thread nD τ).loc main_arg3)) (m ((c.tc : Thread nD τ).loc main_arg7))) (m ((c.tc : Thread nD τ).loc main_arg4))) (shapeCast S1x128 (m ((c.tc : Thread nD τ).loc main_arg8)) h) :=
  conv3_own m c h

end Cert.ReferenceIdeal.Results

end
-- ==== Proof.LibTypedPlain.lean ====
/-
  An operation built over typed references is the plain operation over the same buffers.

  A typed reference carries a type beside its buffer, and an operation built over typed references applies its function
  with every operand moved out of its buffer's type into the carried type and the result moved back. When the function
  so conjugated agrees, value by value, with a function `g` stated directly on the buffers' types, the typed operation
  is the plain operation with `g`. For a literal reference the carried type is the buffer's own type, each move is
  along an equation between a type and itself, and the hypothesis is one `cast_eq` per move on a variable, in term
  mode: for a one-operand operation `fun u => (cast_eq _ _).trans (congrArg f (cast_eq _ u))`. Rewriting a list of
  operations with the resulting equations BEFORE a buffer is read through the list leaves no move standing between a
  comparison and the operation under it; comparing through the moves afterwards (by unfolding, or by a simplifier pass
  over the moves' definitions) instead walks into the definitions of whatever the operations are applied to.
-/
import Idealize.ShloMosaic.Lib.StableHlo

noncomputable section

namespace Cert.LibTypedPlain

open Idealize.ShloMosaic Idealize.ShloMosaic.TcCoe

variable {τ : Topo} {sig : RefSig} {Val : EltTy → Type}

/-- A one-operand typed operation is the plain one with any function its conjugated function agrees with. -/
theorem tunary_plain {Tx Ty : BufTy} (x : StableHlo.TRef sig Tx) (y : StableHlo.TRef sig Ty)
    (f : Tx.Contents Val → Ty.Contents Val) (g : x.ref.ty.Contents Val → y.ref.ty.Contents Val)
    (h : ∀ u, y.toBuf (f (x.ofBuf u)) = g u) :
    StableHlo.TRef.unary (τ := τ) x y f
      = StableHlo.unary x.ref y.ref g (StableHlo.TRef.dev (τ := τ) x) (StableHlo.TRef.dev (τ := τ) y) :=
  congrArg (fun k => StableHlo.unary x.ref y.ref k (StableHlo.TRef.dev (τ := τ) x) (StableHlo.TRef.dev (τ := τ) y)) (funext h)

/-- A two-operand typed operation is the plain one with any function its conjugated function agrees with. -/
theorem tbinary_plain {Ta Tb Ty : BufTy} (a : StableHlo.TRef sig Ta) (b : StableHlo.TRef sig Tb) (y : StableHlo.TRef sig Ty)
    (f : Ta.Contents Val → Tb.Contents Val → Ty.Contents Val)
    (g : a.ref.ty.Contents Val → b.ref.ty.Contents Val → y.ref.ty.Contents Val)
    (h : ∀ u v, y.toBuf (f (a.ofBuf u) (b.ofBuf v)) = g u v) :
    StableHlo.TRef.binary (τ := τ) a b y f
      = StableHlo.binary a.ref b.ref y.ref g (StableHlo.TRef.dev (τ := τ) a) (StableHlo.TRef.dev (τ := τ) b)
          (StableHlo.TRef.dev (τ := τ) y) :=
  congrArg (fun k => StableHlo.binary a.ref b.ref y.ref k (StableHlo.TRef.dev (τ := τ) a) (StableHlo.TRef.dev (τ := τ) b)
      (StableHlo.TRef.dev (τ := τ) y)) (funext fun u => funext fun v => h u v)

/-- A three-operand typed operation (a select) is the plain one with any function its conjugated function agrees with. -/
theorem tternary_plain {Tc Ta Tb Ty : BufTy} (c : StableHlo.TRef sig Tc) (a : StableHlo.TRef sig Ta) (b : StableHlo.TRef sig Tb)
    (y : StableHlo.TRef sig Ty) (f : Tc.Contents Val → Ta.Contents Val → Tb.Contents Val → Ty.Contents Val)
    (g : c.ref.ty.Contents Val → a.ref.ty.Contents Val → b.ref.ty.Contents Val → y.ref.ty.Contents Val)
    (h : ∀ w u v, y.toBuf (f (c.ofBuf w) (a.ofBuf u) (b.ofBuf v)) = g w u v) :
    StableHlo.TRef.ternary (τ := τ) c a b y f
      = StableHlo.ternary c.ref a.ref b.ref y.ref g (StableHlo.TRef.dev (τ := τ) c) (StableHlo.TRef.dev (τ := τ) a)
          (StableHlo.TRef.dev (τ := τ) b) (StableHlo.TRef.dev (τ := τ) y) :=
  congrArg (fun k => StableHlo.ternary c.ref a.ref b.ref y.ref k (StableHlo.TRef.dev (τ := τ) c) (StableHlo.TRef.dev (τ := τ) a)
      (StableHlo.TRef.dev (τ := τ) b) (StableHlo.TRef.dev (τ := τ) y)) (funext fun w => funext fun u => funext fun v => h w u v)

end Cert.LibTypedPlain

end
-- ==== Proof.lean ====
/-
  The certificate of a two-real-two-imaginary graph-convolution layer against its jnp reference.

  Each of the four results is one graph convolution: the feature transform h = x * w^T of every node, the message
  passing over the edges with a self-loop per node (gather the rows of h by source, scale by the symmetric degree
  normalisation, add into the destination), and the bias added to every row. The kernel program computes the feature
  transform and the bias step in pallas calls that walk the 50000 nodes in 10 blocks of 5000 rows, and the message
  passing, like the reference, in host operations; it computes the edge normalisation once where the reference computes
  it once per result.

  On the extended reals both programs therefore compute, for each result, `plusBiasRow (aggregate (linear x w) e) b`:
  a row-blocked product with the transposed weights is the whole product, because a row of the product depends on that
  row of the features only; the message passing is the same operations on both sides and is never opened; the bias held
  as a row and repeated down a block is the bias broadcast to all nodes. No law that needs finite inputs is used: the two
  sides agree entry by entry as sums and products in the same order, so the precondition is not opened.

  The kernel's frames are the generated ones. The idealization rewrote nothing, so the kernel and its idealization are
  the same text and the preservation claim is trivial. The reference has no pallas call: its frame is its run with the
  results dropped.
-/
import proofs.«159419_j31293131719204_1_alg».proof.Defs
import proofs.«159419_j31293131719204_1_alg».proof.Proof.Gen.Kernel
import proofs.«159419_j31293131719204_1_alg».proof.Proof.Gen.Kernel.Frame
import proofs.«159419_j31293131719204_1_alg».proof.Proof.Gen.KernelIdeal
import proofs.«159419_j31293131719204_1_alg».proof.Proof.Gen.KernelIdeal.Frame
import proofs.«159419_j31293131719204_1_alg».proof.Proof.Gen.ReferenceIdeal
import proofs.«159419_j31293131719204_1_alg».proof.Proof.Gen.Pre_finite_inputs
import proofs.«159419_j31293131719204_1_alg».proof.Proof.KernelRun
import proofs.«159419_j31293131719204_1_alg».proof.Proof.KernelValue
import proofs.«159419_j31293131719204_1_alg».proof.Proof.ReferenceRun
import proofs.«159419_j31293131719204_1_alg».proof.Proof.ReferenceValue
import proofs.«159419_j31293131719204_1_alg».proof.Proof.LibTypedPlain
import Idealize.ShloMosaic.Adequacy
import Idealize.ShloMosaic.Init

set_option maxRecDepth 16384

noncomputable section

namespace Cert.Proof

open Idealize.ShloMosaic Idealize.ShloMosaic.TcCoe Idealize.SL.Sem Cert.LayerSpec

theorem frame_kernel : Cert.frame_Kernel := fun m ρ _ => Cert.Kernel.Gen.frame m ρ

theorem frame_kernelIdeal : Cert.frame_KernelIdeal := fun m ρ _ => Cert.KernelIdeal.Gen.frame m ρ

/-- The reference's run with the results dropped: no operation writes an argument. -/
theorem frame_referenceIdeal : Cert.frame_ReferenceIdeal := fun m ρ _ =>
  (θ_run Cert.ReferenceIdeal.defs _ _).mono (fun r h c =>
    ⟨(h c _).trans (Cert.ReferenceIdeal.Results.arg0_end m c), (h c _).trans (Cert.ReferenceIdeal.Results.arg1_end m c),
     (h c _).trans (Cert.ReferenceIdeal.Results.arg2_end m c), (h c _).trans (Cert.ReferenceIdeal.Results.arg3_end m c),
     (h c _).trans (Cert.ReferenceIdeal.Results.arg4_end m c), (h c _).trans (Cert.ReferenceIdeal.Results.arg5_end m c),
     (h c _).trans (Cert.ReferenceIdeal.Results.arg6_end m c), (h c _).trans (Cert.ReferenceIdeal.Results.arg7_end m c),
     (h c _).trans (Cert.ReferenceIdeal.Results.arg8_end m c)⟩)
    (Cert.ReferenceIdeal.HostRun.run (F := Ideal) m ρ)

/-- The idealization rewrote no operation. -/
theorem preserves : Cert.preserves_Kernel_KernelIdeal := trivial

/-- Both programs end with each result at the convolution of its feature array, as one function of the arguments. -/
theorem algebraic : Cert.algebraic_KernelIdeal_ReferenceIdeal := by
  intro m ρ m' ρ' _ hagree
  refine ⟨fun c => plusBiasRow (Cert.ReferenceIdeal.Stages.aggregate (linear (m ((c.tc : Thread Cert.KernelIdeal.nD Cert.KernelIdeal.τ).loc Cert.KernelIdeal.main_arg0)) (m ((c.tc : Thread Cert.KernelIdeal.nD Cert.KernelIdeal.τ).loc Cert.KernelIdeal.main_arg5))) (m ((c.tc : Thread Cert.KernelIdeal.nD Cert.KernelIdeal.τ).loc Cert.KernelIdeal.main_arg4))) (shapeCast Cert.KernelIdeal.S1x128 (m ((c.tc : Thread Cert.KernelIdeal.nD Cert.KernelIdeal.τ).loc Cert.KernelIdeal.main_arg6)) Cert.KernelIdeal.Facts₀.shapeCasts_S128_S1x128),
    fun c => plusBiasRow (Cert.ReferenceIdeal.Stages.aggregate (linear (m ((c.tc : Thread Cert.KernelIdeal.nD Cert.KernelIdeal.τ).loc Cert.KernelIdeal.main_arg1)) (m ((c.tc : Thread Cert.KernelIdeal.nD Cert.KernelIdeal.τ).loc Cert.KernelIdeal.main_arg7))) (m ((c.tc : Thread Cert.KernelIdeal.nD Cert.KernelIdeal.τ).loc Cert.KernelIdeal.main_arg4))) (shapeCast Cert.KernelIdeal.S1x128 (m ((c.tc : Thread Cert.KernelIdeal.nD Cert.KernelIdeal.τ).loc Cert.KernelIdeal.main_arg8)) Cert.KernelIdeal.Facts₀.shapeCasts_S128_S1x128),
    fun c => plusBiasRow (Cert.ReferenceIdeal.Stages.aggregate (linear (m ((c.tc : Thread Cert.KernelIdeal.nD Cert.KernelIdeal.τ).loc Cert.KernelIdeal.main_arg2)) (m ((c.tc : Thread Cert.KernelIdeal.nD Cert.KernelIdeal.τ).loc Cert.KernelIdeal.main_arg5))) (m ((c.tc : Thread Cert.KernelIdeal.nD Cert.KernelIdeal.τ).loc Cert.KernelIdeal.main_arg4))) (shapeCast Cert.KernelIdeal.S1x128 (m ((c.tc : Thread Cert.KernelIdeal.nD Cert.KernelIdeal.τ).loc Cert.KernelIdeal.main_arg6)) Cert.KernelIdeal.Facts₀.shapeCasts_S128_S1x128),
    fun c => plusBiasRow (Cert.ReferenceIdeal.Stages.aggregate (linear (m ((c.tc : Thread Cert.KernelIdeal.nD Cert.KernelIdeal.τ).loc Cert.KernelIdeal.main_arg3)) (m ((c.tc : Thread Cert.KernelIdeal.nD Cert.KernelIdeal.τ).loc Cert.KernelIdeal.main_arg7))) (m ((c.tc : Thread Cert.KernelIdeal.nD Cert.KernelIdeal.τ).loc Cert.KernelIdeal.main_arg4))) (shapeCast Cert.KernelIdeal.S1x128 (m ((c.tc : Thread Cert.KernelIdeal.nD Cert.KernelIdeal.τ).loc Cert.KernelIdeal.main_arg8)) Cert.KernelIdeal.Facts₀.shapeCasts_S128_S1x128), ?_, ?_⟩
  · refine (θ_run Cert.KernelIdeal.defs _ _).mono (fun r h c => ?_) (Cert.KernelIdeal.WholeRun.run (F := Ideal) m ρ)
    obtain ⟨h0, h1, h2, h3, hargs⟩ := h c
    exact ⟨h0.trans (Cert.KernelIdeal.KernelValue.result0 m ρ c), h1.trans (Cert.KernelIdeal.KernelValue.result1 m ρ c),
      h2.trans (Cert.KernelIdeal.KernelValue.result2 m ρ c), h3.trans (Cert.KernelIdeal.KernelValue.result3 m ρ c), hargs⟩
  · refine (θ_run Cert.ReferenceIdeal.defs _ _).mono (fun r h c => ?_) (Cert.ReferenceIdeal.HostRun.run (F := Ideal) m' ρ')
    obtain ⟨a0, a1, a2, a3, a4, a5, a6, a7, a8⟩ := hagree c
    refine ⟨(h c _).trans ((Cert.ReferenceIdeal.Results.out0 m' c Cert.KernelIdeal.Facts₀.shapeCasts_S128_S1x128).trans ?_),
      (h c _).trans ((Cert.ReferenceIdeal.Results.out1 m' c Cert.KernelIdeal.Facts₀.shapeCasts_S128_S1x128).trans ?_),
      (h c _).trans ((Cert.ReferenceIdeal.Results.out2 m' c Cert.KernelIdeal.Facts₀.shapeCasts_S128_S1x128).trans ?_),
      (h c _).trans ((Cert.ReferenceIdeal.Results.out3 m' c Cert.KernelIdeal.Facts₀.shapeCasts_S128_S1x128).trans ?_),
      (h c _).trans (Cert.ReferenceIdeal.Results.arg0_end m' c), (h c _).trans (Cert.ReferenceIdeal.Results.arg1_end m' c),
      (h c _).trans (Cert.ReferenceIdeal.Results.arg2_end m' c), (h c _).trans (Cert.ReferenceIdeal.Results.arg3_end m' c),
      (h c _).trans (Cert.ReferenceIdeal.Results.arg4_end m' c), (h c _).trans (Cert.ReferenceIdeal.Results.arg5_end m' c),
      (h c _).trans (Cert.ReferenceIdeal.Results.arg6_end m' c), (h c _).trans (Cert.ReferenceIdeal.Results.arg7_end m' c),
      (h c _).trans (Cert.ReferenceIdeal.Results.arg8_end m' c)⟩
    · rw [a0, a4, a5, a6]
    · rw [a1, a4, a7, a8]
    · rw [a2, a4, a5, a6]
    · rw [a3, a4, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
